-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S8x3x128 : Shape := ⟨3, ![8, 3, 128]⟩
abbrev S8x128 : Shape := ⟨2, ![8, 128]⟩
abbrev S8x3x128x128 : Shape := ⟨4, ![8, 3, 128, 128]⟩
abbrev S8x128x1 : Shape := ⟨3, ![8, 128, 1]⟩
abbrev S8x1 : Shape := ⟨2, ![8, 1]⟩
abbrev S8x3 : Shape := ⟨2, ![8, 3]⟩
abbrev S8x3x2 : Shape := ⟨3, ![8, 3, 2]⟩
abbrev S_ : Shape := ⟨0, ![]⟩
abbrev S8x3x1 : Shape := ⟨3, ![8, 3, 1]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S8x3x128 : S_.BroadcastsInDim S8x3x128 (![] : Fin 0 → Fin S8x3x128.rank)
  reducesTo_S8x3x128_S_d0_1_2 : S8x3x128.ReducesTo [0, 1, 2] S_
  bcast_S_S8x128 : S_.BroadcastsInDim S8x128 (![] : Fin 0 → Fin S8x128.rank)
  reducesTo_S8x128_S_d0_1 : S8x128.ReducesTo [0, 1] S_
  bcast_S_S8x3x128x128 : S_.BroadcastsInDim S8x3x128x128 (![] : Fin 0 → Fin S8x3x128x128.rank)
  reducesTo_S8x3x128x128_S_d0_1_2_3 : S8x3x128x128.ReducesTo [0, 1, 2, 3] S_
  bcast_S_S8x128x1 : S_.BroadcastsInDim S8x128x1 (![] : Fin 0 → Fin S8x128x1.rank)
  reducesTo_S8x128x1_S_d0_1_2 : S8x128x1.ReducesTo [0, 1, 2] S_
  bcast_S_S8x1 : S_.BroadcastsInDim S8x1 (![] : Fin 0 → Fin S8x1.rank)
  reducesTo_S8x1_S_d0_1 : S8x1.ReducesTo [0, 1] S_
  bcast_S_S8x3 : S_.BroadcastsInDim S8x3 (![] : Fin 0 → Fin S8x3.rank)
  reducesTo_S8x3_S_d0_1 : S8x3.ReducesTo [0, 1] S_
  bcast_S_S8x3x2 : S_.BroadcastsInDim S8x3x2 (![] : Fin 0 → Fin S8x3x2.rank)
  reducesTo_S8x3x2_S_d0_1_2 : S8x3x2.ReducesTo [0, 1, 2] S_
  slices_S8x3x2_S8x3x1_0_0_1 : S8x3x2.Slices ![0, 0, 1] S8x3x1
  shapeCasts_S8x3x1_S8x3 : S8x3x1.ShapeCasts S8x3
  slices_S8x3x2_S8x3x1_0_0_0 : S8x3x2.Slices ![0, 0, 0] S8x3x1

variable [Facts]

def fn_part2 {F : FTy → Type} [FloatOps F] (main_arg7 : FVec F S8x3 .f32) (main_arg8 : FVec F S8x3x2 .f32) (main_v33 : IVec S_ 1) : IVec S_ 1 :=
  let main_v34 : FVec F S8x3 .f32 := Host.absf main_arg7
  let main_cst_12 : FVec F S_ .f32 := constant S_ .f32 0x7F800000#32
  let main_v35 : FVec F S8x3 .f32 := broadcastInDim S8x3 ![] bcast_S_S8x3 main_cst_12
  let main_v36 : IVec S8x3 1 := cmpf .olt main_v34 main_v35
  let main_c_13 : IVec S_ 1 := constantI S_ 1 1#1
  let main_v37 : IVec S_ 1 := (fun x v => Host.reduce IntOp.andi x v reducesTo_S8x3_S_d0_1 h_S_) main_v36 main_c_13
  let main_v38 : IVec S_ 1 := andi main_v33 main_v37
  let main_v39 : FVec F S8x3x2 .f32 := Host.absf main_arg8
  let main_cst_14 : FVec F S_ .f32 := constant S_ .f32 0x7F800000#32
  let main_v40 : FVec F S8x3x2 .f32 := broadcastInDim S8x3x2 ![] bcast_S_S8x3x2 main_cst_14
  let main_v41 : IVec S8x3x2 1 := cmpf .olt main_v39 main_v40
  let main_c_15 : IVec S_ 1 := constantI S_ 1 1#1
  let main_v42 : IVec S_ 1 := (fun x v => Host.reduce IntOp.andi x v reducesTo_S8x3x2_S_d0_1_2 h_S_) main_v41 main_c_15
  let main_v43 : IVec S_ 1 := andi main_v38 main_v42
  let main_v44 : FVec F S8x3x1 .f32 := (extractStridedSlice S8x3x1 ![0, 0, 1] · slices_S8x3x2_S8x3x1_0_0_1) main_arg8
  let main_v45 : FVec F S8x3 .f32 := shapeCast S8x3 main_v44 shapeCasts_S8x3x1_S8x3
  let main_v46 : FVec F S8x3x1 .f32 := (extractStridedSlice S8x3x1 ![0, 0, 0] · slices_S8x3x2_S8x3x1_0_0_0) main_arg8
  let main_v47 : FVec F S8x3 .f32 := shapeCast S8x3 main_v46 shapeCasts_S8x3x1_S8x3
  let main_v48 : IVec S8x3 1 := cmpf .une main_v45 main_v47
  let main_c_16 : IVec S_ 1 := constantI S_ 1 1#1
  let main_v49 : IVec S_ 1 := (fun x v => Host.reduce IntOp.andi x v reducesTo_S8x3_S_d0_1 h_S_) main_v48 main_c_16
  let main_v50 : IVec S_ 1 := andi main_v43 main_v49
  main_v50

def fn_part1 {F : FTy → Type} [FloatOps F] (main_arg4 : FVec F S8x3x128 .f32) (main_arg5 : FVec F S8x128x1 .f32) (main_arg6 : FVec F S8x1 .f32) (main_arg7 : FVec F S8x3 .f32) (main_arg8 : FVec F S8x3x2 .f32) (main_v13 : IVec S_ 1) (main_v16 : IVec S8x3x128x128 1) : IVec S_ 1 :=
  let main_c_5 : IVec S_ 1 := constantI S_ 1 1#1
  let main_v17 : IVec S_ 1 := (fun x v => Host.reduce IntOp.andi x v reducesTo_S8x3x128x128_S_d0_1_2_3 h_S_) main_v16 main_c_5
  let main_v18 : IVec S_ 1 := andi main_v13 main_v17
  let main_v19 : FVec F S8x3x128 .f32 := Host.absf main_arg4
  let main_cst_6 : FVec F S_ .f32 := constant S_ .f32 0x7F800000#32
  let main_v20 : FVec F S8x3x128 .f32 := broadcastInDim S8x3x128 ![] bcast_S_S8x3x128 main_cst_6
  let main_v21 : IVec S8x3x128 1 := cmpf .olt main_v19 main_v20
  let main_c_7 : IVec S_ 1 := constantI S_ 1 1#1
  let main_v22 : IVec S_ 1 := (fun x v => Host.reduce IntOp.andi x v reducesTo_S8x3x128_S_d0_1_2 h_S_) main_v21 main_c_7
  let main_v23 : IVec S_ 1 := andi main_v18 main_v22
  let main_v24 : FVec F S8x128x1 .f32 := Host.absf main_arg5
  let main_cst_8 : FVec F S_ .f32 := constant S_ .f32 0x7F800000#32
  let main_v25 : FVec F S8x128x1 .f32 := broadcastInDim S8x128x1 ![] bcast_S_S8x128x1 main_cst_8
  let main_v26 : IVec S8x128x1 1 := cmpf .olt main_v24 main_v25
  let main_c_9 : IVec S_ 1 := constantI S_ 1 1#1
  let main_v27 : IVec S_ 1 := (fun x v => Host.reduce IntOp.andi x v reducesTo_S8x128x1_S_d0_1_2 h_S_) main_v26 main_c_9
  let main_v28 : IVec S_ 1 := andi main_v23 main_v27
  let main_v29 : FVec F S8x1 .f32 := Host.absf main_arg6
  let main_cst_10 : FVec F S_ .f32 := constant S_ .f32 0x7F800000#32
  let main_v30 : FVec F S8x1 .f32 := broadcastInDim S8x1 ![] bcast_S_S8x1 main_cst_10
  let main_v31 : IVec S8x1 1 := cmpf .olt main_v29 main_v30
  let main_c_11 : IVec S_ 1 := constantI S_ 1 1#1
  let main_v32 : IVec S_ 1 := (fun x v => Host.reduce IntOp.andi x v reducesTo_S8x1_S_d0_1 h_S_) main_v31 main_c_11
  let main_v33 : IVec S_ 1 := andi main_v28 main_v32
  fn_part2 (F := F) main_arg7 main_arg8 main_v33

def fn {F : FTy → Type} [FloatOps F] (main_arg0 : FVec F S65536x3 .f32) (main_arg1 : FVec F S8x3x128 .f32) (main_arg2 : FVec F S8x128 .f32) (main_arg3 : FVec F S8x3x128x128 .f32) (main_arg4 : FVec F S8x3x128 .f32) (main_arg5 : FVec F S8x128x1 .f32) (main_arg6 : FVec F S8x1 .f32) (main_arg7 : FVec F S8x3 .f32) (main_arg8 : FVec F S8x3x2 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S8x3x128 .f32 := Host.absf main_arg1
  let main_cst_0 : FVec F S_ .f32 := constant S_ .f32 0x7F800000#32
  let main_v5 : FVec F S8x3x128 .f32 := broadcastInDim S8x3x128 ![] bcast_S_S8x3x128 main_cst_0
  let main_v6 : IVec S8x3x128 1 := cmpf .olt main_v4 main_v5
  let main_c_1 : IVec S_ 1 := constantI S_ 1 1#1
  let main_v7 : IVec S_ 1 := (fun x v => Host.reduce IntOp.andi x v reducesTo_S8x3x128_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x3x128x128 .f32 := Host.absf main_arg3
  let main_cst_4 : FVec F S_ .f32 := constant S_ .f32 0x7F800000#32
  let main_v15 : FVec F S8x3x128x128 .f32 := broadcastInDim S8x3x128x128 ![] bcast_S_S8x3x128x128 main_cst_4
  let main_v16 : IVec S8x3x128x128 1 := cmpf .olt main_v14 main_v15
  fn_part1 (F := F) main_arg4 main_arg5 main_arg6 main_arg7 main_arg8 main_v13 main_v16
-- ==== Kernel.lean ====
abbrev S65536x3 : Shape := ⟨2, ![65536, 3]⟩
abbrev S8x3x128 : Shape := ⟨3, ![8, 3, 128]⟩
abbrev S8x128 : Shape := ⟨2, ![8, 128]⟩
abbrev S8x3x128x128 : Shape := ⟨4, ![8, 3, 128, 128]⟩
abbrev S8x128x1 : Shape := ⟨3, ![8, 128, 1]⟩
abbrev S8x1 : Shape := ⟨2, ![8, 1]⟩
abbrev S8x3 : Shape := ⟨2, ![8, 3]⟩
abbrev S8x3x2 : Shape := ⟨3, ![8, 3, 2]⟩
abbrev S512x128 : Shape := ⟨2, ![512, 128]⟩
abbrev S4096x3 : Shape := ⟨2, ![4096, 3]⟩
abbrev S32x128 : Shape := ⟨2, ![32, 128]⟩
abbrev S4096 : Shape := ⟨1, ![4096]⟩
abbrev S1x3x2 : Shape := ⟨3, ![1, 3, 2]⟩
abbrev S3x2 : Shape := ⟨2, ![3, 2]⟩
abbrev S3x1 : Shape := ⟨2, ![3, 1]⟩
abbrev S3 : Shape := ⟨1, ![3]⟩
abbrev S1x3 : Shape := ⟨2, ![1, 3]⟩
abbrev S1x3x128 : Shape := ⟨3, ![1, 3, 128]⟩
abbrev S3x128 : Shape := ⟨2, ![3, 128]⟩
abbrev S1x128 : Shape := ⟨2, ![1, 128]⟩
abbrev S128 : Shape := ⟨1, ![128]⟩
abbrev S1x3x128x128 : Shape := ⟨4, ![1, 3, 128, 128]⟩
abbrev S3x128x128 : Shape := ⟨3, ![3, 128, 128]⟩
abbrev S1x1 : Shape := ⟨2, ![1, 1]⟩
abbrev S1 : Shape := ⟨1, ![1]⟩
abbrev S4096x128 : Shape := ⟨2, ![4096, 128]⟩
abbrev S1x128x128 : Shape := ⟨3, ![1, 128, 128]⟩
abbrev S128x128 : Shape := ⟨2, ![128, 128]⟩
abbrev S65536 : Shape := ⟨1, ![65536]⟩

abbrev nBuf : Space → Nat
  | .hbm => 12
  | .vmem => 12
  | .smem => 0
  | _ => 0

abbrev bufTy : (tb : Table) → Fin (tcTables nBuf tb) → BufTy
  | .hbm, ⟨0, _⟩ => ⟨S65536x3, .f32⟩
  | .hbm, ⟨1, _⟩ => ⟨S8x3x128, .f32⟩
  | .hbm, ⟨2, _⟩ => ⟨S8x128, .f32⟩
  | .hbm, ⟨3, _⟩ => ⟨S8x3x128x128, .f32⟩
  | .hbm, ⟨4, _⟩ => ⟨S8x3x128, .f32⟩
  | .hbm, ⟨5, _⟩ => ⟨S8x128x1, .f32⟩
  | .hbm, ⟨6, _⟩ => ⟨S8x1, .f32⟩
  | .hbm, ⟨7, _⟩ => ⟨S8x3, .f32⟩
  | .hbm, ⟨8, _⟩ => ⟨S8x3x2, .f32⟩
  | .hbm, ⟨9, _⟩ => ⟨S8x128, .f32⟩
  | .hbm, ⟨10, _⟩ => ⟨S512x128, .f32⟩
  | .hbm, ⟨11, _⟩ => ⟨S65536, .f32⟩
  | .local _ .vmem, ⟨0, _⟩ => ⟨S4096x3, .f32⟩
  | .local _ .vmem, ⟨1, _⟩ => ⟨S4096x3, .f32⟩
  | .local _ .vmem, ⟨2, _⟩ => ⟨S8x3x128, .f32⟩
  | .local _ .vmem, ⟨3, _⟩ => ⟨S8x128, .f32⟩
  | .local _ .vmem, ⟨4, _⟩ => ⟨S8x3x128x128, .f32⟩
  | .local _ .vmem, ⟨5, _⟩ => ⟨S8x3x128, .f32⟩
  | .local _ .vmem, ⟨6, _⟩ => ⟨S8x128, .f32⟩
  | .local _ .vmem, ⟨7, _⟩ => ⟨S8x1, .f32⟩
  | .local _ .vmem, ⟨8, _⟩ => ⟨S8x3, .f32⟩
  | .local _ .vmem, ⟨9, _⟩ => ⟨S8x3x2, .f32⟩
  | .local _ .vmem, ⟨10, _⟩ => ⟨S32x128, .f32⟩
  | .local _ .vmem, ⟨11, _⟩ => ⟨S32x128, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x3x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x128x1_S8x128 : S8x128x1.ShapeCasts S8x128
  inb_S4096x3_S4096x3_0_0 : ∀ a, (![0, 0] : Fin 2 → Nat) a + S4096x3.size a ≤ S4096x3.size a
  h_S4096x3 : 0 < S4096x3.numel
  inb_S8x3x2_S1x3x2_0_0_0 : ∀ a, (![0, 0, 0] : Fin 3 → Nat) a + S1x3x2.size a ≤ S8x3x2.size a
  h_S1x3x2 : 0 < S1x3x2.numel
  shapeCasts_S1x3x2_S3x2 : S1x3x2.ShapeCasts S3x2
  slices_S3x2_o0_0_S3x1 : S3x2.Slices ![0, 0] S3x1
  shapeCasts_S3x1_S3 : S3x1.ShapeCasts S3
  slices_S3x2_o0_1_S3x1 : S3x2.Slices ![0, 1] S3x1
  inb_S8x3_S1x3_0_0 : ∀ a, (![0, 0] : Fin 2 → Nat) a + S1x3.size a ≤ S8x3.size a
  h_S1x3 : 0 < S1x3.numel
  shapeCasts_S1x3_S3 : S1x3.ShapeCasts S3
  inb_S8x3x128_S1x3x128_0_0_0 : ∀ a, (![0, 0, 0] : Fin 3 → Nat) a + S1x3x128.size a ≤ S8x3x128.size a
  h_S1x3x128 : 0 < S1x3x128.numel
  shapeCasts_S1x3x128_S3x128 : S1x3x128.ShapeCasts S3x128
  inb_S8x128_S1x128_0_0 : ∀ a, (![0, 0] : Fin 2 → Nat) a + S1x128.size a ≤ S8x128.size a
  h_S1x128 : 0 < S1x128.numel
  shapeCasts_S1x128_S128 : S1x128.ShapeCasts S128
  inb_S8x3x128x128_S1x3x128x128_0_0_0_0 : ∀ a, (![0, 0, 0, 0] : Fin 4 → Nat) a + S1x3x128x128.size a ≤ S8x3x128x128.size a
  h_S1x3x128x128 : 0 < S1x3x128x128.numel
  shapeCasts_S1x3x128x128_S3x128x128 : S1x3x128x128.ShapeCasts S3x128x128
  inb_S8x1_S1x1_0_0 : ∀ a, (![0, 0] : Fin 2 → Nat) a + S1x1.size a ≤ S8x1.size a
  h_S1x1 : 0 < S1x1.numel
  shapeCasts_S1x1_S1 : S1x1.ShapeCasts S1
  shapeCasts_S3_S1x3 : S3.ShapeCasts S1x3
  broadcasts_S1x3_S4096x3 : S1x3.Broadcasts S4096x3
  shapeCasts_S128_S1x128 : S128.ShapeCasts S1x128
  broadcasts_S1x128_S4096x128 : S1x128.Broadcasts S4096x128
  slices_S3x128x128_o0_0_0_S1x128x128 : S3x128x128.Slices ![0, 0, 0] S1x128x128
  shapeCasts_S1x128x128_S128x128 : S1x128x128.ShapeCasts S128x128
  slices_S3x128_o0_0_S1x128 : S3x128.Slices ![0, 0] S1x128
  slices_S3x128x128_o1_0_0_S1x128x128 : S3x128x128.Slices ![1, 0, 0] S1x128x128
  slices_S3x128_o1_0_S1x128 : S3x128.Slices ![1, 0] S1x128
  slices_S3x128x128_o2_0_0_S1x128x128 : S3x128x128.Slices ![2, 0, 0] S1x128x128
  slices_S3x128_o2_0_S1x128 : S3x128.Slices ![2, 0] S1x128
  reduces_S4096x128_S4096 : S4096x128.Reduces [1] S4096
  inpos_S1_p0 : ∀ a, (![0] : Fin 1 → Nat) a < S1.size a
  reduces_S4096x3_S4096 : S4096x3.Reduces [1] S4096
  inb_S8x3x2_S1x3x2_1_0_0 : ∀ a, (![1, 0, 0] : Fin 3 → Nat) a + S1x3x2.size a ≤ S8x3x2.size a
  inb_S8x3_S1x3_1_0 : ∀ a, (![1, 0] : Fin 2 → Nat) a + S1x3.size a ≤ S8x3.size a
  inb_S8x3x128_S1x3x128_1_0_0 : ∀ a, (![1, 0, 0] : Fin 3 → Nat) a + S1x3x128.size a ≤ S8x3x128.size a
  inb_S8x128_S1x128_1_0 : ∀ a, (![1, 0] : Fin 2 → Nat) a + S1x128.size a ≤ S8x128.size a
  inb_S8x3x128x128_S1x3x128x128_1_0_0_0 : ∀ a, (![1, 0, 0, 0] : Fin 4 → Nat) a + S1x3x128x128.size a ≤ S8x3x128x128.size a
  inb_S8x1_S1x1_1_0 : ∀ a, (![1, 0] : Fin 2 → Nat) a + S1x1.size a ≤ S8x1.size a
  inb_S8x3x2_S1x3x2_2_0_0 : ∀ a, (![2, 0, 0] : Fin 3 → Nat) a + S1x3x2.size a ≤ S8x3x2.size a
  inb_S8x3_S1x3_2_0 : ∀ a, (![2, 0] : Fin 2 → Nat) a + S1x3.size a ≤ S8x3.size a
  inb_S8x3x128_S1x3x128_2_0_0 : ∀ a, (![2, 0, 0] : Fin 3 → Nat) a + S1x3x128.size a ≤ S8x3x128.size a
  inb_S8x128_S1x128_2_0 : ∀ a, (![2, 0] : Fin 2 → Nat) a + S1x128.size a ≤ S8x128.size a
  inb_S8x3x128x128_S1x3x128x128_2_0_0_0 : ∀ a, (![2, 0, 0, 0] : Fin 4 → Nat) a + S1x3x128x128.size a ≤ S8x3x128x128.size a
  inb_S8x1_S1x1_2_0 : ∀ a, (![2, 0] : Fin 2 → Nat) a + S1x1.size a ≤ S8x1.size a
  inb_S8x3x2_S1x3x2_3_0_0 : ∀ a, (![3, 0, 0] : Fin 3 → Nat) a + S1x3x2.size a ≤ S8x3x2.size a
  inb_S8x3_S1x3_3_0 : ∀ a, (![3, 0] : Fin 2 → Nat) a + S1x3.size a ≤ S8x3.size a
  inb_S8x3x128_S1x3x128_3_0_0 : ∀ a, (![3, 0, 0] : Fin 3 → Nat) a + S1x3x128.size a ≤ S8x3x128.size a
  inb_S8x128_S1x128_3_0 : ∀ a, (![3, 0] : Fin 2 → Nat) a + S1x128.size a ≤ S8x128.size a
  inb_S8x3x128x128_S1x3x128x128_3_0_0_0 : ∀ a, (![3, 0, 0, 0] : Fin 4 → Nat) a + S1x3x128x128.size a ≤ S8x3x128x128.size a
  inb_S8x1_S1x1_3_0 : ∀ a, (![3, 0] : Fin 2 → Nat) a + S1x1.size a ≤ S8x1.size a
  inb_S8x3x2_S1x3x2_4_0_0 : ∀ a, (![4, 0, 0] : Fin 3 → Nat) a + S1x3x2.size a ≤ S8x3x2.size a
  inb_S8x3_S1x3_4_0 : ∀ a, (![4, 0] : Fin 2 → Nat) a + S1x3.size a ≤ S8x3.size a
  inb_S8x3x128_S1x3x128_4_0_0 : ∀ a, (![4, 0, 0] : Fin 3 → Nat) a + S1x3x128.size a ≤ S8x3x128.size a
  inb_S8x128_S1x128_4_0 : ∀ a, (![4, 0] : Fin 2 → Nat) a + S1x128.size a ≤ S8x128.size a
  inb_S8x3x128x128_S1x3x128x128_4_0_0_0 : ∀ a, (![4, 0, 0, 0] : Fin 4 → Nat) a + S1x3x128x128.size a ≤ S8x3x128x128.size a
  inb_S8x1_S1x1_4_0 : ∀ a, (![4, 0] : Fin 2 → Nat) a + S1x1.size a ≤ S8x1.size a
  inb_S8x3x2_S1x3x2_5_0_0 : ∀ a, (![5, 0, 0] : Fin 3 → Nat) a + S1x3x2.size a ≤ S8x3x2.size a
  inb_S8x3_S1x3_5_0 : ∀ a, (![5, 0] : Fin 2 → Nat) a + S1x3.size a ≤ S8x3.size a
  inb_S8x3x128_S1x3x128_5_0_0 : ∀ a, (![5, 0, 0] : Fin 3 → Nat) a + S1x3x128.size a ≤ S8x3x128.size a
  inb_S8x128_S1x128_5_0 : ∀ a, (![5, 0] : Fin 2 → Nat) a + S1x128.size a ≤ S8x128.size a
  inb_S8x3x128x128_S1x3x128x128_5_0_0_0 : ∀ a, (![5, 0, 0, 0] : Fin 4 → Nat) a + S1x3x128x128.size a ≤ S8x3x128x128.size a
  inb_S8x1_S1x1_5_0 : ∀ a, (![5, 0] : Fin 2 → Nat) a + S1x1.size a ≤ S8x1.size a
  inb_S8x3x2_S1x3x2_6_0_0 : ∀ a, (![6, 0, 0] : Fin 3 → Nat) a + S1x3x2.size a ≤ S8x3x2.size a
  inb_S8x3_S1x3_6_0 : ∀ a, (![6, 0] : Fin 2 → Nat) a + S1x3.size a ≤ S8x3.size a
  inb_S8x3x128_S1x3x128_6_0_0 : ∀ a, (![6, 0, 0] : Fin 3 → Nat) a + S1x3x128.size a ≤ S8x3x128.size a
  inb_S8x128_S1x128_6_0 : ∀ a, (![6, 0] : Fin 2 → Nat) a + S1x128.size a ≤ S8x128.size a
  inb_S8x3x128x128_S1x3x128x128_6_0_0_0 : ∀ a, (![6, 0, 0, 0] : Fin 4 → Nat) a + S1x3x128x128.size a ≤ S8x3x128x128.size a
  inb_S8x1_S1x1_6_0 : ∀ a, (![6, 0] : Fin 2 → Nat) a + S1x1.size a ≤ S8x1.size a
  inb_S8x3x2_S1x3x2_7_0_0 : ∀ a, (![7, 0, 0] : Fin 3 → Nat) a + S1x3x2.size a ≤ S8x3x2.size a
  inb_S8x3_S1x3_7_0 : ∀ a, (![7, 0] : Fin 2 → Nat) a + S1x3.size a ≤ S8x3.size a
  inb_S8x3x128_S1x3x128_7_0_0 : ∀ a, (![7, 0, 0] : Fin 3 → Nat) a + S1x3x128.size a ≤ S8x3x128.size a
  inb_S8x128_S1x128_7_0 : ∀ a, (![7, 0] : Fin 2 → Nat) a + S1x128.size a ≤ S8x128.size a
  inb_S8x3x128x128_S1x3x128x128_7_0_0_0 : ∀ a, (![7, 0, 0, 0] : Fin 4 → Nat) a + S1x3x128x128.size a ≤ S8x3x128x128.size a
  inb_S8x1_S1x1_7_0 : ∀ a, (![7, 0] : Fin 2 → Nat) a + S1x1.size a ≤ S8x1.size a
  shapeCasts_S4096_S32x128 : S4096.ShapeCasts S32x128
  inb_S32x128_S32x128_0_0 : ∀ a, (![0, 0] : Fin 2 → Nat) a + S32x128.size a ≤ S32x128.size a
  h_S32x128 : 0 < S32x128.numel
  shapeCasts_S512x128_S65536 : S512x128.ShapeCasts S65536
  dot_S4096x3_S3x128_S4096x128_1_0_0_1_n_n_wf : DotDims.WF S4096x3 S3x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S65536x3.size a
  hwx0_0 : ∀ i : grid0.Coords, EltTy.bits .f32 = 32 ∨ (Rect.block (s := S65536x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3x128.size a ≤ S8x3x128.size a
  hwx0_1 : ∀ i : grid0.Coords, EltTy.bits .f32 = 32 ∨ (Rect.block (s := S8x3x128) S8x3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x3x128x128.size a ≤ S8x3x128x128.size a
  hwx0_3 : ∀ i : grid0.Coords, EltTy.bits .f32 = 32 ∨ (Rect.block (s := S8x3x128x128) S8x3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x3x128.size a ≤ S8x3x128.size a
  hwx0_4 : ∀ i : grid0.Coords, EltTy.bits .f32 = 32 ∨ (Rect.block (s := S8x3x128) S8x3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x3.size a ≤ S8x3.size a
  hwx0_7 : ∀ i : grid0.Coords, EltTy.bits .f32 = 32 ∨ (Rect.block (s := S8x3) S8x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x3x2.size a ≤ S8x3x2.size a
  hwx0_8 : ∀ i : grid0.Coords, EltTy.bits .f32 = 32 ∨ (Rect.block (s := S8x3x2) S8x3x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S512x128.size a
  hwx0_9 : ∀ i : grid0.Coords, EltTy.bits .f32 = 32 ∨ (Rect.block (s := S512x128) S32x128.size (cc0_transform_9 i) (hinb0_9 i)).WholeWords (EltTy.packing .f32)

variable [Facts₀]

def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x3x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S32x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x3 : Shape := ⟨2, ![65536, 3]⟩
abbrev S8x3x128 : Shape := ⟨3, ![8, 3, 128]⟩
abbrev S8x128 : Shape := ⟨2, ![8, 128]⟩
abbrev S8x3x128x128 : Shape := ⟨4, ![8, 3, 128, 128]⟩
abbrev S8x128x1 : Shape := ⟨3, ![8, 128, 1]⟩
abbrev S8x1 : Shape := ⟨2, ![8, 1]⟩
abbrev S8x3 : Shape := ⟨2, ![8, 3]⟩
abbrev S8x3x2 : Shape := ⟨3, ![8, 3, 2]⟩
abbrev S8x3x1 : Shape := ⟨3, ![8, 3, 1]⟩
abbrev S8x1x3 : Shape := ⟨3, ![8, 1, 3]⟩
abbrev S1x65536x3 : Shape := ⟨3, ![1, 65536, 3]⟩
abbrev S8x65536x3 : Shape := ⟨3, ![8, 65536, 3]⟩
abbrev S_ : Shape := ⟨0, ![]⟩
abbrev S8x65536x128 : Shape := ⟨3, ![8, 65536, 128]⟩
abbrev S8x1x128 : Shape := ⟨3, ![8, 1, 128]⟩
abbrev S8x1x128x128 : Shape := ⟨4, ![8, 1, 128, 128]⟩
abbrev S8x128x128 : Shape := ⟨3, ![8, 128, 128]⟩
abbrev S8x65536x1 : Shape := ⟨3, ![8, 65536, 1]⟩
abbrev S8x1x1 : Shape := ⟨3, ![8, 1, 1]⟩
abbrev S8x65536 : Shape := ⟨2, ![8, 65536]⟩
abbrev S65536 : Shape := ⟨1, ![65536]⟩
abbrev S1x65536 : Shape := ⟨2, ![1, 65536]⟩
abbrev S1x65536x1 : Shape := ⟨3, ![1, 65536, 1]⟩
abbrev S1 : Shape := ⟨1, ![1]⟩
abbrev S1x1x1 : Shape := ⟨3, ![1, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S65536x3, .f32⟩
  | .hbm, ⟨1, _⟩ => ⟨S8x3x128, .f32⟩
  | .hbm, ⟨2, _⟩ => ⟨S8x128, .f32⟩
  | .hbm, ⟨3, _⟩ => ⟨S8x3x128x128, .f32⟩
  | .hbm, ⟨4, _⟩ => ⟨S8x3x128, .f32⟩
  | .hbm, ⟨5, _⟩ => ⟨S8x128x1, .f32⟩
  | .hbm, ⟨6, _⟩ => ⟨S8x1, .f32⟩
  | .hbm, ⟨7, _⟩ => ⟨S8x3, .f32⟩
  | .hbm, ⟨8, _⟩ => ⟨S8x3x2, .f32⟩
  | .hbm, ⟨9, _⟩ => ⟨S8x3x1, .f32⟩
  | .hbm, ⟨10, _⟩ => ⟨S8x3, .f32⟩
  | .hbm, ⟨11, _⟩ => ⟨S8x1x3, .f32⟩
  | .hbm, ⟨12, _⟩ => ⟨S8x3x1, .f32⟩
  | .hbm, ⟨13, _⟩ => ⟨S8x3, .f32⟩
  | .hbm, ⟨14, _⟩ => ⟨S8x1x3, .f32⟩
  | .hbm, ⟨15, _⟩ => ⟨S1x65536x3, .f32⟩
  | .hbm, ⟨16, _⟩ => ⟨S8x65536x3, .f32⟩
  | .hbm, ⟨17, _⟩ => ⟨S8x65536x3, .f32⟩
  | .hbm, ⟨18, _⟩ => ⟨S8x65536x3, .f32⟩
  | .hbm, ⟨19, _⟩ => ⟨S_, .f32⟩
  | .hbm, ⟨20, _⟩ => ⟨S8x65536x3, .f32⟩
  | .hbm, ⟨21, _⟩ => ⟨S8x65536x3, .f32⟩
  | .hbm, ⟨22, _⟩ => ⟨S8x1x3, .f32⟩
  | .hbm, ⟨23, _⟩ => ⟨S8x65536x3, .f32⟩
  | .hbm, ⟨24, _⟩ => ⟨S8x65536x3, .f32⟩
  | .hbm, ⟨25, _⟩ => ⟨S_, .f32⟩
  | .hbm, ⟨26, _⟩ => ⟨S8x65536x3, .f32⟩
  | .hbm, ⟨27, _⟩ => ⟨S8x65536x3, .f32⟩
  | .hbm, ⟨28, _⟩ => ⟨S8x1x3, .f32⟩
  | .hbm, ⟨29, _⟩ => ⟨S8x65536x3, .f32⟩
  | .hbm, ⟨30, _⟩ => ⟨S8x65536x3, .f32⟩
  | .hbm, ⟨31, _⟩ => ⟨S8x65536x128, .f32⟩
  | .hbm, ⟨32, _⟩ => ⟨S8x1x128, .f32⟩
  | .hbm, ⟨33, _⟩ => ⟨S8x65536x128, .f32⟩
  | .hbm, ⟨34, _⟩ => ⟨S8x65536x128, .f32⟩
  | .hbm, ⟨35, _⟩ => ⟨S_, .f32⟩
  | .hbm, ⟨36, _⟩ => ⟨S8x65536x128, .f32⟩
  | .hbm, ⟨37, _⟩ => ⟨S8x65536x128, .f32⟩
  | .hbm, ⟨38, _⟩ => ⟨S8x65536x128, .f32⟩
  | .hbm, ⟨39, _⟩ => ⟨S8x1x128x128, .f32⟩
  | .hbm, ⟨40, _⟩ => ⟨S8x128x128, .f32⟩
  | .hbm, ⟨41, _⟩ => ⟨S8x65536x128, .f32⟩
  | .hbm, ⟨42, _⟩ => ⟨S8x1x128, .f32⟩
  | .hbm, ⟨43, _⟩ => ⟨S8x128, .f32⟩
  | .hbm, ⟨44, _⟩ => ⟨S8x1x128, .f32⟩
  | .hbm, ⟨45, _⟩ => ⟨S8x65536x128, .f32⟩
  | .hbm, ⟨46, _⟩ => ⟨S8x65536x128, .f32⟩
  | .hbm, ⟨47, _⟩ => ⟨S_, .f32⟩
  | .hbm, ⟨48, _⟩ => ⟨S8x65536x128, .f32⟩
  | .hbm, ⟨49, _⟩ => ⟨S8x65536x128, .f32⟩
  | .hbm, ⟨50, _⟩ => ⟨S8x65536x128, .f32⟩
  | .hbm, ⟨51, _⟩ => ⟨S8x1x128x128, .f32⟩
  | .hbm, ⟨52, _⟩ => ⟨S8x128x128, .f32⟩
  | .hbm, ⟨53, _⟩ => ⟨S8x65536x128, .f32⟩
  | .hbm, ⟨54, _⟩ => ⟨S8x1x128, .f32⟩
  | .hbm, ⟨55, _⟩ => ⟨S8x128, .f32⟩
  | .hbm, ⟨56, _⟩ => ⟨S8x1x128, .f32⟩
  | .hbm, ⟨57, _⟩ => ⟨S8x65536x128, .f32⟩
  | .hbm, ⟨58, _⟩ => ⟨S8x65536x128, .f32⟩
  | .hbm, ⟨59, _⟩ => ⟨S_, .f32⟩
  | .hbm, ⟨60, _⟩ => ⟨S8x65536x128, .f32⟩
  | .hbm, ⟨61, _⟩ => ⟨S8x65536x128, .f32⟩
  | .hbm, ⟨62, _⟩ => ⟨S8x65536x128, .f32⟩
  | .hbm, ⟨63, _⟩ => ⟨S8x1x128x128, .f32⟩
  | .hbm, ⟨64, _⟩ => ⟨S8x128x128, .f32⟩
  | .hbm, ⟨65, _⟩ => ⟨S8x65536x128, .f32⟩
  | .hbm, ⟨66, _⟩ => ⟨S8x1x128, .f32⟩
  | .hbm, ⟨67, _⟩ => ⟨S8x128, .f32⟩
  | .hbm, ⟨68, _⟩ => ⟨S8x1x128, .f32⟩
  | .hbm, ⟨69, _⟩ => ⟨S8x65536x128, .f32⟩
  | .hbm, ⟨70, _⟩ => ⟨S8x65536x128, .f32⟩
  | .hbm, ⟨71, _⟩ => ⟨S_, .f32⟩
  | .hbm, ⟨72, _⟩ => ⟨S8x65536x128, .f32⟩
  | .hbm, ⟨73, _⟩ => ⟨S8x65536x128, .f32⟩
  | .hbm, ⟨74, _⟩ => ⟨S8x65536x128, .f32⟩
  | .hbm, ⟨75, _⟩ => ⟨S8x65536x1, .f32⟩
  | .hbm, ⟨76, _⟩ => ⟨S8x1x1, .f32⟩
  | .hbm, ⟨77, _⟩ => ⟨S8x65536x1, .f32⟩
  | .hbm, ⟨78, _⟩ => ⟨S8x65536x1, .f32⟩
  | .hbm, ⟨79, _⟩ => ⟨S8x65536, .f32⟩
  | .hbm, ⟨80, _⟩ => ⟨S1x65536x3, .f32⟩
  | .hbm, ⟨81, _⟩ => ⟨S8x65536x3, .f32⟩
  | .hbm, ⟨82, _⟩ => ⟨S8x65536x3, .f32⟩
  | .hbm, ⟨83, _⟩ => ⟨S8x65536x3, .i1⟩
  | .hbm, ⟨84, _⟩ => ⟨S1x65536x3, .f32⟩
  | .hbm, ⟨85, _⟩ => ⟨S8x65536x3, .f32⟩
  | .hbm, ⟨86, _⟩ => ⟨S8x65536x3, .f32⟩
  | .hbm, ⟨87, _⟩ => ⟨S8x65536x3, .i1⟩
  | .hbm, ⟨88, _⟩ => ⟨S8x65536x3, .i1⟩
  | .hbm, ⟨89, _⟩ => ⟨S_, .i1⟩
  | .hbm, ⟨90, _⟩ => ⟨S8x65536, .i1⟩
  | .hbm, ⟨91, _⟩ => ⟨S8x65536, .i32⟩
  | .hbm, ⟨92, _⟩ => ⟨S_, .i1⟩
  | .hbm, ⟨93, _⟩ => ⟨S_, .i32⟩
  | .hbm, ⟨94, _⟩ => ⟨S65536, .i1⟩
  | .hbm, ⟨95, _⟩ => ⟨S65536, .i32⟩
  | .hbm, ⟨96, _⟩ => ⟨S_, .i1⟩
  | .hbm, ⟨97, _⟩ => ⟨S65536, .i1⟩
  | .hbm, ⟨98, _⟩ => ⟨S1x65536, .i32⟩
  | .hbm, ⟨99, _⟩ => ⟨S_, .i32⟩
  | .hbm, ⟨100, _⟩ => ⟨S1x65536, .i32⟩
  | .hbm, ⟨101, _⟩ => ⟨S1x65536, .i1⟩
  | .hbm, ⟨102, _⟩ => ⟨S_, .i32⟩
  | .hbm, ⟨103, _⟩ => ⟨S1x65536, .i32⟩
  | .hbm, ⟨104, _⟩ => ⟨S1x65536, .i32⟩
  | .hbm, ⟨105, _⟩ => ⟨S1x65536, .i32⟩
  | .hbm, ⟨106, _⟩ => ⟨S1x65536x1, .i32⟩
  | .hbm, ⟨107, _⟩ => ⟨S1, .i32⟩
  | .hbm, ⟨108, _⟩ => ⟨S_, .i32⟩
  | .hbm, ⟨109, _⟩ => ⟨S1x65536x1, .i32⟩
  | .hbm, ⟨110, _⟩ => ⟨S1x65536x1, .i1⟩
  | .hbm, ⟨111, _⟩ => ⟨S1x1x1, .i32⟩
  | .hbm, ⟨112, _⟩ => ⟨S1x65536x1, .i32⟩
  | .hbm, ⟨113, _⟩ => ⟨S1x65536x1, .i1⟩
  | .hbm, ⟨114, _⟩ => ⟨S1x65536x1, .i1⟩
  | .hbm, ⟨115, _⟩ => ⟨S_, .i1⟩
  | .hbm, ⟨116, _⟩ => ⟨S1x65536, .i1⟩
  | .hbm, ⟨117, _⟩ => ⟨S1x65536, .f32⟩
  | .hbm, ⟨118, _⟩ => ⟨S_, .f32⟩
  | .hbm, ⟨119, _⟩ => ⟨S1x65536, .f32⟩
  | .hbm, ⟨120, _⟩ => ⟨S1x65536, .f32⟩
  | .hbm, ⟨121, _⟩ => ⟨S65536, .f32⟩
  | .hbm, ⟨122, _⟩ => ⟨S_, .f32⟩
  | .hbm, ⟨123, _⟩ => ⟨S_, .f32⟩
  | .hbm, ⟨124, _⟩ => ⟨S65536, .f32⟩
  | .hbm, ⟨125, _⟩ => ⟨S65536, .f32⟩
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_c : Ref sig .tc := ⟨.hbm, 89, rfl⟩
abbrev main_v74 : Ref sig .tc := ⟨.hbm, 90, rfl⟩
abbrev main_call0_v0 : Ref sig .tc := ⟨.hbm, 91, rfl⟩
abbrev main_call0_c : Ref sig .tc := ⟨.hbm, 92, rfl⟩
abbrev main_call0_c_0 : Ref sig .tc := ⟨.hbm, 93, rfl⟩
abbrev main_call0_v1_0 : Ref sig .tc := ⟨.hbm, 94, rfl⟩
abbrev main_v75 : Ref sig .tc := ⟨.hbm, 95, rfl⟩
abbrev main_c_5 : Ref sig .tc := ⟨.hbm, 96, rfl⟩
abbrev main_v76 : Ref sig .tc := ⟨.hbm, 97, rfl⟩
abbrev main_v77 : Ref sig .tc := ⟨.hbm, 98, rfl⟩
abbrev main_call1_c : Ref sig .tc := ⟨.hbm, 99, rfl⟩
abbrev main_call1_v0 : Ref sig .tc := ⟨.hbm, 100, rfl⟩
abbrev main_call1_v1 : Ref sig .tc := ⟨.hbm, 101, rfl⟩
abbrev main_call1_c_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_c_1 : Ref sig .tc := ⟨.hbm, 107, rfl⟩
abbrev main_call1_c_2 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_c_3 : Ref sig .tc := ⟨.hbm, 115, rfl⟩
abbrev main_call1_v12 : Ref sig .tc := ⟨.hbm, 116, rfl⟩
abbrev main_call1_v13 : Ref sig .tc := ⟨.hbm, 117, rfl⟩
abbrev main_call1_cst : Ref sig .tc := ⟨.hbm, 118, rfl⟩
abbrev main_call1_v14 : Ref sig .tc := ⟨.hbm, 119, rfl⟩
abbrev main_v78 : Ref sig .tc := ⟨.hbm, 120, rfl⟩
abbrev main_v79 : Ref sig .tc := ⟨.hbm, 121, rfl⟩
abbrev main_cst_6 : Ref sig .tc := ⟨.hbm, 122, rfl⟩
abbrev main_call2_v0 : Ref sig .tc := ⟨.hbm, 123, rfl⟩
abbrev main_call2_v1 : Ref sig .tc := ⟨.hbm, 124, rfl⟩
abbrev main_v80 : Ref sig .tc := ⟨.hbm, 125, rfl⟩

abbrev nD : Nat := 1
abbrev τ : Topo := Topo.v7x

variable {F : FTy → Type} [FloatOps F]

class Facts₀ : Prop where
  slices_S8x3x2_S8x3x1_0_0_0 : S8x3x2.Slices ![0, 0, 0] S8x3x1
  shapeCasts_S8x3x1_S8x3 : S8x3x1.ShapeCasts S8x3
  bcast_S8x3_S8x1x3_0_2 : S8x3.BroadcastsInDim S8x1x3 (![0, 2] : Fin 2 → Fin S8x1x3.rank)
  slices_S8x3x2_S8x3x1_0_0_1 : S8x3x2.Slices ![0, 0, 1] S8x3x1
  bcast_S65536x3_S1x65536x3_1_2 : S65536x3.BroadcastsInDim S1x65536x3 (![1, 2] : Fin 2 → Fin S1x65536x3.rank)
  bcast_S1x65536x3_S8x65536x3_0_1_2 : S1x65536x3.BroadcastsInDim S8x65536x3 (![0, 1, 2] : Fin 3 → Fin S8x65536x3.rank)
  bcast_S8x1x3_S8x65536x3_0_1_2 : S8x1x3.BroadcastsInDim S8x65536x3 (![0, 1, 2] : Fin 3 → Fin S8x65536x3.rank)
  bcast_S_S8x65536x3 : S_.BroadcastsInDim S8x65536x3 (![] : Fin 0 → Fin S8x65536x3.rank)
  bcast_S8x128_S8x1x128_0_2 : S8x128.BroadcastsInDim S8x1x128 (![0, 2] : Fin 2 → Fin S8x1x128.rank)
  bcast_S8x1x128_S8x65536x128_0_1_2 : S8x1x128.BroadcastsInDim S8x65536x128 (![0, 1, 2] : Fin 3 → Fin S8x65536x128.rank)
  bcast_S_S8x65536x128 : S_.BroadcastsInDim S8x65536x128 (![] : Fin 0 → Fin S8x65536x128.rank)
  slices_S8x3x128x128_S8x1x128x128_0_0_0_0 : S8x3x128x128.Slices ![0, 0, 0, 0] S8x1x128x128
  shapeCasts_S8x1x128x128_S8x128x128 : S8x1x128x128.ShapeCasts S8x128x128
  slices_S8x3x128_S8x1x128_0_0_0 : S8x3x128.Slices ![0, 0, 0] S8x1x128
  shapeCasts_S8x1x128_S8x128 : S8x1x128.ShapeCasts S8x128
  slices_S8x3x128x128_S8x1x128x128_0_1_0_0 : S8x3x128x128.Slices ![0, 1, 0, 0] S8x1x128x128
  slices_S8x3x128_S8x1x128_0_1_0 : S8x3x128.Slices ![0, 1, 0] S8x1x128
  slices_S8x3x128x128_S8x1x128x128_0_2_0_0 : S8x3x128x128.Slices ![0, 2, 0, 0] S8x1x128x128
  slices_S8x3x128_S8x1x128_0_2_0 : S8x3x128.Slices ![0, 2, 0] S8x1x128
  bcast_S8x1_S8x1x1_0_2 : S8x1.BroadcastsInDim S8x1x1 (![0, 2] : Fin 2 → Fin S8x1x1.rank)
  bcast_S8x1x1_S8x65536x1_0_1_2 : S8x1x1.BroadcastsInDim S8x65536x1 (![0, 1, 2] : Fin 3 → Fin S8x65536x1.rank)
  shapeCasts_S8x65536x1_S8x65536 : S8x65536x1.ShapeCasts S8x65536
  reducesTo_S8x65536x3_S8x65536_d2 : S8x65536x3.ReducesTo [2] S8x65536
  h_S_ : 0 < S_.numel
  reducesTo_S8x65536_S65536_d0 : S8x65536.ReducesTo [0] S65536
  bcast_S65536_S1x65536_1 : S65536.BroadcastsInDim S1x65536 (![1] : Fin 1 → Fin S1x65536.rank)
  bcast_S_S1x65536 : S_.BroadcastsInDim S1x65536 (![] : Fin 0 → Fin S1x65536.rank)
  shapeCasts_S1x65536_S1x65536x1 : S1x65536.ShapeCasts S1x65536x1
  bcast_S_S1x65536x1 : S_.BroadcastsInDim S1x65536x1 (![] : Fin 0 → Fin S1x65536x1.rank)
  bcast_S1_S1x1x1_2 : S1.BroadcastsInDim S1x1x1 (![2] : Fin 1 → Fin S1x1x1.rank)
  bcast_S1x1x1_S1x65536x1_0_1_2 : S1x1x1.BroadcastsInDim S1x65536x1 (![0, 1, 2] : Fin 3 → Fin S1x65536x1.rank)
  reducesTo_S1x65536x1_S1x65536_d2 : S1x65536x1.ReducesTo [2] S1x65536
  shapeCasts_S1x65536_S65536 : S1x65536.ShapeCasts S65536
  bcast_S_S65536 : S_.BroadcastsInDim S65536 (![] : Fin 0 → Fin S65536.rank)
  dot_S8x65536x3_S8x3x128_S8x65536x128_2_1_1_2_0_0_wf : DotDims.WF S8x65536x3 S8x3x128 S8x65536x128 [2] [1] [1] [2] [0] [0]
  dot_S8x65536x128_S8x128x128_S8x65536x128_2_1_1_2_0_0_wf : DotDims.WF S8x65536x128 S8x128x128 S8x65536x128 [2] [1] [1] [2] [0] [0]
  dot_S8x65536x128_S8x128x1_S8x65536x1_2_1_1_2_0_0_wf : DotDims.WF S8x65536x128 S8x128x1 S8x65536x1 [2] [1] [1] [2] [0] [0]
  gather_S8x65536_S1x65536x1_S1x65536_n_0_1_1_0_2_11_wf : GatherDims.WF S8x65536 S1x65536x1 S1x65536 [] [0] [1] [0] [1] 2 ![1, 1]

variable [Facts₀]

def dot_S8x65536x3_S8x3x128_S8x65536x128_2_1_1_2_0_0 : DotDims S8x65536x3 S8x3x128 S8x65536x128 where
  lhsContracting := [2]
  rhsContracting := [1]
  lhsNonContracting := [1]
  rhsNonContracting := [2]
  lhsBatch := [0]
  rhsBatch := [0]
  wf := dot_S8x65536x3_S8x3x128_S8x65536x128_2_1_1_2_0_0_wf
def dot_S8x65536x128_S8x128x128_S8x65536x128_2_1_1_2_0_0 : DotDims S8x65536x128 S8x128x128 S8x65536x128 where
  lhsContracting := [2]
  rhsContracting := [1]
  lhsNonContracting := [1]
  rhsNonContracting := [2]
  lhsBatch := [0]
  rhsBatch := [0]
  wf := dot_S8x65536x128_S8x128x128_S8x65536x128_2_1_1_2_0_0_wf
def dot_S8x65536x128_S8x128x1_S8x65536x1_2_1_1_2_0_0 : DotDims S8x65536x128 S8x128x1 S8x65536x1 where
  lhsContracting := [2]
  rhsContracting := [1]
  lhsNonContracting := [1]
  rhsNonContracting := [2]
  lhsBatch := [0]
  rhsBatch := [0]
  wf := dot_S8x65536x128_S8x128x1_S8x65536x1_2_1_1_2_0_0_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8x65536_S1x65536x1_S1x65536_n_0_1_1_0_2_11 : GatherDims S8x65536 S1x65536x1 S1x65536 where
  offsetDims := []
  collapsedSliceDims := [0]
  operandBatchingDims := [1]
  startIndicesBatchingDims := [1]
  startIndexMap := [0]
  indexVectorDim := 2
  sliceSizes := ![1, 1]
  wf := gather_S8x65536_S1x65536x1_S1x65536_n_0_1_1_0_2_11_wf

class Facts : Prop extends Facts₀ where

variable [Facts]
-- ==== Proof.Spec.lean ====
/-
  The specification both programs are read against, at one point of space.

  A point `x : Fin 3 → EReal` and eight axis-aligned boxes (lower corners `lo r`, upper corners `hi r`).
  The point is inside box `r` when `lo r d ≤ x d ≤ hi r d` on the three axes.  Box `r` carries a small
  sine network: the point is normalised to the box, `u d = (2 (x d − lo r d) / (hi r d − lo r d) − 1) · Sc r d`,
  then `h₀ = sin (30 (u · W_in r + b_in r))`, three hidden layers `h ↦ sin (30 (h · W_h r l + b_h r l))`,
  and the value `h₃ · W_out r + b_out r`.  The output at the point is the value of the FIRST box that
  contains it, and zero when no box does.

  Two spellings of the normalisation occur: the quotient by the extent (`xnR`), and the product with
  a guarded reciprocal, `1 / extent` when the extent is positive and `0` otherwise (`xnK`).  On a box
  that contains the point and whose extent is not zero the extent is positive, and there the two
  agree on the extended reals: `a / e = a · e⁻¹ = a · (1 · e⁻¹)` for `e ≠ 0` (`xnK_eq_xnR`).  Only the
  first containing box is ever read, so the two outputs agree (`outK_eq_outR`).
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

/-- The float literals both programs carry, as the extended reals their patterns denote. -/
abbrev two : EReal := Ideal.ofBits .f32 0x40000000#32
abbrev one : EReal := Ideal.ofBits .f32 0x3F800000#32
abbrev thirty : EReal := Ideal.ofBits .f32 0x41F00000#32
abbrev zero : EReal := Ideal.ofBits .f32 0x00000000#32

/-- The weights of the eight networks and the boxes, by coordinates. -/
structure Args where
  Win : Fin 8 → Fin 3 → Fin 128 → EReal
  bin : Fin 8 → Fin 128 → EReal
  Wh : Fin 8 → Fin 3 → Fin 128 → Fin 128 → EReal
  bh : Fin 8 → Fin 3 → Fin 128 → EReal
  Wout : Fin 8 → Fin 128 → EReal
  bout : Fin 8 → EReal
  Sc : Fin 8 → Fin 3 → EReal
  lo : Fin 8 → Fin 3 → EReal
  hi : Fin 8 → Fin 3 → EReal

/-- The weights read off the argument arrays (the output weights already as an `8 × 128` table). -/
def argsOf (a1 : (⟨3, ![8, 3, 128]⟩ : Shape).Idx → EReal) (a2 : (⟨2, ![8, 128]⟩ : Shape).Idx → EReal)
    (a3 : (⟨4, ![8, 3, 128, 128]⟩ : Shape).Idx → EReal) (a4 : (⟨3, ![8, 3, 128]⟩ : Shape).Idx → EReal)
    (wout : Fin 8 → Fin 128 → EReal) (a6 : (⟨2, ![8, 1]⟩ : Shape).Idx → EReal)
    (a7 : (⟨2, ![8, 3]⟩ : Shape).Idx → EReal) (a8 : (⟨3, ![8, 3, 2]⟩ : Shape).Idx → EReal) : Args where
  Win r d k := a1 (ix3 r d k)
  bin r k := a2 (ix2 r k)
  Wh r l j k := a3 (ix4 r l j k)
  bh r l k := a4 (ix3 r l k)
  Wout := wout
  bout r := a6 (ix2 r 0)
  Sc r d := a7 (ix2 r d)
  lo r d := a8 (ix3 r d 0)
  hi r d := a8 (ix3 r d 1)

/-- The extent of box `r` along axis `d`. -/
def ext (A : Args) (r : Fin 8) (d : Fin 3) : EReal := A.hi r d - A.lo r d

/-- The normalised coordinate by the quotient. -/
def xnR (A : Args) (r : Fin 8) (x : Fin 3 → EReal) (d : Fin 3) : EReal :=
  (Ideal.div (two * (x d - A.lo r d)) (ext A r d) - one) * A.Sc r d

/-- The guarded reciprocal of the extent: `1 / extent` where the extent is positive, else `0`. -/
def inv (A : Args) (r : Fin 8) (d : Fin 3) : EReal :=
  if zero < ext A r d then Ideal.div one (if zero < ext A r d then ext A r d else one) else zero

/-- The normalised coordinate by the guarded reciprocal. -/
def xnK (A : Args) (r : Fin 8) (x : Fin 3 → EReal) (d : Fin 3) : EReal :=
  (two * (x d - A.lo r d) * inv A r d - one) * A.Sc r d

/-- The activation `z ↦ sin (30 z)`. -/
def act (z : EReal) : EReal := Ideal.sin (thirty * z)

/-- The input layer of network `r` on normalised coordinates `u`. -/
def l0 (A : Args) (r : Fin 8) (u : Fin 3 → EReal) (k : Fin 128) : EReal :=
  act ((∑ d : Fin 3, u d * A.Win r d k) + A.bin r k)

/-- Hidden layer `l` of network `r`. -/
def lh (A : Args) (r : Fin 8) (l : Fin 3) (h : Fin 128 → EReal) (k : Fin 128) : EReal :=
  act ((∑ j : Fin 128, h j * A.Wh r l j k) + A.bh r l k)

/-- The value of network `r` on normalised coordinates `u`. -/
def visOf (A : Args) (r : Fin 8) (u : Fin 3 → EReal) : EReal :=
  (∑ j : Fin 128, lh A r 2 (lh A r 1 (lh A r 0 (l0 A r u))) j * A.Wout r j) + A.bout r

/-- The point is inside box `r`. -/
def ins (A : Args) (r : Fin 8) (x : Fin 3 → EReal) : Prop := ∀ d : Fin 3, A.lo r d ≤ x d ∧ x d ≤ A.hi r d

open Classical in
/-- The value at the first index whose predicate holds; zero when none holds. -/
def pick (p : Fin 8 → Prop) (v : Fin 8 → EReal) : EReal :=
  if p 0 then v 0 else if p 1 then v 1 else if p 2 then v 2 else if p 3 then v 3 else
  if p 4 then v 4 else if p 5 then v 5 else if p 6 then v 6 else if p 7 then v 7 else zero

/-- The output at a point, with the quotient. -/
def outR (A : Args) (x : Fin 3 → EReal) : EReal := pick (fun r => ins A r x) (fun r => visOf A r (xnR A r x))

/-- The output at a point, with the guarded reciprocal. -/
def outK (A : Args) (x : Fin 3 → EReal) : EReal := pick (fun r => ins A r x) (fun r => visOf A r (xnK A r x))

open Classical in
/-- The unrolled selection: going through the indices in order, an index whose predicate holds and
    before which none held replaces the value; the flag records that some predicate held. -/
def chain (p : Fin 8 → Prop) (v : Fin 8 → EReal) : List (Fin 8) → EReal × Prop → EReal × Prop
  | [], s => s
  | r :: rs, s => chain p v rs (if p r ∧ ¬ s.2 then v r else s.1, s.2 ∨ p r)

end Cert.Spec

end
-- ==== Proof.SpecLaws.lean ====
/-
  Laws of the specification: the selection `pick` depends on its values only at indices whose
  predicate holds; it is the value at the first such index and zero when there is none; the unrolled
  chain of conditional replacements computes it; and on a box that contains the point and has no
  zero extent the guarded reciprocal is the reciprocal, so the two normalisations — hence the two
  outputs — agree on the extended reals.
-/
import proofs.«169230_j5729486373507_2_alg».proof.Proof.Spec

noncomputable section

namespace Cert.Spec

open Idealize.ShloMosaic

theorem zero_eq : zero = 0 := Ideal.ofBits_zero_f32
theorem one_eq : one = 1 := Ideal.ofBits_one_f32

open Classical in
/-- `pick` reads its values only where the predicate holds. -/
theorem pick_congr {p : Fin 8 → Prop} {v v' : Fin 8 → EReal} (h : ∀ r, p r → v r = v' r) : pick p v = pick p v' := by
  unfold pick
  split_ifs <;> first | rfl | (apply h; assumption)

open Classical in
/-- No predicate holds: zero. -/
theorem pick_of_none {p : Fin 8 → Prop} {v : Fin 8 → EReal} (h : ∀ r, ¬ p r) : pick p v = zero := by
  unfold pick
  simp only [h, if_false]

open Classical in
/-- The value at the first index whose predicate holds. -/
theorem pick_of_first {p : Fin 8 → Prop} {v : Fin 8 → EReal} (r : Fin 8) (hr : p r) (hmin : ∀ r' : Fin 8, r' < r → ¬ p r') :
    pick p v = v r := by
  have n0 := hmin 0; have n1 := hmin 1; have n2 := hmin 2; have n3 := hmin 3
  have n4 := hmin 4; have n5 := hmin 5; have n6 := hmin 6; have n7 := hmin 7
  clear hmin
  unfold pick
  fin_cases r <;> simp_all

open Classical in
/-- The unrolled chain of conditional replacements over the indices in order computes `pick`. -/
theorem pick_chain (p : Fin 8 → Prop) (v : Fin 8 → EReal) :
    (chain p v [0, 1, 2, 3, 4, 5, 6, 7] (zero, False)).1 = pick p v := by
  simp only [chain, pick]
  by_cases h0 : p 0 <;> by_cases h1 : p 1 <;> by_cases h2 : p 2 <;> by_cases h3 : p 3 <;>
    by_cases h4 : p 4 <;> by_cases h5 : p 5 <;> by_cases h6 : p 6 <;> by_cases h7 : p 7 <;> simp [*]

/-- On a box containing the point with a non-zero extent on the axis, the extent is positive and the
    product with the guarded reciprocal is the quotient. -/
theorem xnK_eq_xnR (A : Args) (r : Fin 8) (x : Fin 3 → EReal) (d : Fin 3) (hne : A.hi r d ≠ A.lo r d)
    (hin : A.lo r d ≤ x d ∧ x d ≤ A.hi r d) : xnK A r x d = xnR A r x d := by
  have hlt : A.lo r d < A.hi r d := lt_of_le_of_ne (hin.1.trans hin.2) (Ne.symm hne)
  have hpos : zero < ext A r d := by rw [zero_eq]; unfold ext; exact EReal.sub_pos.mpr hlt
  have hne0 : ext A r d ≠ 0 := by rw [zero_eq] at hpos; exact ne_of_gt hpos
  unfold xnK xnR inv
  rw [if_pos hpos, if_pos hpos]
  unfold Ideal.div
  rw [if_neg hne0, if_neg hne0, one_eq, one_mul]

/-- With no zero extent the two outputs agree: only a containing box is read. -/
theorem outK_eq_outR (A : Args) (x : Fin 3 → EReal) (h : ∀ r d, A.hi r d ≠ A.lo r d) : outK A x = outR A x :=
  pick_congr fun r hr => congrArg (visOf A r) (funext fun d => xnK_eq_xnR A r x d (h r d) (hr d))

end Cert.Spec

end
-- ==== Proof.PreDecode.lean ====
/-
  What the precondition says of the boxes.  The precondition is the conjunction of nine finiteness
  tests and the test that no box has a zero extent, each a `jnp.all` (a reduction by `and` of a boolean
  array into a scalar).  Its last conjunct compares column 1 of the boxes (the upper corners) with
  column 0 (the lower corners), entry by entry, for inequality: where the whole is 1, every upper
  corner differs from its lower corner.
-/
import proofs.«169230_j5729486373507_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.PreDecode

open Cert.Pre_finite_inputs Idealize.ShloMosaic Idealize.ShloMosaic.ValueIdx

instance : Subsingleton S_.Idx := ⟨fun _ _ => funext fun d => d.elim0⟩

/-- Column `c` of the boxes, cut out and flattened to [8,3], read at (r, d): the boxes at (r, d, c). -/
theorem col_apply (a8 : FVec Ideal S8x3x2 .f32) (c : Fin 2) (o : Nat) (ho : o = c.val) (hs : S8x3x2.Slices ![0, 0, o] S8x3x1)
    (hc : S8x3x1.ShapeCasts S8x3) (r : Fin 8) (d : Fin 3) :
    shapeCast S8x3 (extractStridedSlice S8x3x1 ![0, 0, o] a8 hs) hc (ix2 r d) = a8 (ix3 r d c) := by
  subst ho
  refine (shapeCast_apply _ hc (ix2 r d) (ix3 r d (0 : Fin 1)) ?_).trans ?_
  · rw [Shape.rowMajor_val_three, Shape.rowMajor_val_two]
    show (r.val * 3 + d.val) * 1 + 0 = r.val * 3 + d.val
    omega
  · refine extractStridedSlice_apply _ a8 hs (ix3 r d (0 : Fin 1)) (ix3 r d c) fun a => ?_
    match a with
    | ⟨0, _⟩ => exact (Nat.zero_add _).symm
    | ⟨1, _⟩ => exact (Nat.zero_add _).symm
    | ⟨2, _⟩ => show c.val = c.val + 0; omega

/-- Under the precondition no box has a zero extent: every upper corner differs from its lower corner. -/
theorem hi_ne_lo (a0 : FVec Ideal S65536x3 .f32) (a1 : FVec Ideal S8x3x128 .f32) (a2 : FVec Ideal S8x128 .f32)
    (a3 : FVec Ideal S8x3x128x128 .f32) (a4 : FVec Ideal S8x3x128 .f32) (a5 : FVec Ideal S8x128x1 .f32)
    (a6 : FVec Ideal S8x1 .f32) (a7 : FVec Ideal S8x3 .f32) (a8 : FVec Ideal S8x3x2 .f32)
    (h : fn (F := Ideal) a0 a1 a2 a3 a4 a5 a6 a7 a8 = fun _ => 1#1) (r : Fin 8) (d : Fin 3) :
    a8 (ix3 r d 1) ≠ a8 (ix3 r d 0) := by
  have h0 := congrFun h ix0
  dsimp only [fn, fn_part1, fn_part2] at h0
  have h1 : IntOp.andi _ _ = 1#1 := h0
  obtain ⟨-, h49⟩ := IntOp.andi_eq_one.1 h1
  have h2 := Host.reduce_andi_all _ _ _ _ _ h49 (ix2 r d)
  have h3 : Ideal.cmp .une
      (shapeCast S8x3 (extractStridedSlice S8x3x1 ![0, 0, 1] a8 _) _ (ix2 r d))
      (shapeCast S8x3 (extractStridedSlice S8x3x1 ![0, 0, 0] a8 _) _ (ix2 r d)) = 1#1 := h2
  rw [col_apply a8 1 1 rfl, col_apply a8 0 0 rfl] at h3
  intro he
  rw [he] at h3
  simp [Ideal.cmp] at h3

end Cert.PreDecode

end
-- ==== Proof.KerValue.lean ====
/-
  The idealized kernel's result as a function of its argument arrays.

  The region runs sixteen grid points; point `t` reads rows `4096 t … 4096 t + 4095` of the points
  (window 0) and the whole of every weight array (windows 1–8, block index 0 on every axis), and writes
  block `t` of the [512,128] output array (window 9, rows `32 t … 32 t + 31`).  What the body leaves at
  entry (p, q) of its output block is the specification's output at point `4096 t + 128 p + q` (taken
  here as the hypothesis `hpay` on the body's value, proved in its own module); so the output array ends
  holding, at (i, q), the specification's output at point `128 i + q`, the sixteen blocks covering it;
  and the host's reshape after the region lays it out as the [65536] result, entry `n` the output at
  point `n`.  The output weights reach the region through the host's reshape [8,128,1] → [8,128].
-/
import proofs.«169230_j5729486373507_2_alg».proof.Proof.Gen.KernelIdeal.Frame
import proofs.«169230_j5729486373507_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KerValue

open Cert.KernelIdeal Cert.KernelIdeal.Gen

variable (m : (ℓ : Loc nD τ sig) → Buf (Elt Ideal) ℓ) (ρ : Dev nD → PrngReg)

/-- The specification's output at point `n`, of whole arrays (the output weights as an 8 × 128 table). -/
def outAt (a0 : S65536x3.Idx → EReal) (a1 : S8x3x128.Idx → EReal) (a2 : S8x128.Idx → EReal)
    (a3 : S8x3x128x128.Idx → EReal) (a4 : S8x3x128.Idx → EReal) (w5 : Fin 8 → Fin 128 → EReal)
    (a6 : S8x1.Idx → EReal) (a7 : S8x3.Idx → EReal) (a8 : S8x3x2.Idx → EReal) (n : Fin 65536) : EReal :=
  Cert.Spec.outK (Cert.Spec.argsOf a1 a2 a3 a4 w5 a6 a7 a8) (fun d => a0 (ix2 n d))

/-- The point whose output sits at entry `i` of the [512,128] output array. -/
def pointOf (i : S512x128.Idx) : Fin 65536 :=
  ⟨(i 0).val * 128 + (i 1).val, by have h0 : (i 0).val < 512 := (i 0).isLt; have h1 : (i 1).val < 128 := (i 1).isLt; omega⟩

/-- The output array the region leaves, in terms of the arrays as the region finds them. -/
def G (c : Dev nD) : S512x128.Idx → EReal := fun i =>
  outAt (V m c main_arg0) (V m c main_arg1) (V m c main_arg2) (V m c main_arg3) (V m c main_arg4)
    (fun r j => V m c main_v0 (ix2 r j)) (V m c main_arg6) (V m c main_arg7) (V m c main_arg8) (pointOf i)

/-- The printed index maps, decided over the grid: the points' and the output's blocks move with the grid
    point along axis 0; every weight array is one block. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0)
    ∧ (∀ a, win0_7.index t a = 0) ∧ (∀ a, win0_8.index t a = 0) :=
  (by decide +kernel : ∀ t : Fin grid0.N, _)

theorem t_lt (t : Fin cfg0.N) : t.val < 16 := by have h : cfg0.N = 16 := N_0; have := t.isLt; omega

/-- Row `n` of the points' block at point `t` is row `4096 t + n` of the points. -/
theorem iblk0_apply (c : Dev nD) (t : Fin cfg0.N) (n : Fin 4096) (d : Fin 3) (k : Fin 65536) (hk : k.val = t.val * 4096 + n.val) :
    (iblk m c 0 t : Vec Ideal S4096x3 .f32) (ix2 n d) = (V m c main_arg0 : S65536x3.Idx → EReal) (ix2 k d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 4096 + 1 * n.val = k.val; rw [e0, hk]; omega
  | ⟨1, _⟩ => show win0_0.index t 1 * 3 + 1 * d.val = d.val; rw [e1]; omega

/-- A weight array is one block: its block at any point, read at an index, is the array at that index
    (stated for each window; the block index is 0 on every axis). -/
theorem iblk1_eq (c : Dev nD) (t : Fin cfg0.N) : (iblk m c 1 t : Vec Ideal S8x3x128 .f32) = (V m c main_arg1 : S8x3x128.Idx → EReal) := by
  obtain ⟨-, -, -, -, e, -⟩ := idx_facts t
  funext y
  unfold iblk
  rw [View.read_apply]
  show V m c main_arg1 _ = V m c main_arg1 _
  congr 1
  funext a
  apply Fin.ext
  match a with
  | ⟨0, _⟩ => show win0_1.index t 0 * 8 + 1 * (y 0).val = (y 0).val; rw [e]; omega
  | ⟨1, _⟩ => show win0_1.index t 1 * 3 + 1 * (y 1).val = (y 1).val; rw [e]; omega
  | ⟨2, _⟩ => show win0_1.index t 2 * 128 + 1 * (y 2).val = (y 2).val; rw [e]; omega

theorem iblk2_eq (c : Dev nD) (t : Fin cfg0.N) : (iblk m c 2 t : Vec Ideal S8x128 .f32) = (V m c main_arg2 : S8x128.Idx → EReal) := by
  obtain ⟨-, -, -, -, -, e, -⟩ := idx_facts t
  funext y
  unfold iblk
  rw [View.read_apply]
  show V m c main_arg2 _ = V m c main_arg2 _
  congr 1
  funext a
  apply Fin.ext
  match a with
  | ⟨0, _⟩ => show win0_2.index t 0 * 8 + 1 * (y 0).val = (y 0).val; rw [e]; omega
  | ⟨1, _⟩ => show win0_2.index t 1 * 128 + 1 * (y 1).val = (y 1).val; rw [e]; omega

theorem iblk3_eq (c : Dev nD) (t : Fin cfg0.N) : (iblk m c 3 t : Vec Ideal S8x3x128x128 .f32) = (V m c main_arg3 : S8x3x128x128.Idx → EReal) := by
  obtain ⟨-, -, -, -, -, -, e, -⟩ := idx_facts t
  funext y
  unfold iblk
  rw [View.read_apply]
  show V m c main_arg3 _ = V m c main_arg3 _
  congr 1
  funext a
  apply Fin.ext
  match a with
  | ⟨0, _⟩ => show win0_3.index t 0 * 8 + 1 * (y 0).val = (y 0).val; rw [e]; omega
  | ⟨1, _⟩ => show win0_3.index t 1 * 3 + 1 * (y 1).val = (y 1).val; rw [e]; omega
  | ⟨2, _⟩ => show win0_3.index t 2 * 128 + 1 * (y 2).val = (y 2).val; rw [e]; omega
  | ⟨3, _⟩ => show win0_3.index t 3 * 128 + 1 * (y 3).val = (y 3).val; rw [e]; omega

theorem iblk4_eq (c : Dev nD) (t : Fin cfg0.N) : (iblk m c 4 t : Vec Ideal S8x3x128 .f32) = (V m c main_arg4 : S8x3x128.Idx → EReal) := by
  obtain ⟨-, -, -, -, -, -, -, e, -⟩ := idx_facts t
  funext y
  unfold iblk
  rw [View.read_apply]
  show V m c main_arg4 _ = V m c main_arg4 _
  congr 1
  funext a
  apply Fin.ext
  match a with
  | ⟨0, _⟩ => show win0_4.index t 0 * 8 + 1 * (y 0).val = (y 0).val; rw [e]; omega
  | ⟨1, _⟩ => show win0_4.index t 1 * 3 + 1 * (y 1).val = (y 1).val; rw [e]; omega
  | ⟨2, _⟩ => show win0_4.index t 2 * 128 + 1 * (y 2).val = (y 2).val; rw [e]; omega

theorem iblk5_eq (c : Dev nD) (t : Fin cfg0.N) : (iblk m c 5 t : Vec Ideal S8x128 .f32) = (V m c main_v0 : S8x128.Idx → EReal) := by
  obtain ⟨-, -, -, -, -, -, -, -, e, -⟩ := idx_facts t
  funext y
  unfold iblk
  rw [View.read_apply]
  show V m c main_v0 _ = V m c main_v0 _
  congr 1
  funext a
  apply Fin.ext
  match a with
  | ⟨0, _⟩ => show win0_5.index t 0 * 8 + 1 * (y 0).val = (y 0).val; rw [e]; omega
  | ⟨1, _⟩ => show win0_5.index t 1 * 128 + 1 * (y 1).val = (y 1).val; rw [e]; omega

theorem iblk6_eq (c : Dev nD) (t : Fin cfg0.N) : (iblk m c 6 t : Vec Ideal S8x1 .f32) = (V m c main_arg6 : S8x1.Idx → EReal) := by
  obtain ⟨-, -, -, -, -, -, -, -, -, e, -⟩ := idx_facts t
  funext y
  unfold iblk
  rw [View.read_apply]
  show V m c main_arg6 _ = V m c main_arg6 _
  congr 1
  funext a
  apply Fin.ext
  match a with
  | ⟨0, _⟩ => show win0_6.index t 0 * 8 + 1 * (y 0).val = (y 0).val; rw [e]; omega
  | ⟨1, _⟩ => show win0_6.index t 1 * 1 + 1 * (y 1).val = (y 1).val; rw [e]; omega

theorem iblk7_eq (c : Dev nD) (t : Fin cfg0.N) : (iblk m c 7 t : Vec Ideal S8x3 .f32) = (V m c main_arg7 : S8x3.Idx → EReal) := by
  obtain ⟨-, -, -, -, -, -, -, -, -, -, e, -⟩ := idx_facts t
  funext y
  unfold iblk
  rw [View.read_apply]
  show V m c main_arg7 _ = V m c main_arg7 _
  congr 1
  funext a
  apply Fin.ext
  match a with
  | ⟨0, _⟩ => show win0_7.index t 0 * 8 + 1 * (y 0).val = (y 0).val; rw [e]; omega
  | ⟨1, _⟩ => show win0_7.index t 1 * 3 + 1 * (y 1).val = (y 1).val; rw [e]; omega

theorem iblk8_eq (c : Dev nD) (t : Fin cfg0.N) : (iblk m c 8 t : Vec Ideal S8x3x2 .f32) = (V m c main_arg8 : S8x3x2.Idx → EReal) := by
  obtain ⟨-, -, -, -, -, -, -, -, -, -, -, e⟩ := idx_facts t
  funext y
  unfold iblk
  rw [View.read_apply]
  show V m c main_arg8 _ = V m c main_arg8 _
  congr 1
  funext a
  apply Fin.ext
  match a with
  | ⟨0, _⟩ => show win0_8.index t 0 * 8 + 1 * (y 0).val = (y 0).val; rw [e]; omega
  | ⟨1, _⟩ => show win0_8.index t 1 * 3 + 1 * (y 1).val = (y 1).val; rw [e]; omega
  | ⟨2, _⟩ => show win0_8.index t 2 * 2 + 1 * (y 2).val = (y 2).val; rw [e]; omega

/-- The body's value at entry (p, q) of its output block, as a statement about the generated term. -/
def PayAt : Prop :=
  ∀ (x0 : Vec Ideal S4096x3 .f32) (x1 : Vec Ideal S8x3x128 .f32) (x2 : Vec Ideal S8x128 .f32)
    (x3 : Vec Ideal S8x3x128x128 .f32) (x4 : Vec Ideal S8x3x128 .f32) (x5 : Vec Ideal S8x128 .f32)
    (x6 : Vec Ideal S8x1 .f32) (x7 : Vec Ideal S8x3 .f32) (x8 : Vec Ideal S8x3x2 .f32) (p : Fin 32) (q : Fin 128),
    out0_9 (F := Ideal) x0 x1 x2 x3 x4 x5 x6 x7 x8 (ix2 p q)
      = Cert.Spec.outK (Cert.Spec.argsOf x1 x2 x3 x4 (fun r j => x5 (ix2 r j)) x6 x7 x8)
          (fun d => x0 (ix2 (⟨p.val * 128 + q.val, by omega⟩ : Fin 4096) d))

/-- WHAT POINT `t` WRITES BACK is block `t` of `G`. -/
theorem flushed_eq (hpay : PayAt) (c : Dev nD) (t : Fin cfg0.N) :
    (dats m 0 c).flushed 9 t = ((cfg0.win 9).blk t).view.read (Elt Ideal) (G m c) := by
  have ht := t_lt t
  obtain ⟨-, -, e0, e1, -⟩ := idx_facts t
  show (cfg0.win 9).cut (grid0.coords t) ((dats m 0 c).after 9 t) = _
  rw [after0_9]
  funext j
  obtain ⟨p, q, rfl⟩ : ∃ (p : Fin 32) (q : Fin 128), j = ix2 p q := ⟨j 0, j 1, eq_ix2 j⟩
  rw [View.read_apply]
  show out0_9 (iblk m c 0 t) (iblk m c 1 t) (iblk m c 2 t) (iblk m c 3 t) (iblk m c 4 t) (iblk m c 5 t) (iblk m c 6 t)
      (iblk m c 7 t) (iblk m c 8 t) (ix2 p q) = _
  rw [hpay, iblk1_eq, iblk2_eq, iblk3_eq, iblk4_eq, iblk5_eq, iblk6_eq, iblk7_eq, iblk8_eq]
  unfold G outAt
  have hp : p.val < 32 := p.isLt
  have hq : q.val < 128 := q.isLt
  have hpt : pointOf (((cfg0.win 9).blk t).view.emb (ix2 p q)) = ⟨t.val * 4096 + (p.val * 128 + q.val), by omega⟩ := by
    apply Fin.ext
    show (win0_9.index t 0 * 32 + 1 * p.val) * 128 + (win0_9.index t 1 * 128 + 1 * q.val) = t.val * 4096 + (p.val * 128 + q.val)
    rw [e0, e1]; omega
  rw [hpt]
  congr 1
  funext d
  exact iblk0_apply m c t _ d _ rfl

/-- An index of the output array is in point `t`'s block iff each coordinate is in the block's range. -/
theorem mem_blk (t : Fin cfg0.N) (i : S512x128.Idx) :
    i ∈ ((cfg0.win 9).blk t).view.set ↔ ∀ a : Fin 2, win0_9.index t a * S32x128.size a ≤ (i a).val ∧ (i a).val < win0_9.index t a * S32x128.size a + S32x128.size a := by
  show i ∈ ((View.whole main_v1).slice (win0_9.rect t)).set ↔ _
  rw [View.set_slice_whole, Rect.mem_set_unit]
  exact Iff.rfl

/-- Every block row of the output is some point's. -/
theorem idx_onto : ∀ q0 : Fin 16, ∃ t : Fin cfg0.N, win0_9.index t = ![q0.val, 0] :=
  (by decide +kernel : ∀ q0 : Fin 16, ∃ t : Fin grid0.N, win0_9.index t = ![q0.val, 0])

/-- The sixteen blocks cover the output array: row `i` lies in the block of point `i / 32`. -/
theorem cover (i : S512x128.Idx) : ∃ t : Fin cfg0.N, (cfg0.win 9).flush t = true ∧ i ∈ ((cfg0.win 9).blk t).view.set := by
  have hi0 : (i 0).val < 512 := (i 0).isLt
  have hi1 : (i 1).val < 128 := (i 1).isLt
  obtain ⟨t, ht⟩ := idx_onto ⟨(i 0).val / 32, by omega⟩
  have q0 : win0_9.index t (0 : Fin 2) = (i 0).val / 32 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 32 ≤ (i 0).val ∧ (i 0).val < win0_9.index t (0 : Fin 2) * 32 + 32; omega
  | ⟨1, _⟩ => show win0_9.index t (1 : Fin 2) * 128 ≤ (i 1).val ∧ (i 1).val < win0_9.index t (1 : Fin 2) * 128 + 128; omega

/-- THE OUTPUT ARRAY after the region is `G`. -/
theorem final (hpay : PayAt) (c : Dev nD) : (dats m 0 c).arrAt 9 cfg0.N = G m c :=
  (dats m 0 c).arrAt_eq_of_cover 9 (G m c) (fun t _ => flushed_eq m hpay c t) cover

/-- The output weights as the region finds them: the host's reshape of the [8,128,1] argument. -/
theorem V_v0 (c : Dev nD) (r : Fin 8) (j : Fin 128) :
    (V m c main_v0 : S8x128.Idx → EReal) (ix2 r j) = (m ((c : Thread nD τ).loc main_arg5) : S8x128x1.Idx → EReal) (ix3 r j 0) := by
  have e : (V m c main_v0 : S8x128.Idx → EReal)
      = shapeCast S8x128 (m ((c : Thread nD τ).loc main_arg5) : S8x128x1.Idx → EReal) Cert.KernelIdeal.Gen.shapeCasts_S8x128x1_S8x128 := by
    show StableHlo.after hostOps0 (fun b => m (c, b)) (Proc.devRef .tc main_v0) = _
    after_results
    rfl
  rw [e]
  refine shapeCast_apply _ _ (ix2 r j) (ix3 r j 0) ?_
  rw [Shape.rowMajor_val_three, Shape.rowMajor_val_two]
  show (r.val * 128 + j.val) * 1 + 0 = r.val * 128 + j.val
  omega

/-- The kernel program's result as a function of its argument arrays: entry `n` is the specification's
    output at point `n`. -/
def result (a0 : S65536x3.Idx → EReal) (a1 : S8x3x128.Idx → EReal) (a2 : S8x128.Idx → EReal)
    (a3 : S8x3x128x128.Idx → EReal) (a4 : S8x3x128.Idx → EReal) (a5 : S8x128x1.Idx → EReal)
    (a6 : S8x1.Idx → EReal) (a7 : S8x3.Idx → EReal) (a8 : S8x3x2.Idx → EReal) : S65536.Idx → EReal :=
  fun i => outAt a0 a1 a2 a3 a4 (fun r j => a5 (ix3 r j 0)) a6 a7 a8 (i 0)

/-- The host's reshape after the region lays the output array out as the result. -/
theorem tail_eq (hpay : PayAt) (c : Dev nD) :
    Pipeline.afterTail₀ cfgs (dats m) 0 (V0 m) [hostOps1] c main_v2
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1) = G m c :=
    (Pipeline.withArrays_arr spec0 launch0.win.arr_inj c _ _ 9).trans (final m hpay c)
  funext i
  obtain ⟨n, rfl⟩ : ∃ n : Fin 65536, i = ix1 n := ⟨i 0, eq_ix1 i⟩
  show shapeCast S65536 (Pipeline.withArrays (cfgs 0).spec c (V0 m c) (fun w => (dats m 0 c).arrAt w (cfgs 0).N) (Proc.tc.devRef main_v1)) _ (ix1 n) = _
  rw [hw]
  have hn : n.val < 65536 := n.isLt
  refine (shapeCast_apply (G m c) _ (ix1 n) (ix2 (⟨n.val / 128, by omega⟩ : Fin 512) (⟨n.val % 128, by omega⟩ : Fin 128)) ?_).trans ?_
  · rw [Shape.rowMajor_val_two, Shape.rowMajor_val_one]
    show n.val / 128 * 128 + n.val % 128 = n.val
    omega
  · have hp : pointOf (ix2 (⟨n.val / 128, by omega⟩ : Fin 512) (⟨n.val % 128, by omega⟩ : Fin 128)) = n := by
      apply Fin.ext
      show n.val / 128 * 128 + n.val % 128 = n.val
      omega
    unfold G result
    rw [hp, V_main_arg0, V_main_arg1, V_main_arg2, V_main_arg3, V_main_arg4, V_main_arg6, V_main_arg7, V_main_arg8]
    have hv : (fun r j => (V m c main_v0 : S8x128.Idx → EReal) (ix2 r j))
        = fun r j => (m ((c : Thread nD τ).loc main_arg5) : S8x128x1.Idx → EReal) (ix3 r j 0) :=
      funext fun r => funext fun j => V_v0 m c r j
    rw [hv]

/-- The run, read: every weakly fair execution of the idealized kernel program terminates with the result
    array at `result` of the argument arrays as launched, and the argument arrays unchanged. -/
theorem run (hpay : PayAt) :
    θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v2 (Pipeline.mem_restRefs_of main_v2 (by decide) (by decide))).trans (tail_eq m hpay c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KerValue

end
-- ==== Proof.KerPayDefs.lean ====
/-
  One region of the kernel body as a small tree of named operations, for every float instance: the
  row of each table the region loads, the guarded reciprocal of the box's extent, the normalised
  coordinates, the input layer, the three hidden layers, the value, the box test, and the step that
  replaces the running output where the box is the first to contain the point.  The generated payloads
  of the eight regions are these operations (by unfolding), and the block the body stores is the
  eighth step's output folded into rows of 128.
-/
import proofs.«169230_j5729486373507_2_alg».proof.Proof.Gen.KernelIdeal.Frame

set_option maxRecDepth 16384

noncomputable section

open Idealize.ShloMosaic Idealize.SL.Sem

namespace Cert.KerPay

open Cert.KernelIdeal Cert.KernelIdeal.Facts₀

variable {F : FTy → Type} [FloatOps F]

/-- A vector of three spread over the rows of the block of points. -/
def rows3 (v : FVec F S3 .f32) : FVec F S4096x3 .f32 :=
  broadcastTo S4096x3 (shapeCast S1x3 v shapeCasts_S3_S1x3) broadcasts_S1x3_S4096x3

/-- A vector of 128 spread over the rows of a block of activations. -/
def rows128 (v : FVec F S128 .f32) : FVec F S4096x128 .f32 :=
  broadcastTo S4096x128 (shapeCast S1x128 v shapeCasts_S128_S1x128) broadcasts_S1x128_S4096x128

/-- The box's table `[3, 2]` from its loaded row. -/
def boxT (L8 : Vec F S1x3x2 .f32) : FVec F S3x2 .f32 := shapeCast S3x2 L8 shapeCasts_S1x3x2_S3x2

/-- The lower corner. -/
def loC (L8 : Vec F S1x3x2 .f32) : FVec F S3 .f32 :=
  shapeCast S3 (extractStridedSlice S3x1 ![0, 0] (boxT L8) slices_S3x2_o0_0_S3x1) shapeCasts_S3x1_S3

/-- The upper corner. -/
def hiC (L8 : Vec F S1x3x2 .f32) : FVec F S3 .f32 :=
  shapeCast S3 (extractStridedSlice S3x1 ![0, 1] (boxT L8) slices_S3x2_o0_1_S3x1) shapeCasts_S3x1_S3

/-- The extent. -/
def extC (L8 : Vec F S1x3x2 .f32) : FVec F S3 .f32 := subf (hiC L8) (loC L8)

/-- The guarded reciprocal of the extent: `1 / extent` where the extent is positive, else `0`. -/
def invC (L8 : Vec F S1x3x2 .f32) : FVec F S3 .f32 :=
  select (cmpf .ogt (extC L8) (broadcast S3 (Scalar.ofBits .f32 0x00000000#32)))
    (divf (broadcast S3 (Scalar.ofBits .f32 0x3F800000#32))
      (select (cmpf .ogt (extC L8) (broadcast S3 (Scalar.ofBits .f32 0x00000000#32))) (extC L8)
        (broadcast S3 (Scalar.ofBits .f32 0x3F800000#32))))
    (broadcast S3 (Scalar.ofBits .f32 0x00000000#32))

/-- The normalised coordinates of the block's points. -/
def xn (x : FVec F S4096x3 .f32) (lo inv sc : FVec F S3 .f32) : FVec F S4096x3 .f32 :=
  mulf (subf (mulf (mulf (broadcast S4096x3 (Scalar.ofBits .f32 0x40000000#32)) (subf x (rows3 lo))) (rows3 inv))
    (broadcast S4096x3 (Scalar.ofBits .f32 0x3F800000#32))) (rows3 sc)

/-- The activation `z ↦ sin (30 z)`. -/
def act (z : FVec F S4096x128 .f32) : FVec F S4096x128 .f32 :=
  sin (mulf (broadcast S4096x128 (Scalar.ofBits .f32 0x41F00000#32)) z)

/-- The input layer. -/
def layerIn (u : FVec F S4096x3 .f32) (w : FVec F S3x128 .f32) (b : FVec F S128 .f32) : FVec F S4096x128 .f32 :=
  act (addf (matmul dot_S4096x3_S3x128_S4096x128_1_0_0_1_n_n (some .fp32) u w (constant S4096x128 .f32 0x00000000#32))
    (rows128 b))

/-- A hidden layer. -/
def layerH (h : FVec F S4096x128 .f32) (w : FVec F S128x128 .f32) (b : FVec F S128 .f32) : FVec F S4096x128 .f32 :=
  act (addf (matmul dot_S4096x128_S128x128_S4096x128_1_0_0_1_n_n (some .fp32) h w (constant S4096x128 .f32 0x00000000#32))
    (rows128 b))

/-- Matrix `o` of the stack of hidden weights. -/
def whAt (o : Fin 3 → Nat) (ev : S3x128x128.Slices o S1x128x128) (w : FVec F S3x128x128 .f32) : FVec F S128x128 .f32 :=
  shapeCast S128x128 (extractStridedSlice S1x128x128 o w ev) shapeCasts_S1x128x128_S128x128

/-- Row `o` of the table of hidden biases. -/
def bhAt (o : Fin 2 → Nat) (ev : S3x128.Slices o S1x128) (b : FVec F S3x128 .f32) : FVec F S128 .f32 :=
  shapeCast S128 (extractStridedSlice S1x128 o b ev) shapeCasts_S1x128_S128

/-- The activations after the input layer and the three hidden layers. -/
def hid (x : FVec F S4096x3 .f32) (L8 : Vec F S1x3x2 .f32) (L7 : Vec F S1x3 .f32) (L1 : Vec F S1x3x128 .f32)
    (L2 : Vec F S1x128 .f32) (L3 : Vec F S1x3x128x128 .f32) (L4 : Vec F S1x3x128 .f32) : FVec F S4096x128 .f32 :=
  layerH
    (layerH
      (layerH
        (layerIn (xn x (loC L8) (invC L8) (shapeCast S3 L7 shapeCasts_S1x3_S3))
          (shapeCast S3x128 L1 shapeCasts_S1x3x128_S3x128) (shapeCast S128 L2 shapeCasts_S1x128_S128))
        (whAt ![0, 0, 0] slices_S3x128x128_o0_0_0_S1x128x128 (shapeCast S3x128x128 L3 shapeCasts_S1x3x128x128_S3x128x128))
        (bhAt ![0, 0] slices_S3x128_o0_0_S1x128 (shapeCast S3x128 L4 shapeCasts_S1x3x128_S3x128)))
      (whAt ![1, 0, 0] slices_S3x128x128_o1_0_0_S1x128x128 (shapeCast S3x128x128 L3 shapeCasts_S1x3x128x128_S3x128x128))
      (bhAt ![1, 0] slices_S3x128_o1_0_S1x128 (shapeCast S3x128 L4 shapeCasts_S1x3x128_S3x128)))
    (whAt ![2, 0, 0] slices_S3x128x128_o2_0_0_S1x128x128 (shapeCast S3x128x128 L3 shapeCasts_S1x3x128x128_S3x128x128))
    (bhAt ![2, 0] slices_S3x128_o2_0_S1x128 (shapeCast S3x128 L4 shapeCasts_S1x3x128_S3x128))

/-- The region's value at the block's points. -/
def vis (x : FVec F S4096x3 .f32) (L8 : Vec F S1x3x2 .f32) (L7 : Vec F S1x3 .f32) (L1 : Vec F S1x3x128 .f32)
    (L2 : Vec F S1x128 .f32) (L3 : Vec F S1x3x128x128 .f32) (L4 : Vec F S1x3x128 .f32) (L5 : Vec F S1x128 .f32)
    (L6 : Vec F S1x1 .f32) : FVec F S4096 .f32 :=
  addf
    (multiReduction .add [1] S4096 (mulf (hid x L8 L7 L1 L2 L3 L4) (rows128 (shapeCast S128 L5 shapeCasts_S1x128_S128)))
      0x00000000#32 reduces_S4096x128_S4096 (.inl rfl) rfl)
    (broadcast S4096 (extractAt ![0] (shapeCast S1 L6 shapeCasts_S1x1_S1) inpos_S1_p0))

/-- The box test as a number: the minimum over the axes of `1` where the coordinate is inside, `0` where not. -/
def insideF (x : FVec F S4096x3 .f32) (L8 : Vec F S1x3x2 .f32) : FVec F S4096 .f32 :=
  multiReduction .minimumf [1] S4096
    (select (andi (cmpf .oge x (rows3 (loC L8))) (cmpf .ole x (rows3 (hiC L8))))
      (broadcast S4096x3 (Scalar.ofBits .f32 0x3F800000#32)) (broadcast S4096x3 (Scalar.ofBits .f32 0x00000000#32)))
    0x7F800000#32 reduces_S4096x3_S4096 (.inl rfl) rfl

/-- The box test. -/
def mask (x : FVec F S4096x3 .f32) (L8 : Vec F S1x3x2 .f32) : IVec S4096 1 :=
  cmpf .ogt (insideF x L8) (broadcast S4096 (Scalar.ofBits .f32 0x00000000#32))

/-- One region's step on the running output and the flag "some earlier box contained the point". -/
def step (x : FVec F S4096x3 .f32) (L8 : Vec F S1x3x2 .f32) (L7 : Vec F S1x3 .f32) (L1 : Vec F S1x3x128 .f32)
    (L2 : Vec F S1x128 .f32) (L3 : Vec F S1x3x128x128 .f32) (L4 : Vec F S1x3x128 .f32) (L5 : Vec F S1x128 .f32)
    (L6 : Vec F S1x1 .f32) (s : FVec F S4096 .f32 × IVec S4096 1) : FVec F S4096 .f32 × IVec S4096 1 :=
  (select (andi (mask x L8) (xori s.2 (constantI S4096 1 1#1))) (vis x L8 L7 L1 L2 L3 L4 L5 L6) s.1,
   ori s.2 (mask x L8))

/-- The start: output zero, flag false. -/
def start : FVec F S4096 .f32 × IVec S4096 1 :=
  (broadcast S4096 (Scalar.ofBits .f32 0x00000000#32), broadcast S4096 0#1)

/-! ## The generated payloads are these operations -/

section Bridges
variable (x : Vec F S4096x3 .f32) (L8 : Vec F S1x3x2 .f32) (L7 : Vec F S1x3 .f32) (L1 : Vec F S1x3x128 .f32)
  (L2 : Vec F S1x128 .f32) (L3 : Vec F S1x3x128x128 .f32) (L4 : Vec F S1x3x128 .f32) (L5 : Vec F S1x128 .f32)
  (L6 : Vec F S1x1 .f32) (o : FVec F S4096 .f32) (f : IVec S4096 1)

/-- A region of the first printed shape: its new output … -/
theorem outA_eq :
    Gen.k0_pay19 x o f (Gen.k0_pay5 L8) (Gen.k0_pay6 L8) (Gen.k0_pay13 L5) (Gen.k0_pay14 L6)
      (Gen.k0_pay15 x (Gen.k0_pay5 L8) (Gen.k0_pay7 L8) (Gen.k0_pay8 L7) (Gen.k0_pay9 L1) (Gen.k0_pay10 L2)
        (Gen.k0_pay11 L3) (Gen.k0_pay12 L4))
      (Gen.k0_pay16 (Gen.k0_pay11 L3)) (Gen.k0_pay17 (Gen.k0_pay12 L4)) (constant S4096x128 .f32 0x00000000#32)
      = (step x L8 L7 L1 L2 L3 L4 L5 L6 (o, f)).1 := rfl

/-- … and its new flag. -/
theorem flagA_eq :
    Gen.k0_pay20 x f (Gen.k0_pay5 L8) (Gen.k0_pay6 L8) = (step x L8 L7 L1 L2 L3 L4 L5 L6 (o, f)).2 := rfl

/-- A region of the second printed shape: its new output … -/
theorem outB_eq :
    Gen.k0_pay36 o f
      (Gen.k0_pay33 (Gen.k0_pay27 L3) (Gen.k0_pay28 L4) (Gen.k0_pay29 L5) (Gen.k0_pay30 L6)
        (Gen.k0_pay31 x (Gen.k0_pay22 L8) (Gen.k0_pay25 L8) (Gen.k0_pay26 L8) L7 L1 L2) (Gen.k0_pay32 L3))
      (Gen.k0_pay34 x (Gen.k0_pay22 L8) (Gen.k0_pay23 L8))
      = (step x L8 L7 L1 L2 L3 L4 L5 L6 (o, f)).1 := rfl

/-- … and its new flag. -/
theorem flagB_eq :
    Gen.k0_pay37 f (Gen.k0_pay34 x (Gen.k0_pay22 L8) (Gen.k0_pay23 L8))
      = (step x L8 L7 L1 L2 L3 L4 L5 L6 (o, f)).2 := rfl

end Bridges

end Cert.KerPay
-- ==== Proof.KerPayBlock.lean ====
/-
  The block the kernel body stores, as eight steps: region `ρ` loads row `ρ` of each table and steps
  the running output and flag; the body stores the eighth output folded into rows of 128.
-/
import proofs.«169230_j5729486373507_2_alg».proof.Proof.KerPayDefs

set_option maxRecDepth 16384

noncomputable section

open Idealize.ShloMosaic Idealize.SL.Sem

namespace Cert.KerPay

open Cert.KernelIdeal Cert.KernelIdeal.Facts₀

/-! ## Row `ρ` of each table is inside the table -/

theorem inb8 (ρ : Fin 8) : ∀ a, (![ρ.val, 0, 0] : Fin 3 → Nat) a + S1x3x2.size a ≤ S8x3x2.size a := fun a => by
  match a with
  | ⟨0, _⟩ => show ρ.val + 1 ≤ 8; omega
  | ⟨1, _⟩ => show 0 + 3 ≤ 3; omega
  | ⟨2, _⟩ => show 0 + 2 ≤ 2; omega
theorem inb7 (ρ : Fin 8) : ∀ a, (![ρ.val, 0] : Fin 2 → Nat) a + S1x3.size a ≤ S8x3.size a := fun a => by
  match a with
  | ⟨0, _⟩ => show ρ.val + 1 ≤ 8; omega
  | ⟨1, _⟩ => show 0 + 3 ≤ 3; omega
theorem inb1 (ρ : Fin 8) : ∀ a, (![ρ.val, 0, 0] : Fin 3 → Nat) a + S1x3x128.size a ≤ S8x3x128.size a := fun a => by
  match a with
  | ⟨0, _⟩ => show ρ.val + 1 ≤ 8; omega
  | ⟨1, _⟩ => show 0 + 3 ≤ 3; omega
  | ⟨2, _⟩ => show 0 + 128 ≤ 128; omega
theorem inb2 (ρ : Fin 8) : ∀ a, (![ρ.val, 0] : Fin 2 → Nat) a + S1x128.size a ≤ S8x128.size a := fun a => by
  match a with
  | ⟨0, _⟩ => show ρ.val + 1 ≤ 8; omega
  | ⟨1, _⟩ => show 0 + 128 ≤ 128; omega
theorem inb3 (ρ : Fin 8) :
    ∀ a, (![ρ.val, 0, 0, 0] : Fin 4 → Nat) a + S1x3x128x128.size a ≤ S8x3x128x128.size a := fun a => by
  match a with
  | ⟨0, _⟩ => show ρ.val + 1 ≤ 8; omega
  | ⟨1, _⟩ => show 0 + 3 ≤ 3; omega
  | ⟨2, _⟩ => show 0 + 128 ≤ 128; omega
  | ⟨3, _⟩ => show 0 + 128 ≤ 128; omega
theorem inb6 (ρ : Fin 8) : ∀ a, (![ρ.val, 0] : Fin 2 → Nat) a + S1x1.size a ≤ S8x1.size a := fun a => by
  match a with
  | ⟨0, _⟩ => show ρ.val + 1 ≤ 8; omega
  | ⟨1, _⟩ => show 0 + 1 ≤ 1; omega

variable {F : FTy → Type} [FloatOps F]

/-- Row `ρ` of the boxes, as loaded. -/
def row8 (x8 : Vec F S8x3x2 .f32) (ρ : Fin 8) : Vec F S1x3x2 .f32 :=
  View.ld x8 (Rect.unit (s := S8x3x2) ![ρ.val, 0, 0] S1x3x2.size (inb8 ρ))
/-- Row `ρ` of the scales. -/
def row7 (x7 : Vec F S8x3 .f32) (ρ : Fin 8) : Vec F S1x3 .f32 :=
  View.ld x7 (Rect.unit (s := S8x3) ![ρ.val, 0] S1x3.size (inb7 ρ))
/-- Row `ρ` of a table of `3 × 128` rows (the input weights, the hidden biases). -/
def row1 (x1 : Vec F S8x3x128 .f32) (ρ : Fin 8) : Vec F S1x3x128 .f32 :=
  View.ld x1 (Rect.unit (s := S8x3x128) ![ρ.val, 0, 0] S1x3x128.size (inb1 ρ))
/-- Row `ρ` of a table of 128-vectors (the input biases, the output weights). -/
def row2 (x2 : Vec F S8x128 .f32) (ρ : Fin 8) : Vec F S1x128 .f32 :=
  View.ld x2 (Rect.unit (s := S8x128) ![ρ.val, 0] S1x128.size (inb2 ρ))
/-- Row `ρ` of the hidden weights. -/
def row3 (x3 : Vec F S8x3x128x128 .f32) (ρ : Fin 8) : Vec F S1x3x128x128 .f32 :=
  View.ld x3 (Rect.unit (s := S8x3x128x128) ![ρ.val, 0, 0, 0] S1x3x128x128.size (inb3 ρ))
/-- Row `ρ` of the output biases. -/
def row6 (x6 : Vec F S8x1 .f32) (ρ : Fin 8) : Vec F S1x1 .f32 :=
  View.ld x6 (Rect.unit (s := S8x1) ![ρ.val, 0] S1x1.size (inb6 ρ))

/-- Region `ρ`'s step: the rows it loads are row `ρ` of the eight tables. -/
def region (x0 : Vec F S4096x3 .f32) (x1 : Vec F S8x3x128 .f32) (x2 : Vec F S8x128 .f32)
    (x3 : Vec F S8x3x128x128 .f32) (x4 : Vec F S8x3x128 .f32) (x5 : Vec F S8x128 .f32) (x6 : Vec F S8x1 .f32)
    (x7 : Vec F S8x3 .f32) (x8 : Vec F S8x3x2 .f32) (ρ : Fin 8)
    (s : FVec F S4096 .f32 × IVec S4096 1) : FVec F S4096 .f32 × IVec S4096 1 :=
  step (View.ld x0 Gen.r0_0) (row8 x8 ρ) (row7 x7 ρ) (row1 x1 ρ) (row2 x2 ρ) (row3 x3 ρ) (row1 x4 ρ) (row2 x5 ρ)
    (row6 x6 ρ) s

/-- The eight steps from the start. -/
def eight (x0 : Vec F S4096x3 .f32) (x1 : Vec F S8x3x128 .f32) (x2 : Vec F S8x128 .f32)
    (x3 : Vec F S8x3x128x128 .f32) (x4 : Vec F S8x3x128 .f32) (x5 : Vec F S8x128 .f32) (x6 : Vec F S8x1 .f32)
    (x7 : Vec F S8x3 .f32) (x8 : Vec F S8x3x2 .f32) : FVec F S4096 .f32 × IVec S4096 1 :=
  region x0 x1 x2 x3 x4 x5 x6 x7 x8 7 (region x0 x1 x2 x3 x4 x5 x6 x7 x8 6 (region x0 x1 x2 x3 x4 x5 x6 x7 x8 5
    (region x0 x1 x2 x3 x4 x5 x6 x7 x8 4 (region x0 x1 x2 x3 x4 x5 x6 x7 x8 3 (region x0 x1 x2 x3 x4 x5 x6 x7 x8 2
      (region x0 x1 x2 x3 x4 x5 x6 x7 x8 1 (region x0 x1 x2 x3 x4 x5 x6 x7 x8 0 start)))))))

set_option maxHeartbeats 1000000 in
/-- What the body leaves in the output block: one store of the eighth output folded into rows of 128. -/
theorem out_eq (x0 : Vec F S4096x3 .f32) (x1 : Vec F S8x3x128 .f32) (x2 : Vec F S8x128 .f32)
    (x3 : Vec F S8x3x128x128 .f32) (x4 : Vec F S8x3x128 .f32) (x5 : Vec F S8x128 .f32) (x6 : Vec F S8x1 .f32)
    (x7 : Vec F S8x3 .f32) (x8 : Vec F S8x3x2 .f32) :
    Gen.out0_9 x0 x1 x2 x3 x4 x5 x6 x7 x8
      = View.canon [⟨Gen.r0_49,
          shapeCast S32x128 (eight x0 x1 x2 x3 x4 x5 x6 x7 x8).1 shapeCasts_S4096_S32x128⟩] := rfl

end Cert.KerPay
-- ==== Proof.LibBlockRead.lean ====
/-
  Reading a block at an index given by coordinates: general lemmas over shapes written with literal
  extents and indices written `ix1 … ix4`.  A load through a unit-stride rectangle reads the contents at
  the offset index; a column `[a, 1]` cast to a vector, a leading slice of a stack of matrices, a row or
  a column of a small table taken as a vector, a vector written as one row and spread over the rows of a
  block, a flat vector folded into rows, and the one entry of a vector of length one, each read at an
  index; a product of an `[a, c]` block with a `[c, b]` matrix into the zero accumulator, on the extended
  reals, is at `(n, k)` the sum over the contracted coordinate; the sum over the lanes of an `[a, b]`
  block is at `n` the sum of row `n`; and the minimum over the lanes from `+∞` exceeds `c` exactly when
  `+∞` and every entry of the row do.
-/
import Idealize.ShloMosaic.Lib.ValueLayout
import Idealize.ShloMosaic.PureOps.Ideal.Laws
import Idealize.ShloMosaic.Lib.Pipeline.FrameBody

open Idealize.ShloMosaic Idealize.ShloMosaic.ValueIdx
open scoped BigOperators

namespace Cert.Lib.BlockRead

variable {α : Type}

/-- A load through a unit-stride rectangle reads the contents at the offset index. -/
theorem ld_unit_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k :=
  congrArg X (funext fun a => Fin.ext (by
    rw [hk a]; show off a + 1 * (y a).val = _; rw [Nat.one_mul]))

/-- A column `[a, 1]` cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A stack of matrices cut along its first axis from `o` reads, at `(j, b, c)`, the source at `(k, b, c)`
    with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

/-- A flat vector of `N = a · b` entries folded into `a` rows of `b` reads, at `(p, q)`, the operand at `b p + q`. -/
theorem shapeCast_flat_rows_apply {N a b : ℕ} (x : (⟨1, ![N]⟩ : Shape).Idx → α)
    (h : (⟨1, ![N]⟩ : Shape).ShapeCasts ⟨2, ![a, b]⟩) (p : Fin a) (q : Fin b) (hlt : p.val * b + q.val < N) :
    shapeCast ⟨2, ![a, b]⟩ x h (ix2 p q) = x (ix1 (⟨p.val * b + q.val, hlt⟩ : Fin N)) :=
  shapeCast_apply x h _ _ (by
    rw [Shape.rowMajor_val_two, Shape.rowMajor_val_one]
    rfl)

/-- A flat vector of 4096 folded into 32 rows of 128 reads, at `(p, q)`, the operand at `128 p + q`. -/
theorem shapeCast_4096_32x128_apply (x : (⟨1, ![4096]⟩ : Shape).Idx → α)
    (h : (⟨1, ![4096]⟩ : Shape).ShapeCasts ⟨2, ![32, 128]⟩) (p : Fin 32) (q : Fin 128) :
    shapeCast ⟨2, ![32, 128]⟩ x h (ix2 p q) = x (ix1 (⟨p.val * 128 + q.val, by omega⟩ : Fin 4096)) :=
  shapeCast_flat_rows_apply x h p q _

/-- The one entry of a vector of length one. -/
theorem extractAt_one (x : (⟨1, ![1]⟩ : Shape).Idx → α)
    (h : ∀ a, (![0] : Fin 1 → Nat) a < (⟨1, ![1]⟩ : Shape).size a) :
    extractAt ![0] x h = x (ix1 (0 : Fin 1)) :=
  congrArg x (funext fun a => match a with | ⟨0, _⟩ => rfl)

/-- A vector `[b]` written as one row and spread over `a` rows reads, at `(p, c)`, the vector at `c`. -/
theorem rows_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- Row `o` of a stack of three matrices, as a matrix. -/
theorem mat_of_stack_apply {a b : ℕ} (o : Nat) (ho : o < 3) (w : (⟨3, ![3, a, b]⟩ : Shape).Idx → α)
    (h1 : (⟨3, ![3, a, b]⟩ : Shape).Slices ![o, 0, 0] ⟨3, ![1, a, b]⟩)
    (h2 : (⟨3, ![1, a, b]⟩ : Shape).ShapeCasts ⟨2, ![a, b]⟩) (j : Fin a) (k : Fin b) :
    shapeCast ⟨2, ![a, b]⟩ (extractStridedSlice ⟨3, ![1, a, b]⟩ ![o, 0, 0] w h1) h2 (ix2 j k)
      = w (ix3 (⟨o, ho⟩ : Fin 3) j k) := by
  rw [shapeCast_1ab_ab_apply, slice3_axis0_apply o w h1 (0 : Fin 1) j k ⟨o, ho⟩ rfl]

/-- Row `o` of a table of three rows, as a vector. -/
theorem row_of_table_apply {b : ℕ} (o : Nat) (ho : o < 3) (w : (⟨2, ![3, b]⟩ : Shape).Idx → α)
    (h1 : (⟨2, ![3, b]⟩ : Shape).Slices ![o, 0] ⟨2, ![1, b]⟩)
    (h2 : (⟨2, ![1, b]⟩ : Shape).ShapeCasts ⟨1, ![b]⟩) (k : Fin b) :
    shapeCast ⟨1, ![b]⟩ (extractStridedSlice ⟨2, ![1, b]⟩ ![o, 0] w h1) h2 (ix1 k)
      = w (ix2 (⟨o, ho⟩ : Fin 3) k) := by
  rw [shapeCast_1a_a_apply, slice2_axis0_apply o w h1 (0 : Fin 1) k ⟨o, ho⟩ rfl]

/-- Column `o` of a table of two columns, as a vector. -/
theorem col_of_table_apply {a : ℕ} (o : Nat) (ho : o < 2) (w : (⟨2, ![a, 2]⟩ : Shape).Idx → α)
    (h1 : (⟨2, ![a, 2]⟩ : Shape).Slices ![0, o] ⟨2, ![a, 1]⟩)
    (h2 : (⟨2, ![a, 1]⟩ : Shape).ShapeCasts ⟨1, ![a]⟩) (d : Fin a) :
    shapeCast ⟨1, ![a]⟩ (extractStridedSlice ⟨2, ![a, 1]⟩ ![0, o] w h1) h2 (ix1 d)
      = w (ix2 d (⟨o, ho⟩ : Fin 2)) := by
  rw [shapeCast_a1_a_apply, slice2_axis1_apply o w h1 d (0 : Fin 1) ⟨o, ho⟩ rfl]

/-- A product of an `[a, c]` block with a `[c, b]` matrix (one contracted axis: the block's second, the
    matrix's first) into the zero accumulator reads, at `(n, k)`, the sum over the contracted coordinate. -/
theorem matmul_zero_apply {a b c : ℕ} {φ₁ φ₂ : FTy}
    (D : DotDims ⟨2, ![a, c]⟩ ⟨2, ![c, b]⟩ ⟨2, ![a, b]⟩) (hr : D.contr.rank = 1)
    (hs : D.contr.size ⟨0, by omega⟩ = c)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![a, c]⟩ φ₁) (rhs : FVec Ideal ⟨2, ![c, b]⟩ φ₂)
    (n : Fin a) (k : Fin b) :
    matmul D prec lhs rhs (constant ⟨2, ![a, b]⟩ .f32 0x00000000#32) (ix2 n k)
      = ∑ d : Fin c, lhs (ix2 n d) * rhs (ix2 d k) := by
  refine (Ideal.matmul_constant_zero_apply D prec lhs rhs (ix2 n k)).trans ?_
  rw [← Equiv.sum_comp (contrEquiv1 D c hr hs).symm]
  refine Finset.sum_congr rfl fun d _ => ?_
  have e := contrEquiv1_symm_val D c hr hs d
  congr 2
  · funext ax
    match ax with
    | ⟨0, _⟩ => exact Fin.ext (hl0 _ _)
    | ⟨1, _⟩ => exact Fin.ext ((hl1 _ _).trans e)
  · funext ax
    match ax with
    | ⟨0, _⟩ => exact Fin.ext ((hr0 _ _).trans e)
    | ⟨1, _⟩ => exact Fin.ext (hr1 _ _)

/-- The sum over the lanes of an `[a, b]` block reads, at `n`, the sum of row `n`. -/
theorem sum_lanes_apply {a b : ℕ} (src : FVec Ideal ⟨2, ![a, b]⟩ .f32)
    (h : (⟨2, ![a, b]⟩ : Shape).Reduces [1] ⟨1, ![a]⟩)
    (hφ : FKind.Formats .f32) (hacc : (0x00000000#32 : BitVec 32) = FKind.add.neutral .f32 hφ) (n : Fin a) :
    multiReduction .add [1] ⟨1, ![a]⟩ src 0x00000000#32 h hφ hacc (ix1 n) = ∑ k : Fin b, src (ix2 n k) := by
  refine (Ideal.multiReduction_add_single src _ h hφ hacc (ix1 n)).trans ?_
  refine Finset.sum_congr rfl fun k _ => congrArg src ?_
  funext ax
  match ax with
  | ⟨0, _⟩ => exact Fin.ext rfl
  | ⟨1, _⟩ => exact Fin.ext rfl

/-- The minimum over the lanes of an `[a, b]` block, from `+∞`, exceeds `c` exactly when `+∞` and every
    entry of the row do. -/
theorem lt_min_lanes_iff {a b : ℕ} (src : FVec Ideal ⟨2, ![a, b]⟩ .f32)
    (h : (⟨2, ![a, b]⟩ : Shape).Reduces [1] ⟨1, ![a]⟩)
    (hφ : FKind.Formats .f32) (hacc : (0x7F800000#32 : BitVec 32) = FKind.minimumf.neutral .f32 hφ) (n : Fin a)
    (c : EReal) :
    c < multiReduction .minimumf [1] ⟨1, ![a]⟩ src 0x7F800000#32 h hφ hacc (ix1 n)
      ↔ c < Ideal.ofBits .f32 0x7F800000#32 ∧ ∀ k : Fin b, c < src (ix2 n k) := by
  rw [multiReduction_minimumf_eq_fold, h.fold_filter_drop_single]
  have e : ∀ k : Fin b, h.lift (ix1 n) k = ix2 n k := fun k => by
    funext ax
    match ax with
    | ⟨0, _⟩ => exact Fin.ext rfl
    | ⟨1, _⟩ => exact Fin.ext rfl
  refine (Finset.lt_fold_min (f := src ∘ h.lift (ix1 n)) (b := Ideal.ofBits .f32 0x7F800000#32)
    (s := Finset.univ) (c := c)).trans ?_
  constructor
  · rintro ⟨h1, h2⟩
    exact ⟨h1, fun k => by
      have := h2 k (Finset.mem_univ _)
      show c < src (ix2 n k)
      rw [← e k]; exact this⟩
  · rintro ⟨h1, h2⟩
    exact ⟨h1, fun k _ => by
      show c < src (h.lift (ix1 n) k)
      rw [e k]; exact h2 k⟩

end Cert.Lib.BlockRead
-- ==== Proof.KerPayVis.lean ====
/-
  One region read at an entry of the block, on the extended reals: its value at entry `n` is the
  network's value on the point's normalised coordinates, and its box test holds exactly when the point
  is inside the box.
-/
import proofs.«169230_j5729486373507_2_alg».proof.Proof.KerPayDefs
import proofs.«169230_j5729486373507_2_alg».proof.Proof.LibBlockRead
import proofs.«169230_j5729486373507_2_alg».proof.Proof.SpecLaws

set_option maxRecDepth 16384

noncomputable section

open Idealize.ShloMosaic Idealize.ShloMosaic.ValueIdx Idealize.SL.Sem
open scoped BigOperators

namespace Cert.KerPay

open Cert.KernelIdeal Cert.Lib.BlockRead

/-! ## One-bit words -/

/-- A select on "`y < x`" is the `if`. -/
theorem select_ogt {α : Type} (x y : EReal) (a b : α) :
    Scalar.select (FloatOps.cmpf (F := Ideal) (φ := .f32) .ogt x y) a b = if y < x then a else b := by
  show (if BitVec.ofBool (decide (y < x)) = 1#1 then a else b) = _
  by_cases h : y < x <;> simp [h]

theorem ofBool_decide_eq_one (p : Prop) [Decidable p] : BitVec.ofBool (decide p) = 1#1 ↔ p := by
  by_cases h : p <;> simp [h]

theorem andi_eq_one (a b : BitVec 1) : IntOp.andi a b = 1#1 ↔ a = 1#1 ∧ b = 1#1 := by
  rcases BitVec.eq_zero_or_eq_one a with h | h <;> rcases BitVec.eq_zero_or_eq_one b with h' | h' <;>
    subst h <;> subst h' <;> decide

theorem zero_lt_select (c : BitVec 1) : Spec.zero < Scalar.select c Spec.one Spec.zero ↔ c = 1#1 := by
  unfold Scalar.select
  split
  next h => exact ⟨fun _ => h, fun _ => by rw [Spec.zero_eq, Spec.one_eq]; exact zero_lt_one⟩
  next h => exact ⟨fun h' => absurd h' (lt_irrefl _), fun h' => absurd h' h⟩

theorem zero_lt_inf : Spec.zero < Ideal.ofBits .f32 0x7F800000#32 := by
  have e : Ideal.ofBits .f32 0x7F800000#32 = ⊤ := by simp [Ideal.ofBits, Ideal.ieee]
  rw [e, Spec.zero_eq]; exact EReal.zero_lt_top

/-! ## The pieces at an index -/

section Pieces
variable (L8 : Vec Ideal S1x3x2 .f32)

theorem loC_apply (d : Fin 3) : loC L8 (ix1 d) = L8 (ix3 (0 : Fin 1) d (0 : Fin 2)) := by
  unfold loC boxT
  rw [col_of_table_apply 0 (by omega), shapeCast_1ab_ab_apply]
  rfl

theorem hiC_apply (d : Fin 3) : hiC L8 (ix1 d) = L8 (ix3 (0 : Fin 1) d (1 : Fin 2)) := by
  unfold hiC boxT
  rw [col_of_table_apply 1 (by omega), shapeCast_1ab_ab_apply]
  rfl

theorem rows3_apply (v : FVec Ideal S3 .f32) (n : Fin 4096) (d : Fin 3) : rows3 v (ix2 n d) = v (ix1 d) := by
  unfold rows3; exact rows_apply _ _ _ _ _

theorem rows128_apply (v : FVec Ideal S128 .f32) (n : Fin 4096) (k : Fin 128) : rows128 v (ix2 n k) = v (ix1 k) := by
  unfold rows128; exact rows_apply _ _ _ _ _

variable (A : Spec.Args) (r : Fin 8)
  (hlo : ∀ d, L8 (ix3 (0 : Fin 1) d (0 : Fin 2)) = A.lo r d)
  (hhi : ∀ d, L8 (ix3 (0 : Fin 1) d (1 : Fin 2)) = A.hi r d)
include hlo hhi

theorem invC_apply (d : Fin 3) : invC L8 (ix1 d) = Spec.inv A r d := by
  have he : extC L8 (ix1 d) = Spec.ext A r d := by
    show hiC L8 (ix1 d) - loC L8 (ix1 d) = _
    rw [hiC_apply, loC_apply, hlo, hhi]; rfl
  show Scalar.select (FloatOps.cmpf (F := Ideal) (φ := .f32) .ogt (extC L8 (ix1 d)) Spec.zero)
      (Ideal.div Spec.one (Scalar.select (FloatOps.cmpf (F := Ideal) (φ := .f32) .ogt (extC L8 (ix1 d)) Spec.zero)
        (extC L8 (ix1 d)) Spec.one)) Spec.zero = _
  rw [he, select_ogt, select_ogt]; rfl

/-- The box test at entry `n`. -/
theorem mask_apply (x : FVec Ideal S4096x3 .f32) (n : Fin 4096) :
    mask x L8 (ix1 n) = 1#1 ↔ Spec.ins A r (fun d => x (ix2 n d)) := by
  show BitVec.ofBool (decide (Spec.zero < insideF x L8 (ix1 n))) = 1#1 ↔ _
  rw [ofBool_decide_eq_one]
  unfold insideF
  refine (lt_min_lanes_iff _ _ _ _ n _).trans ?_
  refine ⟨fun h d => ?_, fun h => ⟨zero_lt_inf, fun d => ?_⟩⟩
  · have h2 := h.2 d
    have h3 : Spec.zero < Scalar.select (IntOp.andi (FloatOps.cmpf (F := Ideal) (φ := .f32) .oge (x (ix2 n d)) (rows3 (loC L8) (ix2 n d)))
        (FloatOps.cmpf (F := Ideal) (φ := .f32) .ole (x (ix2 n d)) (rows3 (hiC L8) (ix2 n d)))) Spec.one Spec.zero := h2
    rw [zero_lt_select, andi_eq_one, rows3_apply, rows3_apply, loC_apply, hiC_apply, hlo, hhi] at h3
    exact ⟨(ofBool_decide_eq_one _).mp h3.1, (ofBool_decide_eq_one _).mp h3.2⟩
  · show Spec.zero < Scalar.select (IntOp.andi (FloatOps.cmpf (F := Ideal) (φ := .f32) .oge (x (ix2 n d)) (rows3 (loC L8) (ix2 n d)))
        (FloatOps.cmpf (F := Ideal) (φ := .f32) .ole (x (ix2 n d)) (rows3 (hiC L8) (ix2 n d)))) Spec.one Spec.zero
    rw [zero_lt_select, andi_eq_one, rows3_apply, rows3_apply, loC_apply, hiC_apply, hlo, hhi]
    exact ⟨(ofBool_decide_eq_one _).mpr (h d).1, (ofBool_decide_eq_one _).mpr (h d).2⟩

end Pieces

/-! ## The layers at an index -/

theorem mm3_apply (u : FVec Ideal S4096x3 .f32) (w : FVec Ideal S3x128 .f32) (n : Fin 4096) (k : Fin 128) :
    matmul dot_S4096x3_S3x128_S4096x128_1_0_0_1_n_n (some .fp32) u w (constant S4096x128 .f32 0x00000000#32) (ix2 n k)
      = ∑ d : Fin 3, u (ix2 n d) * w (ix2 d k) :=
  matmul_zero_apply dot_S4096x3_S3x128_S4096x128_1_0_0_1_n_n rfl rfl (fun _ _ => rfl) (fun _ _ => rfl)
    (fun _ _ => rfl) (fun _ _ => rfl) _ u w n k

theorem mm128_apply (h : FVec Ideal S4096x128 .f32) (w : FVec Ideal S128x128 .f32) (n : Fin 4096) (k : Fin 128) :
    matmul dot_S4096x128_S128x128_S4096x128_1_0_0_1_n_n (some .fp32) h w (constant S4096x128 .f32 0x00000000#32) (ix2 n k)
      = ∑ j : Fin 128, h (ix2 n j) * w (ix2 j k) :=
  matmul_zero_apply dot_S4096x128_S128x128_S4096x128_1_0_0_1_n_n rfl rfl (fun _ _ => rfl) (fun _ _ => rfl)
    (fun _ _ => rfl) (fun _ _ => rfl) _ h w n k

theorem xn_apply (x : FVec Ideal S4096x3 .f32) (lo inv sc : FVec Ideal S3 .f32) (n : Fin 4096) (d : Fin 3) :
    xn x lo inv sc (ix2 n d) = (Spec.two * (x (ix2 n d) - lo (ix1 d)) * inv (ix1 d) - Spec.one) * sc (ix1 d) := by
  show (Spec.two * (x (ix2 n d) - rows3 lo (ix2 n d)) * rows3 inv (ix2 n d) - Spec.one) * rows3 sc (ix2 n d) = _
  rw [rows3_apply, rows3_apply, rows3_apply]

section Layers
variable (A : Spec.Args) (r : Fin 8) (n : Fin 4096)

/-- The input layer at row `n`. -/
theorem layerIn_row (u : FVec Ideal S4096x3 .f32) (w : FVec Ideal S3x128 .f32) (b : FVec Ideal S128 .f32)
    (U : Fin 3 → EReal) (hu : ∀ d, u (ix2 n d) = U d) (hw : ∀ d k, w (ix2 d k) = A.Win r d k)
    (hb : ∀ k, b (ix1 k) = A.bin r k) (k : Fin 128) : layerIn u w b (ix2 n k) = Spec.l0 A r U k := by
  show Ideal.sin (Spec.thirty * (matmul dot_S4096x3_S3x128_S4096x128_1_0_0_1_n_n (some .fp32) u w
      (constant S4096x128 .f32 0x00000000#32) (ix2 n k) + rows128 b (ix2 n k))) = _
  rw [mm3_apply, rows128_apply, hb]
  unfold Spec.l0 Spec.act
  simp only [hu, hw]

/-- A hidden layer at row `n`. -/
theorem layerH_row (h : FVec Ideal S4096x128 .f32) (w : FVec Ideal S128x128 .f32) (b : FVec Ideal S128 .f32)
    (l : Fin 3) (H : Fin 128 → EReal) (hh : ∀ j, h (ix2 n j) = H j) (hw : ∀ j k, w (ix2 j k) = A.Wh r l j k)
    (hb : ∀ k, b (ix1 k) = A.bh r l k) (k : Fin 128) : layerH h w b (ix2 n k) = Spec.lh A r l H k := by
  show Ideal.sin (Spec.thirty * (matmul dot_S4096x128_S128x128_S4096x128_1_0_0_1_n_n (some .fp32) h w
      (constant S4096x128 .f32 0x00000000#32) (ix2 n k) + rows128 b (ix2 n k))) = _
  rw [mm128_apply, rows128_apply, hb]
  unfold Spec.lh Spec.act
  simp only [hh, hw]

end Layers

/-! ## The region's value at an entry -/

section Region
open Cert.KernelIdeal.Facts₀
variable (x : FVec Ideal S4096x3 .f32) (L8 : Vec Ideal S1x3x2 .f32) (L7 : Vec Ideal S1x3 .f32)
  (L1 : Vec Ideal S1x3x128 .f32) (L2 : Vec Ideal S1x128 .f32) (L3 : Vec Ideal S1x3x128x128 .f32)
  (L4 : Vec Ideal S1x3x128 .f32) (L5 : Vec Ideal S1x128 .f32) (L6 : Vec Ideal S1x1 .f32)
  (A : Spec.Args) (r : Fin 8)
  (hlo : ∀ d, L8 (ix3 (0 : Fin 1) d (0 : Fin 2)) = A.lo r d)
  (hhi : ∀ d, L8 (ix3 (0 : Fin 1) d (1 : Fin 2)) = A.hi r d)
  (hsc : ∀ d, L7 (ix2 (0 : Fin 1) d) = A.Sc r d)
  (hwin : ∀ d k, L1 (ix3 (0 : Fin 1) d k) = A.Win r d k)
  (hbin : ∀ k, L2 (ix2 (0 : Fin 1) k) = A.bin r k)
  (hwh : ∀ l j k, L3 (ix4 (0 : Fin 1) l j k) = A.Wh r l j k)
  (hbh : ∀ l k, L4 (ix3 (0 : Fin 1) l k) = A.bh r l k)
  (hwout : ∀ k, L5 (ix2 (0 : Fin 1) k) = A.Wout r k)
  (hbout : L6 (ix2 (0 : Fin 1) (0 : Fin 1)) = A.bout r)
include hlo hhi hsc hwin hbin hwh hbh

theorem hid_apply (n : Fin 4096) (k : Fin 128) :
    hid x L8 L7 L1 L2 L3 L4 (ix2 n k)
      = Spec.lh A r 2 (Spec.lh A r 1 (Spec.lh A r 0 (Spec.l0 A r (Spec.xnK A r (fun d => x (ix2 n d)))))) k := by
  have hW : ∀ (o : Nat) (ho : o < 3) (ev : S3x128x128.Slices ![o, 0, 0] S1x128x128) (j k : Fin 128),
      whAt (F := Ideal) ![o, 0, 0] ev (shapeCast S3x128x128 L3 shapeCasts_S1x3x128x128_S3x128x128) (ix2 j k)
        = A.Wh r ⟨o, ho⟩ j k := fun o ho ev j k => by
    unfold whAt
    rw [mat_of_stack_apply o ho, shapeCast_1abc_abc_apply, hwh]
  have hB : ∀ (o : Nat) (ho : o < 3) (ev : S3x128.Slices ![o, 0] S1x128) (k : Fin 128),
      bhAt (F := Ideal) ![o, 0] ev (shapeCast S3x128 L4 shapeCasts_S1x3x128_S3x128) (ix1 k) = A.bh r ⟨o, ho⟩ k :=
    fun o ho ev k => by
    unfold bhAt
    rw [row_of_table_apply o ho, shapeCast_1ab_ab_apply, hbh]
  have hx : ∀ d, xn x (loC L8) (invC L8) (shapeCast S3 L7 shapeCasts_S1x3_S3) (ix2 n d)
      = Spec.xnK A r (fun d => x (ix2 n d)) d := fun d => by
    rw [xn_apply, loC_apply, invC_apply L8 A r hlo hhi, shapeCast_1a_a_apply, hlo, hsc]; rfl
  unfold hid
  refine layerH_row A r n _ _ _ 2 _ (fun j => ?_) (hW 2 (by omega) _) (hB 2 (by omega) _) k
  refine layerH_row A r n _ _ _ 1 _ (fun j => ?_) (hW 1 (by omega) _) (hB 1 (by omega) _) j
  refine layerH_row A r n _ _ _ 0 _ (fun j => ?_) (hW 0 (by omega) _) (hB 0 (by omega) _) j
  refine layerIn_row A r n _ _ _ _ hx (fun d k => ?_) (fun k => ?_) j
  · rw [shapeCast_1ab_ab_apply, hwin]
  · rw [shapeCast_1a_a_apply, hbin]

include hwout hbout

/-- The region's value at entry `n`: the network's value on the point's normalised coordinates. -/
theorem vis_apply (n : Fin 4096) :
    vis x L8 L7 L1 L2 L3 L4 L5 L6 (ix1 n) = Spec.visOf A r (Spec.xnK A r (fun d => x (ix2 n d))) := by
  show multiReduction .add [1] S4096 (mulf (hid x L8 L7 L1 L2 L3 L4) (rows128 (shapeCast S128 L5 shapeCasts_S1x128_S128)))
      0x00000000#32 reduces_S4096x128_S4096 (.inl rfl) rfl (ix1 n)
    + extractAt ![0] (shapeCast S1 L6 shapeCasts_S1x1_S1) inpos_S1_p0 = _
  refine (congrArg (· + extractAt ![0] (shapeCast S1 L6 shapeCasts_S1x1_S1) inpos_S1_p0)
    (sum_lanes_apply _ _ _ _ n)).trans ?_
  rw [extractAt_one, shapeCast_1a_a_apply, hbout]
  unfold Spec.visOf
  refine congrArg (· + A.bout r) (Finset.sum_congr rfl fun j _ => ?_)
  show hid x L8 L7 L1 L2 L3 L4 (ix2 n j) * rows128 (shapeCast S128 L5 shapeCasts_S1x128_S128) (ix2 n j) = _
  rw [hid_apply x L8 L7 L1 L2 L3 L4 A r hlo hhi hsc hwin hbin hwh hbh, rows128_apply, shapeCast_1a_a_apply, hwout]

end Region

end Cert.KerPay
-- ==== Proof.KerPay.lean ====
/-
  The kernel body's output block read at an index: entry `(p, q)` of the stored block is the value, at
  the point `128 p + q` of the block of points, of the first box that contains the point — the eight
  steps of the body, read at that entry, are the unrolled selection over the boxes.
-/
import proofs.«169230_j5729486373507_2_alg».proof.Proof.KerPayBlock
import proofs.«169230_j5729486373507_2_alg».proof.Proof.KerPayVis

set_option maxRecDepth 16384

noncomputable section

open Idealize.ShloMosaic Idealize.ShloMosaic.ValueIdx Idealize.SL.Sem

namespace Cert.KerPay

open Cert.KernelIdeal Cert.Lib.BlockRead

/-! ## Row `ρ` of each table, loaded, read at an index -/

section Loads
variable (ρ : Fin 8)

theorem ld8_apply (x8 : Vec Ideal S8x3x2 .f32) (d : Fin 3) (c : Fin 2) :
    row8 x8 ρ (ix3 (0 : Fin 1) d c) = x8 (ix3 ρ d c) :=
  ld_unit_apply x8 _ _ _ _ _ (fun a => by
    match a with
    | ⟨0, _⟩ => exact (Nat.add_zero _).symm
    | ⟨1, _⟩ => exact (Nat.zero_add _).symm
    | ⟨2, _⟩ => exact (Nat.zero_add _).symm)

theorem ld7_apply (x7 : Vec Ideal S8x3 .f32) (d : Fin 3) :
    row7 x7 ρ (ix2 (0 : Fin 1) d) = x7 (ix2 ρ d) :=
  ld_unit_apply x7 _ _ _ _ _ (fun a => by
    match a with
    | ⟨0, _⟩ => exact (Nat.add_zero _).symm
    | ⟨1, _⟩ => exact (Nat.zero_add _).symm)

theorem ld1_apply (x1 : Vec Ideal S8x3x128 .f32) (d : Fin 3) (k : Fin 128) :
    row1 x1 ρ (ix3 (0 : Fin 1) d k) = x1 (ix3 ρ d k) :=
  ld_unit_apply x1 _ _ _ _ _ (fun a => by
    match a with
    | ⟨0, _⟩ => exact (Nat.add_zero _).symm
    | ⟨1, _⟩ => exact (Nat.zero_add _).symm
    | ⟨2, _⟩ => exact (Nat.zero_add _).symm)

theorem ld2_apply (x2 : Vec Ideal S8x128 .f32) (k : Fin 128) :
    row2 x2 ρ (ix2 (0 : Fin 1) k) = x2 (ix2 ρ k) :=
  ld_unit_apply x2 _ _ _ _ _ (fun a => by
    match a with
    | ⟨0, _⟩ => exact (Nat.add_zero _).symm
    | ⟨1, _⟩ => exact (Nat.zero_add _).symm)

theorem ld3_apply (x3 : Vec Ideal S8x3x128x128 .f32) (l : Fin 3) (j k : Fin 128) :
    row3 x3 ρ (ix4 (0 : Fin 1) l j k) = x3 (ix4 ρ l j k) :=
  ld_unit_apply x3 _ _ _ _ _ (fun a => by
    match a with
    | ⟨0, _⟩ => exact (Nat.add_zero _).symm
    | ⟨1, _⟩ => exact (Nat.zero_add _).symm
    | ⟨2, _⟩ => exact (Nat.zero_add _).symm
    | ⟨3, _⟩ => exact (Nat.zero_add _).symm)

theorem ld6_apply (x6 : Vec Ideal S8x1 .f32) :
    row6 x6 ρ (ix2 (0 : Fin 1) (0 : Fin 1)) = x6 (ix2 ρ (0 : Fin 1)) :=
  ld_unit_apply x6 _ _ _ _ _ (fun a => by
    match a with
    | ⟨0, _⟩ => exact (Nat.add_zero _).symm
    | ⟨1, _⟩ => exact (Nat.zero_add _).symm)

end Loads

/-! ## One step at an entry -/

/-- The step's two one-bit words: the select condition "inside and none before", and the new flag. -/
theorem step_bits (m f : BitVec 1) (P Q : Prop) (hm : m = 1#1 ↔ P) (hf : f = 1#1 ↔ Q) (a b : EReal)
    [inst : Decidable (P ∧ ¬ Q)] :
    Scalar.select (IntOp.andi m (IntOp.xori f 1#1)) a b = (if P ∧ ¬ Q then a else b)
      ∧ (IntOp.ori f m = 1#1 ↔ Q ∨ P) := by
  rcases BitVec.eq_zero_or_eq_one m with h | h <;> rcases BitVec.eq_zero_or_eq_one f with h' | h' <;>
    subst h <;> subst h'
  · have hP : ¬ P := fun hp => absurd (hm.mpr hp) (by decide)
    have hQ : ¬ Q := fun hq => absurd (hf.mpr hq) (by decide)
    refine ⟨?_, ?_⟩
    · rw [if_neg (fun h => hP h.1)]; rfl
    · exact ⟨fun h => absurd h (by decide), fun h => h.elim (fun h => absurd h hQ) (fun h => absurd h hP)⟩
  · have hP : ¬ P := fun hp => absurd (hm.mpr hp) (by decide)
    have hQ : Q := hf.mp rfl
    refine ⟨?_, ?_⟩
    · rw [if_neg (fun h => hP h.1)]; rfl
    · exact ⟨fun _ => Or.inl hQ, fun _ => by decide⟩
  · have hP : P := hm.mp rfl
    have hQ : ¬ Q := fun hq => absurd (hf.mpr hq) (by decide)
    refine ⟨?_, ?_⟩
    · rw [if_pos ⟨hP, hQ⟩]; rfl
    · exact ⟨fun _ => Or.inr hP, fun _ => by decide⟩
  · have hP : P := hm.mp rfl
    have hQ : Q := hf.mp rfl
    refine ⟨?_, ?_⟩
    · rw [if_neg (fun h => h.2 hQ)]; rfl
    · exact ⟨fun _ => Or.inl hQ, fun _ => by decide⟩

/-- The kernel's state at entry `n` agrees with a state of the unrolled selection. -/
def Rel (s : FVec Ideal S4096 .f32 × IVec S4096 1) (n : Fin 4096) (t : EReal × Prop) : Prop :=
  s.1 (ix1 n) = t.1 ∧ (s.2 (ix1 n) = 1#1 ↔ t.2)

theorem rel_start (n : Fin 4096) : Rel (start (F := Ideal)) n (Spec.zero, False) :=
  ⟨rfl, ⟨fun h => absurd (show (0#1 : BitVec 1) = 1#1 from h) (by decide), fun h => h.elim⟩⟩

section Step
variable (x0 : Vec Ideal S4096x3 .f32) (x1 : Vec Ideal S8x3x128 .f32) (x2 : Vec Ideal S8x128 .f32)
  (x3 : Vec Ideal S8x3x128x128 .f32) (x4 : Vec Ideal S8x3x128 .f32) (x5 : Vec Ideal S8x128 .f32)
  (x6 : Vec Ideal S8x1 .f32) (x7 : Vec Ideal S8x3 .f32) (x8 : Vec Ideal S8x3x2 .f32)

theorem ld0_eq : View.ld x0 Gen.r0_0 = x0 :=
  View.ld_unit_zero (by funext a; match a with | ⟨0, _⟩ => rfl | ⟨1, _⟩ => rfl) _ x0

open Classical in
/-- Region `ρ`'s step keeps the agreement. -/
theorem rel_region (ρ : Fin 8) (s : FVec Ideal S4096 .f32 × IVec S4096 1) (n : Fin 4096) (t : EReal × Prop)
    (h : Rel s n t) :
    Rel (region x0 x1 x2 x3 x4 x5 x6 x7 x8 ρ s) n
      (if Spec.ins (Spec.argsOf x1 x2 x3 x4 (fun r j => x5 (ix2 r j)) x6 x7 x8) ρ (fun d => x0 (ix2 n d)) ∧ ¬ t.2
        then Spec.visOf (Spec.argsOf x1 x2 x3 x4 (fun r j => x5 (ix2 r j)) x6 x7 x8) ρ
          (Spec.xnK (Spec.argsOf x1 x2 x3 x4 (fun r j => x5 (ix2 r j)) x6 x7 x8) ρ (fun d => x0 (ix2 n d)))
        else t.1,
       t.2 ∨ Spec.ins (Spec.argsOf x1 x2 x3 x4 (fun r j => x5 (ix2 r j)) x6 x7 x8) ρ (fun d => x0 (ix2 n d))) := by
  have hreg : region x0 x1 x2 x3 x4 x5 x6 x7 x8 ρ s
      = step (F := Ideal) x0 (row8 x8 ρ) (row7 x7 ρ) (row1 x1 ρ) (row2 x2 ρ) (row3 x3 ρ) (row1 x4 ρ) (row2 x5 ρ) (row6 x6 ρ) s := by
    unfold region; rw [ld0_eq]
  rw [hreg]
  have hv := vis_apply x0 (row8 x8 ρ) (row7 x7 ρ) (row1 x1 ρ) (row2 x2 ρ) (row3 x3 ρ) (row1 x4 ρ) (row2 x5 ρ)
    (row6 x6 ρ) (Spec.argsOf x1 x2 x3 x4 (fun r j => x5 (ix2 r j)) x6 x7 x8) ρ
    (fun d => ld8_apply ρ x8 d 0) (fun d => ld8_apply ρ x8 d 1) (fun d => ld7_apply ρ x7 d)
    (fun d k => ld1_apply ρ x1 d k) (fun k => ld2_apply ρ x2 k) (fun l j k => ld3_apply ρ x3 l j k)
    (fun l k => ld1_apply ρ x4 l k) (fun k => ld2_apply ρ x5 k) (ld6_apply ρ x6) n
  have hm := mask_apply (row8 x8 ρ) (Spec.argsOf x1 x2 x3 x4 (fun r j => x5 (ix2 r j)) x6 x7 x8) ρ
    (fun d => ld8_apply ρ x8 d 0) (fun d => ld8_apply ρ x8 d 1) x0 n
  have hb := step_bits (mask (F := Ideal) x0 (row8 x8 ρ) (ix1 n)) (s.2 (ix1 n)) _ _ hm h.2
    (Spec.visOf (Spec.argsOf x1 x2 x3 x4 (fun r j => x5 (ix2 r j)) x6 x7 x8) ρ
      (Spec.xnK (Spec.argsOf x1 x2 x3 x4 (fun r j => x5 (ix2 r j)) x6 x7 x8) ρ (fun d => x0 (ix2 n d)))) t.1
  refine ⟨?_, hb.2⟩
  refine Eq.trans ?_ hb.1
  show Scalar.select (IntOp.andi (mask (F := Ideal) x0 (row8 x8 ρ) (ix1 n)) (IntOp.xori (s.2 (ix1 n)) 1#1))
    (vis (F := Ideal) x0 (row8 x8 ρ) (row7 x7 ρ) (row1 x1 ρ) (row2 x2 ρ) (row3 x3 ρ) (row1 x4 ρ) (row2 x5 ρ) (row6 x6 ρ) (ix1 n))
    (s.1 (ix1 n)) = _
  rw [hv, h.1]

/-- The regions of a list, stepped in order. -/
def run : List (Fin 8) → FVec Ideal S4096 .f32 × IVec S4096 1 → FVec Ideal S4096 .f32 × IVec S4096 1
  | [], s => s
  | ρ :: ρs, s => run ρs (region x0 x1 x2 x3 x4 x5 x6 x7 x8 ρ s)

theorem eight_eq :
    eight x0 x1 x2 x3 x4 x5 x6 x7 x8 = run x0 x1 x2 x3 x4 x5 x6 x7 x8 [0, 1, 2, 3, 4, 5, 6, 7] start := rfl

/-- The regions of a list keep the agreement with the unrolled selection over the same list. -/
theorem rel_run (n : Fin 4096) :
    ∀ (ρs : List (Fin 8)) (s : FVec Ideal S4096 .f32 × IVec S4096 1) (t : EReal × Prop), Rel s n t →
      Rel (run x0 x1 x2 x3 x4 x5 x6 x7 x8 ρs s) n
        (Spec.chain (fun r => Spec.ins (Spec.argsOf x1 x2 x3 x4 (fun r j => x5 (ix2 r j)) x6 x7 x8) r
            (fun d => x0 (ix2 n d)))
          (fun r => Spec.visOf (Spec.argsOf x1 x2 x3 x4 (fun r j => x5 (ix2 r j)) x6 x7 x8) r
            (Spec.xnK (Spec.argsOf x1 x2 x3 x4 (fun r j => x5 (ix2 r j)) x6 x7 x8) r (fun d => x0 (ix2 n d))))
          ρs t)
  | [], _, _, h => h
  | ρ :: ρs, s, t, h => rel_run n ρs _ _ (rel_region x0 x1 x2 x3 x4 x5 x6 x7 x8 ρ s n t h)

end Step

/-! ## The output block at an index -/

theorem out_apply (x0 : Vec Ideal S4096x3 .f32) (x1 : Vec Ideal S8x3x128 .f32) (x2 : Vec Ideal S8x128 .f32)
    (x3 : Vec Ideal S8x3x128x128 .f32) (x4 : Vec Ideal S8x3x128 .f32) (x5 : Vec Ideal S8x128 .f32)
    (x6 : Vec Ideal S8x1 .f32) (x7 : Vec Ideal S8x3 .f32) (x8 : Vec Ideal S8x3x2 .f32) (p : Fin 32) (q : Fin 128) :
    Cert.KernelIdeal.Gen.out0_9 (F := Ideal) x0 x1 x2 x3 x4 x5 x6 x7 x8 (ix2 p q)
      = Cert.Spec.outK (Cert.Spec.argsOf x1 x2 x3 x4 (fun r j => x5 (ix2 r j)) x6 x7 x8)
          (fun d => x0 (ix2 (⟨p.val * 128 + q.val, by omega⟩ : Fin 4096) d)) := by
  rw [out_eq, View.canon_unit_zero (by funext a; match a with | ⟨0, _⟩ => rfl | ⟨1, _⟩ => rfl),
    shapeCast_4096_32x128_apply, eight_eq]
  exact ((rel_run x0 x1 x2 x3 x4 x5 x6 x7 x8 (⟨p.val * 128 + q.val, by omega⟩ : Fin 4096) [0, 1, 2, 3, 4, 5, 6, 7]
    start (Spec.zero, False) (rel_start _)).1).trans (Spec.pick_chain _ _)

end Cert.KerPay
-- ==== Proof.RefRunOps.lean ====
/-
  The reference's @main as a LIST of host operations, and the list cut into the five consecutive
  stretches its fold is read through: everything up to the box test, the first containing box and
  whether there is one, the index along the box axis normalised, the gather at it, the final selection.
-/
import proofs.«169230_j5729486373507_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's @main as one straight line of 117 host operations, in program order: its own 87, and the
    bodies of the three functions it calls written out at the call sites over each call's buffer record — the
    argmax over the box axis (the iota, the two initial values, one line per result of the two-operand
    reduction), the gather along the box axis (twenty-two operations: the index normalised, the bounds mask,
    the gather, the fill value, the select), and the final select against zero (three). -/
abbrev ops : List (HloOp τ sig (Elt F)) :=
  [ StableHlo.unary main_arg8 main_v0 ((extractStridedSlice S8x3x1 ![0, 0, 0] · slices_S8x3x2_S8x3x1_0_0_0) : (⟨S8x3x2, .f32⟩ : BufTy).Contents (Elt F) → (⟨S8x3x1, .f32⟩ : BufTy).Contents (Elt F)),
    StableHlo.reshape main_v0 main_v1 rfl shapeCasts_S8x3x1_S8x3,
    StableHlo.unary main_v1 main_v2 (broadcastInDim S8x1x3 ![0, 2] bcast_S8x3_S8x1x3_0_2 : (⟨S8x3, .f32⟩ : BufTy).Contents (Elt F) → (⟨S8x1x3, .f32⟩ : BufTy).Contents (Elt F)),
    StableHlo.unary main_arg8 main_v3 ((extractStridedSlice S8x3x1 ![0, 0, 1] · slices_S8x3x2_S8x3x1_0_0_1) : (⟨S8x3x2, .f32⟩ : BufTy).Contents (Elt F) → (⟨S8x3x1, .f32⟩ : BufTy).Contents (Elt F)),
    StableHlo.reshape main_v3 main_v4 rfl shapeCasts_S8x3x1_S8x3,
    StableHlo.unary main_v4 main_v5 (broadcastInDim S8x1x3 ![0, 2] bcast_S8x3_S8x1x3_0_2 : (⟨S8x3, .f32⟩ : BufTy).Contents (Elt F) → (⟨S8x1x3, .f32⟩ : BufTy).Contents (Elt F)),
    StableHlo.unary main_arg0 main_v6 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_v6 main_v7 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    StableHlo.unary main_v2 main_v8 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v7 main_v8 main_v9 (subf : (⟨S8x65536x3, .f32⟩ : BufTy).Contents (Elt F) → (⟨S8x65536x3, .f32⟩ : BufTy).Contents (Elt F) → (⟨S8x65536x3, .f32⟩ : BufTy).Contents (Elt F)),
    StableHlo.nullary main_cst (constant S_ .f32 0x40000000#32),
    StableHlo.unary main_cst main_v10 (broadcastInDim S8x65536x3 ![] bcast_S_S8x65536x3 : (⟨S_, .f32⟩ : BufTy).Contents (Elt F) → (⟨S8x65536x3, .f32⟩ : BufTy).Contents (Elt F)),
    StableHlo.binary main_v10 main_v9 main_v11 (mulf : (⟨S8x65536x3, .f32⟩ : BufTy).Contents (Elt F) → (⟨S8x65536x3, .f32⟩ : BufTy).Contents (Elt F) → (⟨S8x65536x3, .f32⟩ : BufTy).Contents (Elt F)),
    StableHlo.binary main_v5 main_v2 main_v12 (subf : (⟨S8x1x3, .f32⟩ : BufTy).Contents (Elt F) → (⟨S8x1x3, .f32⟩ : BufTy).Contents (Elt F) → (⟨S8x1x3, .f32⟩ : BufTy).Contents (Elt F)),
    StableHlo.unary main_v12 main_v13 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v11 main_v13 main_v14 (Host.divf : (⟨S8x65536x3, .f32⟩ : BufTy).Contents (Elt F) → (⟨S8x65536x3, .f32⟩ : BufTy).Contents (Elt F) → (⟨S8x65536x3, .f32⟩ : BufTy).Contents (Elt F)),
    StableHlo.nullary main_cst_0 (constant S_ .f32 0x3F800000#32),
    StableHlo.unary main_cst_0 main_v15 (broadcastInDim S8x65536x3 ![] bcast_S_S8x65536x3 : (⟨S_, .f32⟩ : BufTy).Contents (Elt F) → (⟨S8x65536x3, .f32⟩ : BufTy).Contents (Elt F)),
    StableHlo.binary main_v14 main_v15 main_v16 (subf : (⟨S8x65536x3, .f32⟩ : BufTy).Contents (Elt F) → (⟨S8x65536x3, .f32⟩ : BufTy).Contents (Elt F) → (⟨S8x65536x3, .f32⟩ : BufTy).Contents (Elt F)),
    StableHlo.unary main_arg7 main_v17 (broadcastInDim S8x1x3 ![0, 2] bcast_S8x3_S8x1x3_0_2 : (⟨S8x3, .f32⟩ : BufTy).Contents (Elt F) → (⟨S8x1x3, .f32⟩ : BufTy).Contents (Elt F)),
    StableHlo.unary main_v17 main_v18 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v16 main_v18 main_v19 (mulf : (⟨S8x65536x3, .f32⟩ : BufTy).Contents (Elt F) → (⟨S8x65536x3, .f32⟩ : BufTy).Contents (Elt F) → (⟨S8x65536x3, .f32⟩ : BufTy).Contents (Elt F)),
    StableHlo.binary main_v19 main_arg1 main_v20 ((fun l r => Host.dotGeneral dot_S8x65536x3_S8x3x128_S8x65536x128_2_1_1_2_0_0 none l r) : (⟨S8x65536x3, .f32⟩ : BufTy).Contents (Elt F) → (⟨S8x3x128, .f32⟩ : BufTy).Contents (Elt F) → (⟨S8x65536x128, .f32⟩ : BufTy).Contents (Elt F)),
    StableHlo.unary main_arg2 main_v21 (broadcastInDim S8x1x128 ![0, 2] bcast_S8x128_S8x1x128_0_2 : (⟨S8x128, .f32⟩ : BufTy).Contents (Elt F) → (⟨S8x1x128, .f32⟩ : BufTy).Contents (Elt F)),
    StableHlo.unary main_v21 main_v22 (broadcastInDim S8x65536x128 ![0, 1, 2] bcast_S8x1x128_S8x65536x128_0_1_2 : (⟨S8x1x128, .f32⟩ : BufTy).Contents (Elt F) → (⟨S8x65536x128, .f32⟩ : BufTy).Contents (Elt F)),
    StableHlo.binary main_v20 main_v22 main_v23 (addf : (⟨S8x65536x128, .f32⟩ : BufTy).Contents (Elt F) → (⟨S8x65536x128, .f32⟩ : BufTy).Contents (Elt F) → (⟨S8x65536x128, .f32⟩ : BufTy).Contents (Elt F)),
    StableHlo.nullary main_cst_1 (constant S_ .f32 0x41F00000#32),
    StableHlo.unary main_cst_1 main_v24 (broadcastInDim S8x65536x128 ![] bcast_S_S8x65536x128 : (⟨S_, .f32⟩ : BufTy).Contents (Elt F) → (⟨S8x65536x128, .f32⟩ : BufTy).Contents (Elt F)),
    StableHlo.binary main_v24 main_v23 main_v25 (mulf : (⟨S8x65536x128, .f32⟩ : BufTy).Contents (Elt F) → (⟨S8x65536x128, .f32⟩ : BufTy).Contents (Elt F) → (⟨S8x65536x128, .f32⟩ : BufTy).Contents (Elt F)),
    StableHlo.unary main_v25 main_v26 (Host.sin : (⟨S8x65536x128, .f32⟩ : BufTy).Contents (Elt F) → (⟨S8x65536x128, .f32⟩ : BufTy).Contents (Elt F)),
    StableHlo.unary main_arg3 main_v27 ((extractStridedSlice S8x1x128x128 ![0, 0, 0, 0] · slices_S8x3x128x128_S8x1x128x128_0_0_0_0) : (⟨S8x3x128x128, .f32⟩ : BufTy).Contents (Elt F) → (⟨S8x1x128x128, .f32⟩ : BufTy).Contents (Elt F)),
    StableHlo.reshape main_v27 main_v28 rfl shapeCasts_S8x1x128x128_S8x128x128,
    StableHlo.binary main_v26 main_v28 main_v29 ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)),
    StableHlo.unary main_arg4 main_v30 ((extractStridedSlice S8x1x128 ![0, 0, 0] · slices_S8x3x128_S8x1x128_0_0_0) : (⟨S8x3x128, .f32⟩ : BufTy).Contents (Elt F) → (⟨S8x1x128, .f32⟩ : BufTy).Contents (Elt F)),
    StableHlo.reshape main_v30 main_v31 rfl shapeCasts_S8x1x128_S8x128,
    StableHlo.unary main_v31 main_v32 (broadcastInDim S8x1x128 ![0, 2] bcast_S8x128_S8x1x128_0_2 : (⟨S8x128, .f32⟩ : BufTy).Contents (Elt F) → (⟨S8x1x128, .f32⟩ : BufTy).Contents (Elt F)),
    StableHlo.unary main_v32 main_v33 (broadcastInDim S8x65536x128 ![0, 1, 2] bcast_S8x1x128_S8x65536x128_0_1_2 : (⟨S8x1x128, .f32⟩ : BufTy).Contents (Elt F) → (⟨S8x65536x128, .f32⟩ : BufTy).Contents (Elt F)),
    StableHlo.binary main_v29 main_v33 main_v34 (addf : (⟨S8x65536x128, .f32⟩ : BufTy).Contents (Elt F) → (⟨S8x65536x128, .f32⟩ : BufTy).Contents (Elt F) → (⟨S8x65536x128, .f32⟩ : BufTy).Contents (Elt F)),
    StableHlo.nullary main_cst_2 (constant S_ .f32 0x41F00000#32),
    StableHlo.unary main_cst_2 main_v35 (broadcastInDim S8x65536x128 ![] bcast_S_S8x65536x128 : (⟨S_, .f32⟩ : BufTy).Contents (Elt F) → (⟨S8x65536x128, .f32⟩ : BufTy).Contents (Elt F)),
    StableHlo.binary main_v35 main_v34 main_v36 (mulf : (⟨S8x65536x128, .f32⟩ : BufTy).Contents (Elt F) → (⟨S8x65536x128, .f32⟩ : BufTy).Contents (Elt F) → (⟨S8x65536x128, .f32⟩ : BufTy).Contents (Elt F)),
    StableHlo.unary main_v36 main_v37 (Host.sin : (⟨S8x65536x128, .f32⟩ : BufTy).Contents (Elt F) → (⟨S8x65536x128, .f32⟩ : BufTy).Contents (Elt F)),
    StableHlo.unary main_arg3 main_v38 ((extractStridedSlice S8x1x128x128 ![0, 1, 0, 0] · slices_S8x3x128x128_S8x1x128x128_0_1_0_0) : (⟨S8x3x128x128, .f32⟩ : BufTy).Contents (Elt F) → (⟨S8x1x128x128, .f32⟩ : BufTy).Contents (Elt F)),
    StableHlo.reshape main_v38 main_v39 rfl shapeCasts_S8x1x128x128_S8x128x128,
    StableHlo.binary main_v37 main_v39 main_v40 ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)),
    StableHlo.unary main_arg4 main_v41 ((extractStridedSlice S8x1x128 ![0, 1, 0] · slices_S8x3x128_S8x1x128_0_1_0) : (⟨S8x3x128, .f32⟩ : BufTy).Contents (Elt F) → (⟨S8x1x128, .f32⟩ : BufTy).Contents (Elt F)),
    StableHlo.reshape main_v41 main_v42 rfl shapeCasts_S8x1x128_S8x128,
    StableHlo.unary main_v42 main_v43 (broadcastInDim S8x1x128 ![0, 2] bcast_S8x128_S8x1x128_0_2 : (⟨S8x128, .f32⟩ : BufTy).Contents (Elt F) → (⟨S8x1x128, .f32⟩ : BufTy).Contents (Elt F)),
    StableHlo.unary main_v43 main_v44 (broadcastInDim S8x65536x128 ![0, 1, 2] bcast_S8x1x128_S8x65536x128_0_1_2 : (⟨S8x1x128, .f32⟩ : BufTy).Contents (Elt F) → (⟨S8x65536x128, .f32⟩ : BufTy).Contents (Elt F)),
    StableHlo.binary main_v40 main_v44 main_v45 (addf : (⟨S8x65536x128, .f32⟩ : BufTy).Contents (Elt F) → (⟨S8x65536x128, .f32⟩ : BufTy).Contents (Elt F) → (⟨S8x65536x128, .f32⟩ : BufTy).Contents (Elt F)),
    StableHlo.nullary main_cst_3 (constant S_ .f32 0x41F00000#32),
    StableHlo.unary main_cst_3 main_v46 (broadcastInDim S8x65536x128 ![] bcast_S_S8x65536x128 : (⟨S_, .f32⟩ : BufTy).Contents (Elt F) → (⟨S8x65536x128, .f32⟩ : BufTy).Contents (Elt F)),
    StableHlo.binary main_v46 main_v45 main_v47 (mulf : (⟨S8x65536x128, .f32⟩ : BufTy).Contents (Elt F) → (⟨S8x65536x128, .f32⟩ : BufTy).Contents (Elt F) → (⟨S8x65536x128, .f32⟩ : BufTy).Contents (Elt F)),
    StableHlo.unary main_v47 main_v48 (Host.sin : (⟨S8x65536x128, .f32⟩ : BufTy).Contents (Elt F) → (⟨S8x65536x128, .f32⟩ : BufTy).Contents (Elt F)),
    StableHlo.unary main_arg3 main_v49 ((extractStridedSlice S8x1x128x128 ![0, 2, 0, 0] · slices_S8x3x128x128_S8x1x128x128_0_2_0_0) : (⟨S8x3x128x128, .f32⟩ : BufTy).Contents (Elt F) → (⟨S8x1x128x128, .f32⟩ : BufTy).Contents (Elt F)),
    StableHlo.reshape main_v49 main_v50 rfl shapeCasts_S8x1x128x128_S8x128x128,
    StableHlo.binary main_v48 main_v50 main_v51 ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)),
    StableHlo.unary main_arg4 main_v52 ((extractStridedSlice S8x1x128 ![0, 2, 0] · slices_S8x3x128_S8x1x128_0_2_0) : (⟨S8x3x128, .f32⟩ : BufTy).Contents (Elt F) → (⟨S8x1x128, .f32⟩ : BufTy).Contents (Elt F)),
    StableHlo.reshape main_v52 main_v53 rfl shapeCasts_S8x1x128_S8x128,
    StableHlo.unary main_v53 main_v54 (broadcastInDim S8x1x128 ![0, 2] bcast_S8x128_S8x1x128_0_2 : (⟨S8x128, .f32⟩ : BufTy).Contents (Elt F) → (⟨S8x1x128, .f32⟩ : BufTy).Contents (Elt F)),
    StableHlo.unary main_v54 main_v55 (broadcastInDim S8x65536x128 ![0, 1, 2] bcast_S8x1x128_S8x65536x128_0_1_2 : (⟨S8x1x128, .f32⟩ : BufTy).Contents (Elt F) → (⟨S8x65536x128, .f32⟩ : BufTy).Contents (Elt F)),
    StableHlo.binary main_v51 main_v55 main_v56 (addf : (⟨S8x65536x128, .f32⟩ : BufTy).Contents (Elt F) → (⟨S8x65536x128, .f32⟩ : BufTy).Contents (Elt F) → (⟨S8x65536x128, .f32⟩ : BufTy).Contents (Elt F)),
    StableHlo.nullary main_cst_4 (constant S_ .f32 0x41F00000#32),
    StableHlo.unary main_cst_4 main_v57 (broadcastInDim S8x65536x128 ![] bcast_S_S8x65536x128 : (⟨S_, .f32⟩ : BufTy).Contents (Elt F) → (⟨S8x65536x128, .f32⟩ : BufTy).Contents (Elt F)),
    StableHlo.binary main_v57 main_v56 main_v58 (mulf : (⟨S8x65536x128, .f32⟩ : BufTy).Contents (Elt F) → (⟨S8x65536x128, .f32⟩ : BufTy).Contents (Elt F) → (⟨S8x65536x128, .f32⟩ : BufTy).Contents (Elt F)),
    StableHlo.unary main_v58 main_v59 (Host.sin : (⟨S8x65536x128, .f32⟩ : BufTy).Contents (Elt F) → (⟨S8x65536x128, .f32⟩ : BufTy).Contents (Elt F)),
    StableHlo.binary main_v59 main_arg5 main_v60 ((fun l r => Host.dotGeneral dot_S8x65536x128_S8x128x1_S8x65536x1_2_1_1_2_0_0 none l r) : (⟨S8x65536x128, .f32⟩ : BufTy).Contents (Elt F) → (⟨S8x128x1, .f32⟩ : BufTy).Contents (Elt F) → (⟨S8x65536x1, .f32⟩ : BufTy).Contents (Elt F)),
    StableHlo.unary main_arg6 main_v61 (broadcastInDim S8x1x1 ![0, 2] bcast_S8x1_S8x1x1_0_2 : (⟨S8x1, .f32⟩ : BufTy).Contents (Elt F) → (⟨S8x1x1, .f32⟩ : BufTy).Contents (Elt F)),
    StableHlo.unary main_v61 main_v62 (broadcastInDim S8x65536x1 ![0, 1, 2] bcast_S8x1x1_S8x65536x1_0_1_2 : (⟨S8x1x1, .f32⟩ : BufTy).Contents (Elt F) → (⟨S8x65536x1, .f32⟩ : BufTy).Contents (Elt F)),
    StableHlo.binary main_v60 main_v62 main_v63 (addf : (⟨S8x65536x1, .f32⟩ : BufTy).Contents (Elt F) → (⟨S8x65536x1, .f32⟩ : BufTy).Contents (Elt F) → (⟨S8x65536x1, .f32⟩ : BufTy).Contents (Elt F)),
    StableHlo.reshape main_v63 main_v64 rfl shapeCasts_S8x65536x1_S8x65536,
    StableHlo.unary main_arg0 main_v65 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_v65 main_v66 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    StableHlo.unary main_v2 main_v67 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v66 main_v67 main_v68 (cmpf .oge : (⟨S8x65536x3, .f32⟩ : BufTy).Contents (Elt F) → (⟨S8x65536x3, .f32⟩ : BufTy).Contents (Elt F) → (⟨S8x65536x3, .i1⟩ : BufTy).Contents (Elt F)),
    StableHlo.unary main_arg0 main_v69 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_v69 main_v70 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    StableHlo.unary main_v5 main_v71 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v70 main_v71 main_v72 (cmpf .ole : (⟨S8x65536x3, .f32⟩ : BufTy).Contents (Elt F) → (⟨S8x65536x3, .f32⟩ : BufTy).Contents (Elt F) → (⟨S8x65536x3, .i1⟩ : BufTy).Contents (Elt F)),
    StableHlo.binary main_v68 main_v72 main_v73 (andi : (⟨S8x65536x3, .i1⟩ : BufTy).Contents (Elt F) → (⟨S8x65536x3, .i1⟩ : BufTy).Contents (Elt F) → (⟨S8x65536x3, .i1⟩ : BufTy).Contents (Elt F)),
    StableHlo.nullary main_c (constantI S_ 1 1#1),
    StableHlo.binary main_v73 main_c main_v74 ((fun x v => Host.reduce IntOp.andi x v reducesTo_S8x65536x3_S8x65536_d2 h_S_) : (⟨S8x65536x3, .i1⟩ : BufTy).Contents (Elt F) → (⟨S_, .i1⟩ : BufTy).Contents (Elt F) → (⟨S8x65536, .i1⟩ : BufTy).Contents (Elt F)),
    StableHlo.TRef.nullary main_call0.v0 (iotaInDim S8x65536 32 0),
    StableHlo.TRef.nullary main_call0.c (constantI S_ 1 0#1),
    StableHlo.TRef.nullary main_call0.c_0 (constantI S_ 32 0#32),
    StableHlo.TRef.quaternary (.of main_v74 : TRef sig ⟨S8x65536, .i1⟩) main_call0.v0 main_call0.c main_call0.c_0 main_call0.v1_0 (fun x y u v j => (Host.reduce2 reducer_argmax_i1_i32 x y u v reducesTo_S8x65536_S65536_d0 h_S_ j).1),
    StableHlo.TRef.quaternary (.of main_v74 : TRef sig ⟨S8x65536, .i1⟩) main_call0.v0 main_call0.c main_call0.c_0 main_call0.v1_1 (fun x y u v j => (Host.reduce2 reducer_argmax_i1_i32 x y u v reducesTo_S8x65536_S65536_d0 h_S_ j).2),
    StableHlo.nullary main_c_5 (constantI S_ 1 0#1),
    StableHlo.binary main_v74 main_c_5 main_v76 ((fun x v => Host.reduce IntOp.ori x v reducesTo_S8x65536_S65536_d0 h_S_) : (⟨S8x65536, .i1⟩ : BufTy).Contents (Elt F) → (⟨S_, .i1⟩ : BufTy).Contents (Elt F) → (⟨S65536, .i1⟩ : BufTy).Contents (Elt F)),
    StableHlo.unary main_v75 main_v77 (broadcastInDim S1x65536 ![1] bcast_S65536_S1x65536_1 : (⟨S65536, .i32⟩ : BufTy).Contents (Elt F) → (⟨S1x65536, .i32⟩ : BufTy).Contents (Elt F)),
    StableHlo.TRef.nullary main_call1.c (constantI S_ 32 0#32),
    StableHlo.TRef.unary main_call1.c main_call1.v0 (broadcastInDim S1x65536 ![] bcast_S_S1x65536),
    StableHlo.TRef.binary (.of main_v77 : TRef sig ⟨S1x65536, .i32⟩) main_call1.v0 main_call1.v1 (cmpi .slt),
    StableHlo.TRef.nullary main_call1.c_0 (constantI S_ 32 8#32),
    StableHlo.TRef.unary main_call1.c_0 main_call1.v2 (broadcastInDim S1x65536 ![] bcast_S_S1x65536),
    StableHlo.TRef.binary (.of main_v77 : TRef sig ⟨S1x65536, .i32⟩) main_call1.v2 main_call1.v3 addi,
    StableHlo.TRef.ternary main_call1.v1 main_call1.v3 (.of main_v77 : TRef sig ⟨S1x65536, .i32⟩) main_call1.v4 select,
    StableHlo.TRef.reshape main_call1.v4 main_call1.v5 rfl shapeCasts_S1x65536_S1x65536x1,
    StableHlo.TRef.nullary main_call1.c_1 (constantI S1 32 7#32),
    StableHlo.TRef.nullary main_call1.c_2 (constantI S_ 32 0#32),
    StableHlo.TRef.unary main_call1.c_2 main_call1.v6 (broadcastInDim S1x65536x1 ![] bcast_S_S1x65536x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1x65536x1 ![0, 1, 2] bcast_S1x1x1_S1x65536x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1x65536x1_S1x65536_d2 h_S_),
    StableHlo.TRef.binary (.of main_v64 : TRef sig ⟨S8x65536, .f32⟩) main_call1.v5 main_call1.v13 (fun x i => Host.gather gather_S8x65536_S1x65536x1_S1x65536_n_0_1_1_0_2_11 x i),
    StableHlo.TRef.nullary main_call1.cst (constant S_ .f32 0x7FC00000#32),
    StableHlo.TRef.unary main_call1.cst main_call1.v14 (broadcastInDim S1x65536 ![] bcast_S_S1x65536),
    StableHlo.TRef.ternary main_call1.v12 main_call1.v13 main_call1.v14 main_call1.v15 select,
    StableHlo.reshape main_v78 main_v79 rfl shapeCasts_S1x65536_S65536,
    StableHlo.nullary main_cst_6 (constant S_ .f32 0x00000000#32),
    StableHlo.TRef.unary (.of main_cst_6 : TRef sig ⟨S_, .f32⟩) main_call2.v0 id,
    StableHlo.TRef.unary main_call2.v0 main_call2.v1 (broadcastInDim S65536 ![] bcast_S_S65536),
    StableHlo.TRef.ternary (.of main_v76 : TRef sig ⟨S65536, .i1⟩) (.of main_v79 : TRef sig ⟨S65536, .f32⟩) main_call2.v1 main_call2.v2 select ]

set_option maxRecDepth 8192 in
set_option maxHeartbeats 4000000 in
/-- @main is that straight line: its two windows and the three function bodies unfolded, both sides are one
    chain of host steps once sequencing is reassociated. -/
theorem main_eq (c : Dev nD) : main (F := F) c = seq ops := by
  simp only [main, main_part0, main_part1, fn_argmax.body, fn_take_along_axis.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., reshape_bufs_sub .., unary_bufs_sub .., unary_bufs_sub .., reshape_bufs_sub .., unary_bufs_sub ..,
    unary_bufs_sub .., unary_bufs_sub .., unary_bufs_sub .., binary_bufs_sub .., nullary_bufs_sub .., unary_bufs_sub ..,
    binary_bufs_sub .., binary_bufs_sub .., unary_bufs_sub .., binary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., unary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., reshape_bufs_sub .., unary_bufs_sub ..,
    unary_bufs_sub .., unary_bufs_sub .., binary_bufs_sub .., unary_bufs_sub .., unary_bufs_sub .., unary_bufs_sub ..,
    binary_bufs_sub .., binary_bufs_sub .., nullary_bufs_sub .., binary_bufs_sub .., nullary_bufs_sub .., nullary_bufs_sub ..,
    nullary_bufs_sub .., quaternary_bufs_sub .., quaternary_bufs_sub .., nullary_bufs_sub .., binary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub .., nullary_bufs_sub ..,
    unary_bufs_sub .., unary_bufs_sub .., ternary_bufs_sub ..⟩

/-- Operations 1 … 82: up to the box test — the networks' values at every point and the test. -/
abbrev opsHead : List (HloOp τ sig (Elt F)) :=
  [ StableHlo.unary main_arg8 main_v0 ((extractStridedSlice S8x3x1 ![0, 0, 0] · slices_S8x3x2_S8x3x1_0_0_0) : (⟨S8x3x2, .f32⟩ : BufTy).Contents (Elt F) → (⟨S8x3x1, .f32⟩ : BufTy).Contents (Elt F)),
    StableHlo.reshape main_v0 main_v1 rfl shapeCasts_S8x3x1_S8x3,
    StableHlo.unary main_v1 main_v2 (broadcastInDim S8x1x3 ![0, 2] bcast_S8x3_S8x1x3_0_2 : (⟨S8x3, .f32⟩ : BufTy).Contents (Elt F) → (⟨S8x1x3, .f32⟩ : BufTy).Contents (Elt F)),
    StableHlo.unary main_arg8 main_v3 ((extractStridedSlice S8x3x1 ![0, 0, 1] · slices_S8x3x2_S8x3x1_0_0_1) : (⟨S8x3x2, .f32⟩ : BufTy).Contents (Elt F) → (⟨S8x3x1, .f32⟩ : BufTy).Contents (Elt F)),
    StableHlo.reshape main_v3 main_v4 rfl shapeCasts_S8x3x1_S8x3,
    StableHlo.unary main_v4 main_v5 (broadcastInDim S8x1x3 ![0, 2] bcast_S8x3_S8x1x3_0_2 : (⟨S8x3, .f32⟩ : BufTy).Contents (Elt F) → (⟨S8x1x3, .f32⟩ : BufTy).Contents (Elt F)),
    StableHlo.unary main_arg0 main_v6 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_v6 main_v7 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    StableHlo.unary main_v2 main_v8 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v7 main_v8 main_v9 (subf : (⟨S8x65536x3, .f32⟩ : BufTy).Contents (Elt F) → (⟨S8x65536x3, .f32⟩ : BufTy).Contents (Elt F) → (⟨S8x65536x3, .f32⟩ : BufTy).Contents (Elt F)),
    StableHlo.nullary main_cst (constant S_ .f32 0x40000000#32),
    StableHlo.unary main_cst main_v10 (broadcastInDim S8x65536x3 ![] bcast_S_S8x65536x3 : (⟨S_, .f32⟩ : BufTy).Contents (Elt F) → (⟨S8x65536x3, .f32⟩ : BufTy).Contents (Elt F)),
    StableHlo.binary main_v10 main_v9 main_v11 (mulf : (⟨S8x65536x3, .f32⟩ : BufTy).Contents (Elt F) → (⟨S8x65536x3, .f32⟩ : BufTy).Contents (Elt F) → (⟨S8x65536x3, .f32⟩ : BufTy).Contents (Elt F)),
    StableHlo.binary main_v5 main_v2 main_v12 (subf : (⟨S8x1x3, .f32⟩ : BufTy).Contents (Elt F) → (⟨S8x1x3, .f32⟩ : BufTy).Contents (Elt F) → (⟨S8x1x3, .f32⟩ : BufTy).Contents (Elt F)),
    StableHlo.unary main_v12 main_v13 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v11 main_v13 main_v14 (Host.divf : (⟨S8x65536x3, .f32⟩ : BufTy).Contents (Elt F) → (⟨S8x65536x3, .f32⟩ : BufTy).Contents (Elt F) → (⟨S8x65536x3, .f32⟩ : BufTy).Contents (Elt F)),
    StableHlo.nullary main_cst_0 (constant S_ .f32 0x3F800000#32),
    StableHlo.unary main_cst_0 main_v15 (broadcastInDim S8x65536x3 ![] bcast_S_S8x65536x3 : (⟨S_, .f32⟩ : BufTy).Contents (Elt F) → (⟨S8x65536x3, .f32⟩ : BufTy).Contents (Elt F)),
    StableHlo.binary main_v14 main_v15 main_v16 (subf : (⟨S8x65536x3, .f32⟩ : BufTy).Contents (Elt F) → (⟨S8x65536x3, .f32⟩ : BufTy).Contents (Elt F) → (⟨S8x65536x3, .f32⟩ : BufTy).Contents (Elt F)),
    StableHlo.unary main_arg7 main_v17 (broadcastInDim S8x1x3 ![0, 2] bcast_S8x3_S8x1x3_0_2 : (⟨S8x3, .f32⟩ : BufTy).Contents (Elt F) → (⟨S8x1x3, .f32⟩ : BufTy).Contents (Elt F)),
    StableHlo.unary main_v17 main_v18 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v16 main_v18 main_v19 (mulf : (⟨S8x65536x3, .f32⟩ : BufTy).Contents (Elt F) → (⟨S8x65536x3, .f32⟩ : BufTy).Contents (Elt F) → (⟨S8x65536x3, .f32⟩ : BufTy).Contents (Elt F)),
    StableHlo.binary main_v19 main_arg1 main_v20 ((fun l r => Host.dotGeneral dot_S8x65536x3_S8x3x128_S8x65536x128_2_1_1_2_0_0 none l r) : (⟨S8x65536x3, .f32⟩ : BufTy).Contents (Elt F) → (⟨S8x3x128, .f32⟩ : BufTy).Contents (Elt F) → (⟨S8x65536x128, .f32⟩ : BufTy).Contents (Elt F)),
    StableHlo.unary main_arg2 main_v21 (broadcastInDim S8x1x128 ![0, 2] bcast_S8x128_S8x1x128_0_2 : (⟨S8x128, .f32⟩ : BufTy).Contents (Elt F) → (⟨S8x1x128, .f32⟩ : BufTy).Contents (Elt F)),
    StableHlo.unary main_v21 main_v22 (broadcastInDim S8x65536x128 ![0, 1, 2] bcast_S8x1x128_S8x65536x128_0_1_2 : (⟨S8x1x128, .f32⟩ : BufTy).Contents (Elt F) → (⟨S8x65536x128, .f32⟩ : BufTy).Contents (Elt F)),
    StableHlo.binary main_v20 main_v22 main_v23 (addf : (⟨S8x65536x128, .f32⟩ : BufTy).Contents (Elt F) → (⟨S8x65536x128, .f32⟩ : BufTy).Contents (Elt F) → (⟨S8x65536x128, .f32⟩ : BufTy).Contents (Elt F)),
    StableHlo.nullary main_cst_1 (constant S_ .f32 0x41F00000#32),
    StableHlo.unary main_cst_1 main_v24 (broadcastInDim S8x65536x128 ![] bcast_S_S8x65536x128 : (⟨S_, .f32⟩ : BufTy).Contents (Elt F) → (⟨S8x65536x128, .f32⟩ : BufTy).Contents (Elt F)),
    StableHlo.binary main_v24 main_v23 main_v25 (mulf : (⟨S8x65536x128, .f32⟩ : BufTy).Contents (Elt F) → (⟨S8x65536x128, .f32⟩ : BufTy).Contents (Elt F) → (⟨S8x65536x128, .f32⟩ : BufTy).Contents (Elt F)),
    StableHlo.unary main_v25 main_v26 (Host.sin : (⟨S8x65536x128, .f32⟩ : BufTy).Contents (Elt F) → (⟨S8x65536x128, .f32⟩ : BufTy).Contents (Elt F)),
    StableHlo.unary main_arg3 main_v27 ((extractStridedSlice S8x1x128x128 ![0, 0, 0, 0] · slices_S8x3x128x128_S8x1x128x128_0_0_0_0) : (⟨S8x3x128x128, .f32⟩ : BufTy).Contents (Elt F) → (⟨S8x1x128x128, .f32⟩ : BufTy).Contents (Elt F)),
    StableHlo.reshape main_v27 main_v28 rfl shapeCasts_S8x1x128x128_S8x128x128,
    StableHlo.binary main_v26 main_v28 main_v29 ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)),
    StableHlo.unary main_arg4 main_v30 ((extractStridedSlice S8x1x128 ![0, 0, 0] · slices_S8x3x128_S8x1x128_0_0_0) : (⟨S8x3x128, .f32⟩ : BufTy).Contents (Elt F) → (⟨S8x1x128, .f32⟩ : BufTy).Contents (Elt F)),
    StableHlo.reshape main_v30 main_v31 rfl shapeCasts_S8x1x128_S8x128,
    StableHlo.unary main_v31 main_v32 (broadcastInDim S8x1x128 ![0, 2] bcast_S8x128_S8x1x128_0_2 : (⟨S8x128, .f32⟩ : BufTy).Contents (Elt F) → (⟨S8x1x128, .f32⟩ : BufTy).Contents (Elt F)),
    StableHlo.unary main_v32 main_v33 (broadcastInDim S8x65536x128 ![0, 1, 2] bcast_S8x1x128_S8x65536x128_0_1_2 : (⟨S8x1x128, .f32⟩ : BufTy).Contents (Elt F) → (⟨S8x65536x128, .f32⟩ : BufTy).Contents (Elt F)),
    StableHlo.binary main_v29 main_v33 main_v34 (addf : (⟨S8x65536x128, .f32⟩ : BufTy).Contents (Elt F) → (⟨S8x65536x128, .f32⟩ : BufTy).Contents (Elt F) → (⟨S8x65536x128, .f32⟩ : BufTy).Contents (Elt F)),
    StableHlo.nullary main_cst_2 (constant S_ .f32 0x41F00000#32),
    StableHlo.unary main_cst_2 main_v35 (broadcastInDim S8x65536x128 ![] bcast_S_S8x65536x128 : (⟨S_, .f32⟩ : BufTy).Contents (Elt F) → (⟨S8x65536x128, .f32⟩ : BufTy).Contents (Elt F)),
    StableHlo.binary main_v35 main_v34 main_v36 (mulf : (⟨S8x65536x128, .f32⟩ : BufTy).Contents (Elt F) → (⟨S8x65536x128, .f32⟩ : BufTy).Contents (Elt F) → (⟨S8x65536x128, .f32⟩ : BufTy).Contents (Elt F)),
    StableHlo.unary main_v36 main_v37 (Host.sin : (⟨S8x65536x128, .f32⟩ : BufTy).Contents (Elt F) → (⟨S8x65536x128, .f32⟩ : BufTy).Contents (Elt F)),
    StableHlo.unary main_arg3 main_v38 ((extractStridedSlice S8x1x128x128 ![0, 1, 0, 0] · slices_S8x3x128x128_S8x1x128x128_0_1_0_0) : (⟨S8x3x128x128, .f32⟩ : BufTy).Contents (Elt F) → (⟨S8x1x128x128, .f32⟩ : BufTy).Contents (Elt F)),
    StableHlo.reshape main_v38 main_v39 rfl shapeCasts_S8x1x128x128_S8x128x128,
    StableHlo.binary main_v37 main_v39 main_v40 ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)),
    StableHlo.unary main_arg4 main_v41 ((extractStridedSlice S8x1x128 ![0, 1, 0] · slices_S8x3x128_S8x1x128_0_1_0) : (⟨S8x3x128, .f32⟩ : BufTy).Contents (Elt F) → (⟨S8x1x128, .f32⟩ : BufTy).Contents (Elt F)),
    StableHlo.reshape main_v41 main_v42 rfl shapeCasts_S8x1x128_S8x128,
    StableHlo.unary main_v42 main_v43 (broadcastInDim S8x1x128 ![0, 2] bcast_S8x128_S8x1x128_0_2 : (⟨S8x128, .f32⟩ : BufTy).Contents (Elt F) → (⟨S8x1x128, .f32⟩ : BufTy).Contents (Elt F)),
    StableHlo.unary main_v43 main_v44 (broadcastInDim S8x65536x128 ![0, 1, 2] bcast_S8x1x128_S8x65536x128_0_1_2 : (⟨S8x1x128, .f32⟩ : BufTy).Contents (Elt F) → (⟨S8x65536x128, .f32⟩ : BufTy).Contents (Elt F)),
    StableHlo.binary main_v40 main_v44 main_v45 (addf : (⟨S8x65536x128, .f32⟩ : BufTy).Contents (Elt F) → (⟨S8x65536x128, .f32⟩ : BufTy).Contents (Elt F) → (⟨S8x65536x128, .f32⟩ : BufTy).Contents (Elt F)),
    StableHlo.nullary main_cst_3 (constant S_ .f32 0x41F00000#32),
    StableHlo.unary main_cst_3 main_v46 (broadcastInDim S8x65536x128 ![] bcast_S_S8x65536x128 : (⟨S_, .f32⟩ : BufTy).Contents (Elt F) → (⟨S8x65536x128, .f32⟩ : BufTy).Contents (Elt F)),
    StableHlo.binary main_v46 main_v45 main_v47 (mulf : (⟨S8x65536x128, .f32⟩ : BufTy).Contents (Elt F) → (⟨S8x65536x128, .f32⟩ : BufTy).Contents (Elt F) → (⟨S8x65536x128, .f32⟩ : BufTy).Contents (Elt F)),
    StableHlo.unary main_v47 main_v48 (Host.sin : (⟨S8x65536x128, .f32⟩ : BufTy).Contents (Elt F) → (⟨S8x65536x128, .f32⟩ : BufTy).Contents (Elt F)),
    StableHlo.unary main_arg3 main_v49 ((extractStridedSlice S8x1x128x128 ![0, 2, 0, 0] · slices_S8x3x128x128_S8x1x128x128_0_2_0_0) : (⟨S8x3x128x128, .f32⟩ : BufTy).Contents (Elt F) → (⟨S8x1x128x128, .f32⟩ : BufTy).Contents (Elt F)),
    StableHlo.reshape main_v49 main_v50 rfl shapeCasts_S8x1x128x128_S8x128x128,
    StableHlo.binary main_v48 main_v50 main_v51 ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)),
    StableHlo.unary main_arg4 main_v52 ((extractStridedSlice S8x1x128 ![0, 2, 0] · slices_S8x3x128_S8x1x128_0_2_0) : (⟨S8x3x128, .f32⟩ : BufTy).Contents (Elt F) → (⟨S8x1x128, .f32⟩ : BufTy).Contents (Elt F)),
    StableHlo.reshape main_v52 main_v53 rfl shapeCasts_S8x1x128_S8x128,
    StableHlo.unary main_v53 main_v54 (broadcastInDim S8x1x128 ![0, 2] bcast_S8x128_S8x1x128_0_2 : (⟨S8x128, .f32⟩ : BufTy).Contents (Elt F) → (⟨S8x1x128, .f32⟩ : BufTy).Contents (Elt F)),
    StableHlo.unary main_v54 main_v55 (broadcastInDim S8x65536x128 ![0, 1, 2] bcast_S8x1x128_S8x65536x128_0_1_2 : (⟨S8x1x128, .f32⟩ : BufTy).Contents (Elt F) → (⟨S8x65536x128, .f32⟩ : BufTy).Contents (Elt F)),
    StableHlo.binary main_v51 main_v55 main_v56 (addf : (⟨S8x65536x128, .f32⟩ : BufTy).Contents (Elt F) → (⟨S8x65536x128, .f32⟩ : BufTy).Contents (Elt F) → (⟨S8x65536x128, .f32⟩ : BufTy).Contents (Elt F)),
    StableHlo.nullary main_cst_4 (constant S_ .f32 0x41F00000#32),
    StableHlo.unary main_cst_4 main_v57 (broadcastInDim S8x65536x128 ![] bcast_S_S8x65536x128 : (⟨S_, .f32⟩ : BufTy).Contents (Elt F) → (⟨S8x65536x128, .f32⟩ : BufTy).Contents (Elt F)),
    StableHlo.binary main_v57 main_v56 main_v58 (mulf : (⟨S8x65536x128, .f32⟩ : BufTy).Contents (Elt F) → (⟨S8x65536x128, .f32⟩ : BufTy).Contents (Elt F) → (⟨S8x65536x128, .f32⟩ : BufTy).Contents (Elt F)),
    StableHlo.unary main_v58 main_v59 (Host.sin : (⟨S8x65536x128, .f32⟩ : BufTy).Contents (Elt F) → (⟨S8x65536x128, .f32⟩ : BufTy).Contents (Elt F)),
    StableHlo.binary main_v59 main_arg5 main_v60 ((fun l r => Host.dotGeneral dot_S8x65536x128_S8x128x1_S8x65536x1_2_1_1_2_0_0 none l r) : (⟨S8x65536x128, .f32⟩ : BufTy).Contents (Elt F) → (⟨S8x128x1, .f32⟩ : BufTy).Contents (Elt F) → (⟨S8x65536x1, .f32⟩ : BufTy).Contents (Elt F)),
    StableHlo.unary main_arg6 main_v61 (broadcastInDim S8x1x1 ![0, 2] bcast_S8x1_S8x1x1_0_2 : (⟨S8x1, .f32⟩ : BufTy).Contents (Elt F) → (⟨S8x1x1, .f32⟩ : BufTy).Contents (Elt F)),
    StableHlo.unary main_v61 main_v62 (broadcastInDim S8x65536x1 ![0, 1, 2] bcast_S8x1x1_S8x65536x1_0_1_2 : (⟨S8x1x1, .f32⟩ : BufTy).Contents (Elt F) → (⟨S8x65536x1, .f32⟩ : BufTy).Contents (Elt F)),
    StableHlo.binary main_v60 main_v62 main_v63 (addf : (⟨S8x65536x1, .f32⟩ : BufTy).Contents (Elt F) → (⟨S8x65536x1, .f32⟩ : BufTy).Contents (Elt F) → (⟨S8x65536x1, .f32⟩ : BufTy).Contents (Elt F)),
    StableHlo.reshape main_v63 main_v64 rfl shapeCasts_S8x65536x1_S8x65536,
    StableHlo.unary main_arg0 main_v65 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_v65 main_v66 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    StableHlo.unary main_v2 main_v67 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v66 main_v67 main_v68 (cmpf .oge : (⟨S8x65536x3, .f32⟩ : BufTy).Contents (Elt F) → (⟨S8x65536x3, .f32⟩ : BufTy).Contents (Elt F) → (⟨S8x65536x3, .i1⟩ : BufTy).Contents (Elt F)),
    StableHlo.unary main_arg0 main_v69 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_v69 main_v70 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    StableHlo.unary main_v5 main_v71 (broadcastInDim S8x65536x3 ![0, 1, 2] bcast_S8x1x3_S8x65536x3_0_1_2 : (⟨S8x1x3, .f32⟩ : BufTy).Contents (Elt F) → (⟨S8x65536x3, .f32⟩ : BufTy).Contents (Elt F)),
    StableHlo.binary main_v70 main_v71 main_v72 (cmpf .ole : (⟨S8x65536x3, .f32⟩ : BufTy).Contents (Elt F) → (⟨S8x65536x3, .f32⟩ : BufTy).Contents (Elt F) → (⟨S8x65536x3, .i1⟩ : BufTy).Contents (Elt F)),
    StableHlo.binary main_v68 main_v72 main_v73 (andi : (⟨S8x65536x3, .i1⟩ : BufTy).Contents (Elt F) → (⟨S8x65536x3, .i1⟩ : BufTy).Contents (Elt F) → (⟨S8x65536x3, .i1⟩ : BufTy).Contents (Elt F)),
    StableHlo.nullary main_c (constantI S_ 1 1#1),
    StableHlo.binary main_v73 main_c main_v74 ((fun x v => Host.reduce IntOp.andi x v reducesTo_S8x65536x3_S8x65536_d2 h_S_) : (⟨S8x65536x3, .i1⟩ : BufTy).Contents (Elt F) → (⟨S_, .i1⟩ : BufTy).Contents (Elt F) → (⟨S8x65536, .i1⟩ : BufTy).Contents (Elt F)) ]

/-- Operations 83 … 90: the first containing box (the arg-max's five), whether any box contains the point, and the
    index given a leading unit axis. -/
abbrev opsB1 : List (HloOp τ sig (Elt F)) :=
  [ StableHlo.TRef.nullary main_call0.v0 (iotaInDim S8x65536 32 0),
    StableHlo.TRef.nullary main_call0.c (constantI S_ 1 0#1),
    StableHlo.TRef.nullary main_call0.c_0 (constantI S_ 32 0#32),
    StableHlo.TRef.quaternary (.of main_v74 : TRef sig ⟨S8x65536, .i1⟩) main_call0.v0 main_call0.c main_call0.c_0 main_call0.v1_0 (fun x y u v j => (Host.reduce2 reducer_argmax_i1_i32 x y u v reducesTo_S8x65536_S65536_d0 h_S_ j).1),
    StableHlo.TRef.quaternary (.of main_v74 : TRef sig ⟨S8x65536, .i1⟩) main_call0.v0 main_call0.c main_call0.c_0 main_call0.v1_1 (fun x y u v j => (Host.reduce2 reducer_argmax_i1_i32 x y u v reducesTo_S8x65536_S65536_d0 h_S_ j).2),
    StableHlo.nullary main_c_5 (constantI S_ 1 0#1),
    StableHlo.binary main_v74 main_c_5 main_v76 ((fun x v => Host.reduce IntOp.ori x v reducesTo_S8x65536_S65536_d0 h_S_) : (⟨S8x65536, .i1⟩ : BufTy).Contents (Elt F) → (⟨S_, .i1⟩ : BufTy).Contents (Elt F) → (⟨S65536, .i1⟩ : BufTy).Contents (Elt F)),
    StableHlo.unary main_v75 main_v77 (broadcastInDim S1x65536 ![1] bcast_S65536_S1x65536_1 : (⟨S65536, .i32⟩ : BufTy).Contents (Elt F) → (⟨S1x65536, .i32⟩ : BufTy).Contents (Elt F)) ]

/-- Operations 91 … 98: the index along the box axis normalised and given a trailing unit axis. -/
abbrev opsB2a : List (HloOp τ sig (Elt F)) :=
  [ StableHlo.TRef.nullary main_call1.c (constantI S_ 32 0#32),
    StableHlo.TRef.unary main_call1.c main_call1.v0 (broadcastInDim S1x65536 ![] bcast_S_S1x65536),
    StableHlo.TRef.binary (.of main_v77 : TRef sig ⟨S1x65536, .i32⟩) main_call1.v0 main_call1.v1 (cmpi .slt),
    StableHlo.TRef.nullary main_call1.c_0 (constantI S_ 32 8#32),
    StableHlo.TRef.unary main_call1.c_0 main_call1.v2 (broadcastInDim S1x65536 ![] bcast_S_S1x65536),
    StableHlo.TRef.binary (.of main_v77 : TRef sig ⟨S1x65536, .i32⟩) main_call1.v2 main_call1.v3 addi,
    StableHlo.TRef.ternary main_call1.v1 main_call1.v3 (.of main_v77 : TRef sig ⟨S1x65536, .i32⟩) main_call1.v4 select,
    StableHlo.TRef.reshape main_call1.v4 main_call1.v5 rfl shapeCasts_S1x65536_S1x65536x1 ]

/-- Operations 99 … 112: the bounds mask, the gather at the index, the fill value, the select between them. -/
abbrev opsB2b : List (HloOp τ sig (Elt F)) :=
  [ StableHlo.TRef.nullary main_call1.c_1 (constantI S1 32 7#32),
    StableHlo.TRef.nullary main_call1.c_2 (constantI S_ 32 0#32),
    StableHlo.TRef.unary main_call1.c_2 main_call1.v6 (broadcastInDim S1x65536x1 ![] bcast_S_S1x65536x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1x65536x1 ![0, 1, 2] bcast_S1x1x1_S1x65536x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1x65536x1_S1x65536_d2 h_S_),
    StableHlo.TRef.binary (.of main_v64 : TRef sig ⟨S8x65536, .f32⟩) main_call1.v5 main_call1.v13 (fun x i => Host.gather gather_S8x65536_S1x65536x1_S1x65536_n_0_1_1_0_2_11 x i),
    StableHlo.TRef.nullary main_call1.cst (constant S_ .f32 0x7FC00000#32),
    StableHlo.TRef.unary main_call1.cst main_call1.v14 (broadcastInDim S1x65536 ![] bcast_S_S1x65536),
    StableHlo.TRef.ternary main_call1.v12 main_call1.v13 main_call1.v14 main_call1.v15 select ]

/-- Operations 113 … 117: the leading unit axis dropped, the zero, the final selection. -/
abbrev opsB3 : List (HloOp τ sig (Elt F)) :=
  [ StableHlo.reshape main_v78 main_v79 rfl shapeCasts_S1x65536_S65536,
    StableHlo.nullary main_cst_6 (constant S_ .f32 0x00000000#32),
    StableHlo.TRef.unary (.of main_cst_6 : TRef sig ⟨S_, .f32⟩) main_call2.v0 id,
    StableHlo.TRef.unary main_call2.v0 main_call2.v1 (broadcastInDim S65536 ![] bcast_S_S65536),
    StableHlo.TRef.ternary (.of main_v76 : TRef sig ⟨S65536, .i1⟩) (.of main_v79 : TRef sig ⟨S65536, .f32⟩) main_call2.v1 main_call2.v2 select ]

/-- Operations 83 … 117. -/
abbrev opsTail : List (HloOp τ sig (Elt F)) := opsB1 ++ (opsB2a ++ (opsB2b ++ opsB3))

/-- The line is its stretches in order. -/
theorem ops_split : (ops : List (HloOp τ sig (Elt F))) = opsHead ++ opsTail := rfl

/-- Running two lines one after the other folds the second over the first's result. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Cert.RefRun

end
-- ==== Proof.RefTerm.lean ====
/-
  The reference program as ONE pure function of its nine argument arrays, spelt piece by piece:
  the boxes' corners as rows, the points broadcast over the boxes, the normalised coordinates,
  a layer (batched product over the contracted axis, bias, `sin (30 ·)`), the value of every network
  at every point, the box test, the first containing box (an arg-max of the boolean test over the
  box axis), whether any box contains the point, the value taken along the box axis at that index,
  and the final selection against zero.  Each definition applies the program's own host operations
  in the program's order, so the fold of the operation list is this term by unfolding.
-/
import proofs.«169230_j5729486373507_2_alg».proof.Proof.Gen.ReferenceIdeal

noncomputable section

namespace Cert.RefTerm

open Cert.ReferenceIdeal Idealize.ShloMosaic
open Cert.ReferenceIdeal.Facts₀ Cert.ReferenceIdeal.Facts

variable {F : FTy → Type} [FloatOps F]

/-- Column `c` of the boxes (given as its slice) as one row per box, shape [8,1,3]. -/
def corner (off : Fin 3 → Nat) (hs : S8x3x2.Slices off S8x3x1) (B : FVec F S8x3x2 .f32) : FVec F S8x1x3 .f32 :=
  broadcastInDim S8x1x3 ![0, 2] bcast_S8x3_S8x1x3_0_2
    (shapeCast S8x3 (extractStridedSlice S8x3x1 off B hs) shapeCasts_S8x3x1_S8x3)

/-- The lower corners. -/
def lo (B : FVec F S8x3x2 .f32) : FVec F S8x1x3 .f32 := corner ![0, 0, 0] slices_S8x3x2_S8x3x1_0_0_0 B
/-- The upper corners. -/
def hi (B : FVec F S8x3x2 .f32) : FVec F S8x1x3 .f32 := corner ![0, 0, 1] slices_S8x3x2_S8x3x1_0_0_1 B

/-- The points, one copy per box: [65536,3] → [8,65536,3]. -/
def xb (X : FVec F S65536x3 .f32) : FVec F S8x65536x3 .f32 :=
  broadcastInDim S8x65536x3 ![0, 1, 2] bcast_S1x65536x3_S8x65536x3_0_1_2
    (broadcastInDim S1x65536x3 ![1, 2] bcast_S65536x3_S1x65536x3_1_2 X)

/-- A per-box row along the points: [8,1,3] → [8,65536,3]. -/
def rowb (v : FVec F S8x1x3 .f32) : FVec F S8x65536x3 .f32 :=
  broadcastInDim S8x65536x3 ![0, 1, 2] bcast_S8x1x3_S8x65536x3_0_1_2 v

/-- A scalar pattern over [8,65536,3]. -/
def splat3 (b : BitVec 32) : FVec F S8x65536x3 .f32 :=
  broadcastInDim S8x65536x3 ![] bcast_S_S8x65536x3 (constant S_ .f32 b)

/-- The normalised coordinates `(2 (x − lo) / (hi − lo) − 1) · scale`. -/
def xn (X : FVec F S65536x3 .f32) (B : FVec F S8x3x2 .f32) (Sc : FVec F S8x3 .f32) : FVec F S8x65536x3 .f32 :=
  mulf (subf (Host.divf (mulf (splat3 0x40000000#32) (subf (xb X) (rowb (lo B)))) (rowb (subf (hi B) (lo B))))
      (splat3 0x3F800000#32))
    (rowb (broadcastInDim S8x1x3 ![0, 2] bcast_S8x3_S8x1x3_0_2 Sc))

/-- A per-box bias along the points: [8,128] → [8,65536,128]. -/
def biasb (b : FVec F S8x128 .f32) : FVec F S8x65536x128 .f32 :=
  broadcastInDim S8x65536x128 ![0, 1, 2] bcast_S8x1x128_S8x65536x128_0_1_2
    (broadcastInDim S8x1x128 ![0, 2] bcast_S8x128_S8x1x128_0_2 b)

/-- The activation `sin (30 ·)`. -/
def act (z : FVec F S8x65536x128 .f32) : FVec F S8x65536x128 .f32 :=
  Host.sin (mulf (broadcastInDim S8x65536x128 ![] bcast_S_S8x65536x128 (constant S_ .f32 0x41F00000#32)) z)

/-- The input layer. -/
def h0 (u : FVec F S8x65536x3 .f32) (Win : FVec F S8x3x128 .f32) (bin : FVec F S8x128 .f32) : FVec F S8x65536x128 .f32 :=
  act (addf (Host.dotGeneral dot_S8x65536x3_S8x3x128_S8x65536x128_2_1_1_2_0_0 none u Win) (biasb bin))

/-- Hidden layer `l`'s weights and bias, cut out of the stacked arrays (given as their slices). -/
def whl (off : Fin 4 → Nat) (hs : S8x3x128x128.Slices off S8x1x128x128) (Wh : FVec F S8x3x128x128 .f32) : FVec F S8x128x128 .f32 :=
  shapeCast S8x128x128 (extractStridedSlice S8x1x128x128 off Wh hs) shapeCasts_S8x1x128x128_S8x128x128
def bhl (off : Fin 3 → Nat) (hs : S8x3x128.Slices off S8x1x128) (bh : FVec F S8x3x128 .f32) : FVec F S8x128 .f32 :=
  shapeCast S8x128 (extractStridedSlice S8x1x128 off bh hs) shapeCasts_S8x1x128_S8x128

/-- A hidden layer. -/
def hid (h : FVec F S8x65536x128 .f32) (W : FVec F S8x128x128 .f32) (b : FVec F S8x128 .f32) : FVec F S8x65536x128 .f32 :=
  act (addf (Host.dotGeneral dot_S8x65536x128_S8x128x128_S8x65536x128_2_1_1_2_0_0 none h W) (biasb b))

/-- The three hidden layers on top of the input layer. -/
def h3 (u : FVec F S8x65536x3 .f32) (Win : FVec F S8x3x128 .f32) (bin : FVec F S8x128 .f32)
    (Wh : FVec F S8x3x128x128 .f32) (bh : FVec F S8x3x128 .f32) : FVec F S8x65536x128 .f32 :=
  hid (hid (hid (h0 u Win bin)
        (whl ![0, 0, 0, 0] slices_S8x3x128x128_S8x1x128x128_0_0_0_0 Wh) (bhl ![0, 0, 0] slices_S8x3x128_S8x1x128_0_0_0 bh))
      (whl ![0, 1, 0, 0] slices_S8x3x128x128_S8x1x128x128_0_1_0_0 Wh) (bhl ![0, 1, 0] slices_S8x3x128_S8x1x128_0_1_0 bh))
    (whl ![0, 2, 0, 0] slices_S8x3x128x128_S8x1x128x128_0_2_0_0 Wh) (bhl ![0, 2, 0] slices_S8x3x128_S8x1x128_0_2_0 bh)

/-- The value of every network at every point: [8,65536]. -/
def vis (h : FVec F S8x65536x128 .f32) (Wout : FVec F S8x128x1 .f32) (bout : FVec F S8x1 .f32) : FVec F S8x65536 .f32 :=
  shapeCast S8x65536
    (addf (Host.dotGeneral dot_S8x65536x128_S8x128x1_S8x65536x1_2_1_1_2_0_0 none h Wout)
      (broadcastInDim S8x65536x1 ![0, 1, 2] bcast_S8x1x1_S8x65536x1_0_1_2
        (broadcastInDim S8x1x1 ![0, 2] bcast_S8x1_S8x1x1_0_2 bout)))
    shapeCasts_S8x65536x1_S8x65536

/-- The box test: all three axes inside. -/
def mask (X : FVec F S65536x3 .f32) (B : FVec F S8x3x2 .f32) : IVec S8x65536 1 :=
  Host.reduce IntOp.andi (andi (cmpf .oge (xb X) (rowb (lo B))) (cmpf .ole (xb X) (rowb (hi B))))
    (constantI S_ 1 1#1) reducesTo_S8x65536x3_S8x65536_d2 h_S_

/-- The index of the first containing box (the arg-max of the test over the box axis). -/
def rid (mk : IVec S8x65536 1) : IVec S65536 32 := fun j =>
  (Host.reduce2 reducer_argmax_i1_i32 mk (iotaInDim S8x65536 32 0) (constantI S_ 1 0#1) (constantI S_ 32 0#32)
    reducesTo_S8x65536_S65536_d0 h_S_ j).2

/-- Whether some box contains the point. -/
def valid (mk : IVec S8x65536 1) : IVec S65536 1 :=
  Host.reduce IntOp.ori mk (constantI S_ 1 0#1) reducesTo_S8x65536_S65536_d0 h_S_

/-- The index along the box axis, normalised (a negative index counts from the end) and given a trailing unit axis. -/
def takeIdx (ridx : IVec S1x65536 32) : IVec S1x65536x1 32 :=
  shapeCast S1x65536x1
    (select (cmpi .slt ridx (broadcastInDim S1x65536 ![] bcast_S_S1x65536 (constantI S_ 32 0#32)))
      (addi ridx (broadcastInDim S1x65536 ![] bcast_S_S1x65536 (constantI S_ 32 8#32))) ridx)
    shapeCasts_S1x65536_S1x65536x1

/-- The values taken along the box axis: the gather at the normalised index, and the fill where the index is out of range. -/
def take (v : FVec F S8x65536 .f32) (ridx : IVec S1x65536 32) : FVec F S1x65536 .f32 :=
  select
    (Host.reduce IntOp.andi
      (andi (cmpi .sge (takeIdx ridx) (broadcastInDim S1x65536x1 ![] bcast_S_S1x65536x1 (constantI S_ 32 0#32)))
        (cmpi .sle (takeIdx ridx)
          (broadcastInDim S1x65536x1 ![0, 1, 2] bcast_S1x1x1_S1x65536x1_0_1_2
            (broadcastInDim S1x1x1 ![2] bcast_S1_S1x1x1_2 (constantI S1 32 7#32)))))
      (constantI S_ 1 1#1) reducesTo_S1x65536x1_S1x65536_d2 h_S_)
    (Host.gather gather_S8x65536_S1x65536x1_S1x65536_n_0_1_1_0_2_11 v (takeIdx ridx))
    (broadcastInDim S1x65536 ![] bcast_S_S1x65536 (constant S_ .f32 0x7FC00000#32))

/-- The reference's result. -/
def out (a0 : FVec F S65536x3 .f32) (a1 : FVec F S8x3x128 .f32) (a2 : FVec F S8x128 .f32) (a3 : FVec F S8x3x128x128 .f32)
    (a4 : FVec F S8x3x128 .f32) (a5 : FVec F S8x128x1 .f32) (a6 : FVec F S8x1 .f32) (a7 : FVec F S8x3 .f32)
    (a8 : FVec F S8x3x2 .f32) : FVec F S65536 .f32 :=
  select (valid (mask a0 a8))
    (shapeCast S65536
      (take (vis (h3 (xn a0 a8 a7) a1 a2 a3 a4) a5 a6)
        (broadcastInDim S1x65536 ![1] bcast_S65536_S1x65536_1 (rid (mask a0 a8))))
      shapeCasts_S1x65536_S65536)
    (broadcastInDim S65536 ![] bcast_S_S65536 (id (constant S_ .f32 0x00000000#32)))

end Cert.RefTerm

end
-- ==== Proof.RefRunHead.lean ====
/-
  The first stretch of the reference's line (operations 1 … 82), from any contents: what it leaves in
  the two buffers the rest of the line reads.
-/
import proofs.«169230_j5729486373507_2_alg».proof.Proof.RefRunOps
import proofs.«169230_j5729486373507_2_alg».proof.Proof.RefTerm

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduce2 Host.gather in
set_option maxRecDepth 8192 in
set_option maxHeartbeats 4000000 in
/-- The line up to the box test leaves the test in its buffer. -/
theorem head_mask (V : Valuation τ sig (Elt F)) :
    after opsHead V (main_v74 : DevRef τ sig) = Cert.RefTerm.mask (V (main_arg0 : DevRef τ sig)) (V (main_arg8 : DevRef τ sig)) := by
  after_results_simp
  rfl

attribute [local irreducible] Host.reduce Host.reduce2 Host.gather in
set_option maxRecDepth 8192 in
set_option maxHeartbeats 4000000 in
/-- The line up to the box test leaves every network's value at every point in its buffer. -/
theorem head_vis (V : Valuation τ sig (Elt F)) :
    after opsHead V (main_v64 : DevRef τ sig)
      = Cert.RefTerm.vis (Cert.RefTerm.h3 (Cert.RefTerm.xn (V (main_arg0 : DevRef τ sig)) (V (main_arg8 : DevRef τ sig)) (V (main_arg7 : DevRef τ sig)))
            (V (main_arg1 : DevRef τ sig)) (V (main_arg2 : DevRef τ sig)) (V (main_arg3 : DevRef τ sig)) (V (main_arg4 : DevRef τ sig)))
          (V (main_arg5 : DevRef τ sig)) (V (main_arg6 : DevRef τ sig)) := by
  after_results_simp
  rfl

end Cert.RefRun

end
-- ==== Proof.RefRunTail.lean ====
/-
  The rest of the reference's line (operations 83 … 117), stretch by stretch and from any contents: the
  first containing box and whether there is one, the normalised index, the gather at it, the final
  selection; then the four stretches composed.
-/
import proofs.«169230_j5729486373507_2_alg».proof.Proof.RefRunOps
import proofs.«169230_j5729486373507_2_alg».proof.Proof.RefTerm

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The value taken along the box axis at an index already normalised: the gather where the index is in
    range, the fill elsewhere. -/
def takeAt (v : FVec F S8x65536 .f32) (ti : IVec S1x65536x1 32) : FVec F S1x65536 .f32 :=
  select
    (Host.reduce IntOp.andi
      (andi (cmpi .sge ti (broadcastInDim S1x65536x1 ![] bcast_S_S1x65536x1 (constantI S_ 32 0#32)))
        (cmpi .sle ti
          (broadcastInDim S1x65536x1 ![0, 1, 2] bcast_S1x1x1_S1x65536x1_0_1_2
            (broadcastInDim S1x1x1 ![2] bcast_S1_S1x1x1_2 (constantI S1 32 7#32)))))
      (constantI S_ 1 1#1) reducesTo_S1x65536x1_S1x65536_d2 h_S_)
    (Host.gather gather_S8x65536_S1x65536x1_S1x65536_n_0_1_1_0_2_11 v ti)
    (broadcastInDim S1x65536 ![] bcast_S_S1x65536 (constant S_ .f32 0x7FC00000#32))

/-- The final selection: the taken value where some box contains the point, zero elsewhere. -/
def fin (vd : IVec S65536 1) (tk : FVec F S1x65536 .f32) : FVec F S65536 .f32 :=
  select vd (shapeCast S65536 tk shapeCasts_S1x65536_S65536)
    (broadcastInDim S65536 ![] bcast_S_S65536 (id (constant S_ .f32 0x00000000#32)))

attribute [local irreducible] Host.reduce Host.reduce2 Host.gather in
set_option maxRecDepth 8192 in
set_option maxHeartbeats 4000000 in
/-- Whether some box contains the point, from the test. -/
theorem b1_valid (W : Valuation τ sig (Elt F)) :
    after opsB1 W (main_v76 : DevRef τ sig) = Cert.RefTerm.valid (W (main_v74 : DevRef τ sig)) := by
  after_results_simp
  rfl

attribute [local irreducible] Host.reduce Host.reduce2 Host.gather in
set_option maxRecDepth 8192 in
set_option maxHeartbeats 4000000 in
/-- The index of the first containing box, with a leading unit axis, from the test. -/
theorem b1_ridx (W : Valuation τ sig (Elt F)) :
    after opsB1 W (main_v77 : DevRef τ sig)
      = broadcastInDim S1x65536 ![1] bcast_S65536_S1x65536_1 (Cert.RefTerm.rid (W (main_v74 : DevRef τ sig))) := by
  after_results_simp
  rfl

set_option maxRecDepth 8192 in
/-- The stretch does not write the networks' values. -/
theorem b1_v64 (W : Valuation τ sig (Elt F)) :
    after opsB1 W (main_v64 : DevRef τ sig) = W (main_v64 : DevRef τ sig) := by
  after_results_simp

attribute [local irreducible] Host.reduce Host.reduce2 Host.gather in
set_option maxRecDepth 8192 in
set_option maxHeartbeats 4000000 in
/-- The normalised index, from the index. -/
theorem b2a_idx (W : Valuation τ sig (Elt F)) :
    after opsB2a W (main_call1_v5 : DevRef τ sig) = Cert.RefTerm.takeIdx (W (main_v77 : DevRef τ sig)) := by
  after_results_simp
  rfl

set_option maxRecDepth 8192 in
/-- The stretch does not write the networks' values. -/
theorem b2a_v64 (W : Valuation τ sig (Elt F)) :
    after opsB2a W (main_v64 : DevRef τ sig) = W (main_v64 : DevRef τ sig) := by
  after_results_simp

set_option maxRecDepth 8192 in
/-- The stretch does not write the any-box flag. -/
theorem b2a_v76 (W : Valuation τ sig (Elt F)) :
    after opsB2a W (main_v76 : DevRef τ sig) = W (main_v76 : DevRef τ sig) := by
  after_results_simp

attribute [local irreducible] Host.reduce Host.reduce2 Host.gather in
set_option maxRecDepth 8192 in
set_option maxHeartbeats 4000000 in
/-- The value taken at the normalised index, from the values and the index. -/
theorem b2b_take (W : Valuation τ sig (Elt F)) :
    after opsB2b W (main_v78 : DevRef τ sig) = takeAt (W (main_v64 : DevRef τ sig)) (W (main_call1_v5 : DevRef τ sig)) := by
  after_results_simp
  rfl

set_option maxRecDepth 8192 in
/-- The stretch does not write the any-box flag. -/
theorem b2b_v76 (W : Valuation τ sig (Elt F)) :
    after opsB2b W (main_v76 : DevRef τ sig) = W (main_v76 : DevRef τ sig) := by
  after_results_simp

attribute [local irreducible] Host.reduce Host.reduce2 Host.gather in
set_option maxRecDepth 8192 in
set_option maxHeartbeats 4000000 in
/-- The result, from the any-box flag and the taken value. -/
theorem b3_out (W : Valuation τ sig (Elt F)) :
    after opsB3 W (main_v80 : DevRef τ sig) = fin (W (main_v76 : DevRef τ sig)) (W (main_v78 : DevRef τ sig)) := by
  after_results_simp
  rfl

attribute [local irreducible] Host.reduce Host.reduce2 Host.gather in
/-- Operations 83 … 117 from any contents: the result buffer holds the final selection between the value taken
    at the first containing box and zero, as a term of the box test and the networks' values. -/
theorem tail_eq (W : Valuation τ sig (Elt F)) :
    after opsTail W (main_v80 : DevRef τ sig)
      = fin (Cert.RefTerm.valid (W (main_v74 : DevRef τ sig)))
          (Cert.RefTerm.take (W (main_v64 : DevRef τ sig))
            (broadcastInDim S1x65536 ![1] bcast_S65536_S1x65536_1 (Cert.RefTerm.rid (W (main_v74 : DevRef τ sig))))) := by
  rw [after_app, after_app, after_app, b3_out, b2b_v76, b2b_take, b2a_v76, b2a_v64, b2a_idx, b1_valid, b1_v64, b1_ridx]
  rfl

end Cert.RefRun

end
-- ==== Proof.RefRunArgs.lean ====
/-
  No operation of the reference's line writes an argument buffer: each holds at the end what it held at launch.
-/
import proofs.«169230_j5729486373507_2_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- No operation of the line writes argument 0. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation of the line writes argument 1. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation of the line writes argument 2. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation of the line writes argument 3. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation of the line writes argument 4. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation of the line writes argument 5. -/
theorem arg5_eq (V : Valuation τ sig (Elt F)) :
    after ops V (main_arg5 : DevRef τ sig) = V (main_arg5 : DevRef τ sig) := by
  after_results_simp

set_option maxRecDepth 8192 in
set_option maxHeartbeats 4000000 in
/-- No operation of the line writes argument 6. -/
theorem arg6_eq (V : Valuation τ sig (Elt F)) :
    after ops V (main_arg6 : DevRef τ sig) = V (main_arg6 : DevRef τ sig) := by
  after_results_simp

set_option maxRecDepth 8192 in
set_option maxHeartbeats 4000000 in
/-- No operation of the line writes argument 7. -/
theorem arg7_eq (V : Valuation τ sig (Elt F)) :
    after ops V (main_arg7 : DevRef τ sig) = V (main_arg7 : DevRef τ sig) := by
  after_results_simp

set_option maxRecDepth 8192 in
set_option maxHeartbeats 4000000 in
/-- No operation of the line writes argument 8. -/
theorem arg8_eq (V : Valuation τ sig (Elt F)) :
    after ops V (main_arg8 : DevRef τ sig) = V (main_arg8 : DevRef τ sig) := by
  after_results_simp

end Cert.RefRun

end
-- ==== Proof.RefRun.lean ====
/-
  The reference's run read back: every weakly fair execution of @main terminates with the result buffer at
  the reference's term of the nine arguments' launch contents, and the arguments unchanged.
-/
import proofs.«169230_j5729486373507_2_alg».proof.Proof.RefRunHead
import proofs.«169230_j5729486373507_2_alg».proof.Proof.RefRunTail
import proofs.«169230_j5729486373507_2_alg».proof.Proof.RefRunArgs

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduce2 Host.gather in
/-- The whole line from any contents: the result buffer holds the reference's term of the nine arguments. -/
theorem out_eq (V : Valuation τ sig (Elt F)) :
    after ops V (main_v80 : DevRef τ sig) = Cert.RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [ops_split, after_app, tail_eq, head_mask, head_vis]
  rfl

set_option maxRecDepth 8192 in
set_option maxHeartbeats 4000000 in
/-- On every device, for any float values, from any memory with zero counters: every weakly fair execution of
    @main terminates with the result at the reference's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80)
        = Cert.RefTerm.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v80).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.RefRun

end
-- ==== Proof.RefReadOps.lean ====
/-
  Host operations of the reference read at an index, over the program's literal shapes:
  the three batched products as sums over the contracted coordinate, the reductions by "and" over the
  last axis and by "or" over the box axis as a universal and an existential statement, the two-operand
  arg-max reduction over the box axis as the first index whose bit is set, and the gather along the
  box axis as a read of the operand at the (clamped) index.
-/
import proofs.«169230_j5729486373507_2_alg».proof.Proof.Gen.ReferenceIdeal
import Idealize.ShloMosaic.Lib.StackMember
import Idealize.ShloMosaic.Lib.ReduceAll
import Idealize.ShloMosaic.Lib.Pipeline.Value
import Idealize.ShloMosaic.Lib.IdealHost

noncomputable section

open scoped BigOperators
open Idealize.ShloMosaic Idealize.ShloMosaic.ValueIdx Idealize.ShloMosaic.StackMember
open Cert.ReferenceIdeal

namespace Cert.RefRead

/-! ## The batched products -/

theorem dot0_apply (A : FVec Ideal S8x65536x3 .f32) (B : FVec Ideal S8x3x128 .f32) (r : Fin 8) (n : Fin 65536) (k : Fin 128) :
    Host.dotGeneral dot_S8x65536x3_S8x3x128_S8x65536x128_2_1_1_2_0_0 none A B (ix3 r n k)
      = ∑ c : Fin 3, A (ix3 r n c) * B (ix3 r c k) :=
  dotGeneral_stack_apply _ none A B r n k

theorem dot1_apply (A : FVec Ideal S8x65536x128 .f32) (B : FVec Ideal S8x128x128 .f32) (r : Fin 8) (n : Fin 65536) (k : Fin 128) :
    Host.dotGeneral dot_S8x65536x128_S8x128x128_S8x65536x128_2_1_1_2_0_0 none A B (ix3 r n k)
      = ∑ c : Fin 128, A (ix3 r n c) * B (ix3 r c k) :=
  dotGeneral_stack_apply _ none A B r n k

theorem dot2_apply (A : FVec Ideal S8x65536x128 .f32) (B : FVec Ideal S8x128x1 .f32) (r : Fin 8) (n : Fin 65536) (k : Fin 1) :
    Host.dotGeneral dot_S8x65536x128_S8x128x1_S8x65536x1_2_1_1_2_0_0 none A B (ix3 r n k)
      = ∑ c : Fin 128, A (ix3 r n c) * B (ix3 r c k) :=
  dotGeneral_stack_apply _ none A B r n k

/-! ## Folds of one-bit words by "and" and by "or" -/

theorem fold_andi_eq_one {ι : Type} (S : Finset ι) (x : ι → BitVec 1) (init : BitVec 1) :
    S.fold IntOp.andi init x = 1#1 ↔ init = 1#1 ∧ ∀ i ∈ S, x i = 1#1 := by
  induction S using Finset.cons_induction with
  | empty => simp
  | cons a S ha ih =>
    rw [Finset.fold_cons, IntOp.andi_eq_one, ih]
    simp only [Finset.mem_cons, forall_eq_or_imp]
    tauto

theorem fold_ori_eq_one {ι : Type} (S : Finset ι) (x : ι → BitVec 1) (init : BitVec 1) :
    S.fold IntOp.ori init x = 1#1 ↔ init = 1#1 ∨ ∃ i ∈ S, x i = 1#1 := by
  induction S using Finset.cons_induction with
  | empty => simp
  | cons a S ha ih =>
    rw [Finset.fold_cons, IntOp.ori_eq_one, ih]
    simp only [Finset.mem_cons, exists_eq_or_imp]
    tauto

/-! ## Which indices reduce into which -/

theorem drop_d2 (h : S8x65536x3.ReducesTo [2] S8x65536) (a : Fin 8) (b : Fin 65536) (c : Fin 3) :
    h.drop (ix3 a b c) = ix2 a b := by
  funext e; match e with | ⟨0, _⟩ => rfl | ⟨1, _⟩ => rfl

theorem drop_d0 (h : S8x65536.ReducesTo [0] S65536) (a : Fin 8) (b : Fin 65536) :
    h.drop (ix2 a b) = ix1 b := by
  funext e; match e with | ⟨0, _⟩ => rfl

theorem drop_u2 (h : S1x65536x1.ReducesTo [2] S1x65536) (a : Fin 1) (b : Fin 65536) (c : Fin 1) :
    h.drop (ix3 a b c) = ix2 a b := by
  funext e; match e with | ⟨0, _⟩ => rfl | ⟨1, _⟩ => rfl

/-! ## The reductions by "and" and by "or" -/

/-- "All" over the last axis of an [8,65536,3] array of bits, from the bit 1. -/
theorem reduce_andi_last (x : IVec S8x65536x3 1) (init : IVec S_ 1) (hinit : init ix0 = 1#1)
    (h : S8x65536x3.ReducesTo [2] S8x65536) (hu : 0 < S_.numel) (r : Fin 8) (n : Fin 65536) :
    Host.reduce IntOp.andi x init h hu (ix2 r n) = 1#1 ↔ ∀ d : Fin 3, x (ix3 r n d) = 1#1 := by
  rw [Host.reduce_eq_fold, fold_andi_eq_one]
  have h0 : init (Shape.Idx.first hu) = 1#1 := by rw [eq_ix0 (Shape.Idx.first hu)]; exact hinit
  constructor
  · rintro ⟨_, hall⟩ d
    exact hall _ (Finset.mem_filter.2 ⟨Finset.mem_univ _, drop_d2 h r n d⟩)
  · intro hall
    refine ⟨h0, fun i hi => ?_⟩
    obtain ⟨a, b, c, rfl⟩ : ∃ a b c, i = ix3 a b c := ⟨_, _, _, eq_ix3 i⟩
    rw [Finset.mem_filter, drop_d2] at hi
    have e0 : a = r := congrFun hi.2 ⟨0, Nat.zero_lt_two⟩
    have e1 : b = n := congrFun hi.2 ⟨1, Nat.one_lt_two⟩
    subst e0 e1; exact hall _

/-- "All" over the unit last axis of a [1,65536,1] array of bits, from the bit 1. -/
theorem reduce_andi_unit (x : IVec S1x65536x1 1) (init : IVec S_ 1) (hinit : init ix0 = 1#1)
    (h : S1x65536x1.ReducesTo [2] S1x65536) (hu : 0 < S_.numel) (n : Fin 65536) :
    Host.reduce IntOp.andi x init h hu (ix2 0 n) = 1#1 ↔ x (ix3 0 n 0) = 1#1 := by
  rw [Host.reduce_eq_fold, fold_andi_eq_one]
  have h0 : init (Shape.Idx.first hu) = 1#1 := by rw [eq_ix0 (Shape.Idx.first hu)]; exact hinit
  constructor
  · rintro ⟨_, hall⟩
    exact hall _ (Finset.mem_filter.2 ⟨Finset.mem_univ _, drop_u2 h 0 n 0⟩)
  · intro hall
    refine ⟨h0, fun i hi => ?_⟩
    obtain ⟨a, b, c, rfl⟩ : ∃ a b c, i = ix3 a b c := ⟨_, _, _, eq_ix3 i⟩
    rw [Finset.mem_filter, drop_u2] at hi
    have e1 : b = n := congrFun hi.2 ⟨1, Nat.one_lt_two⟩
    obtain rfl : a = 0 := Subsingleton.elim _ _
    obtain rfl : c = 0 := Subsingleton.elim _ _
    subst e1; exact hall

/-- "Any" over the box axis of an [8,65536] array of bits, from the bit 0. -/
theorem reduce_ori_first (x : IVec S8x65536 1) (init : IVec S_ 1) (hinit : init ix0 = 0#1)
    (h : S8x65536.ReducesTo [0] S65536) (hu : 0 < S_.numel) (n : Fin 65536) :
    Host.reduce IntOp.ori x init h hu (ix1 n) = 1#1 ↔ ∃ r : Fin 8, x (ix2 r n) = 1#1 := by
  rw [Host.reduce_eq_fold, fold_ori_eq_one]
  have h0 : ¬ init (Shape.Idx.first hu) = 1#1 := by rw [eq_ix0 (Shape.Idx.first hu), hinit]; decide
  constructor
  · rintro (hi1 | ⟨i, hi, hx⟩)
    · exact absurd hi1 h0
    · obtain ⟨a, b, rfl⟩ : ∃ a b, i = ix2 a b := ⟨_, _, eq_ix2 i⟩
      rw [Finset.mem_filter, drop_d0] at hi
      have e1 : b = n := congrFun hi.2 ⟨0, Nat.zero_lt_one⟩
      subst e1; exact ⟨a, hx⟩
  · rintro ⟨r, hx⟩
    exact Or.inr ⟨_, Finset.mem_filter.2 ⟨Finset.mem_univ _, drop_d0 h r n⟩, hx⟩

/-! ## The arg-max over the box axis -/

/-- The row-major positions of column `n` of an [8,65536] array, in order: one per box. -/
theorem filter_col (h : S8x65536.ReducesTo [0] S65536) (n : Fin 65536) :
    ((List.finRange S8x65536.numel).filter fun m => h.drop (S8x65536.rowMajor.symm m) = ix1 n)
      = (List.finRange 8).map fun r => S8x65536.rowMajor (ix2 r n) := by
  have p1 : ((List.finRange S8x65536.numel).filter fun m =>
      h.drop (S8x65536.rowMajor.symm m) = ix1 n).Pairwise (· < ·) :=
    (List.pairwise_lt_finRange _).filter _
  have p2 : ((List.finRange 8).map fun r => S8x65536.rowMajor (ix2 r n)).Pairwise (· < ·) := by
    rw [List.pairwise_map]
    refine (List.pairwise_lt_finRange 8).imp fun {a b} hab => ?_
    show (S8x65536.rowMajor (ix2 a n)).val < (S8x65536.rowMajor (ix2 b n)).val
    rw [Shape.rowMajor_val_two, Shape.rowMajor_val_two]
    show a.val * 65536 + n.val < b.val * 65536 + n.val
    have : a.val < b.val := hab
    omega
  refine List.Perm.eq_of_pairwise (le := (· < ·)) (fun a b _ _ h1 h2 => absurd h1 (lt_asymm h2)) p1 p2 ?_
  refine (List.perm_ext_iff_of_nodup (p1.imp ne_of_lt) (p2.imp ne_of_lt)).2 fun m => ?_
  simp only [List.mem_filter, List.mem_finRange, true_and, decide_eq_true_eq, List.mem_map]
  constructor
  · intro hm
    obtain ⟨a, b, hab⟩ : ∃ a b, S8x65536.rowMajor.symm m = ix2 a b := ⟨_, _, eq_ix2 _⟩
    rw [hab, drop_d0] at hm
    have e1 : b = n := congrFun hm ⟨0, Nat.zero_lt_one⟩
    subst e1
    exact ⟨a, by rw [← hab, Equiv.apply_symm_apply]⟩
  · rintro ⟨r, rfl⟩
    rw [Equiv.symm_apply_apply, drop_d0]

/-- One step of the arg-max: the state and the next (bit, box number). -/
abbrev amxStep (m : Fin 8 → BitVec 1) (acc : BitVec 1 × BitVec 32) (r : Fin 8) : BitVec 1 × BitVec 32 :=
  reducer_argmax_i1_i32 acc (m r, BitVec.ofNat 32 r.val)

theorem amx_00 (k : Fin 8) :
    reducer_argmax_i1_i32 (0#1, 0#32) (0#1, BitVec.ofNat 32 k.val) = (0#1, 0#32) := by
  revert k; decide

theorem amx_01 (k : Fin 8) :
    reducer_argmax_i1_i32 (0#1, 0#32) (1#1, BitVec.ofNat 32 k.val) = (1#1, BitVec.ofNat 32 k.val) := by
  revert k; decide

theorem amx_1 (i k : Fin 8) (hik : i < k) (b : BitVec 1) :
    reducer_argmax_i1_i32 (1#1, BitVec.ofNat 32 i.val) (b, BitVec.ofNat 32 k.val) = (1#1, BitVec.ofNat 32 i.val) := by
  revert i k b; decide

/-- Once a set bit has been met at box `i`, later boxes leave the state alone. -/
theorem amx_fold_stay (m : Fin 8 → BitVec 1) (i : Fin 8) :
    ∀ l : List (Fin 8), (∀ k ∈ l, i < k) → l.foldl (amxStep m) (1#1, BitVec.ofNat 32 i.val) = (1#1, BitVec.ofNat 32 i.val)
  | [], _ => rfl
  | a :: l, hl => by
    rw [List.foldl_cons]
    show l.foldl (amxStep m) (reducer_argmax_i1_i32 (1#1, BitVec.ofNat 32 i.val) (m a, BitVec.ofNat 32 a.val)) = _
    rw [amx_1 i a (hl a List.mem_cons_self)]
    exact amx_fold_stay m i l fun k hk => hl k (List.mem_cons_of_mem _ hk)

/-- Over an increasing list of boxes the arg-max ends at the first box whose bit is set. -/
theorem amx_fold_first (m : Fin 8 → BitVec 1) (r0 : Fin 8) (h1 : m r0 = 1#1) :
    ∀ l : List (Fin 8), l.Pairwise (· < ·) → r0 ∈ l → (∀ k ∈ l, k < r0 → m k = 0#1) →
      l.foldl (amxStep m) (0#1, 0#32) = (1#1, BitVec.ofNat 32 r0.val)
  | [], _, hmem, _ => absurd hmem List.not_mem_nil
  | a :: l, hp, hmem, h0 => by
    rw [List.foldl_cons]
    show l.foldl (amxStep m) (reducer_argmax_i1_i32 (0#1, 0#32) (m a, BitVec.ofNat 32 a.val)) = _
    rw [List.pairwise_cons] at hp
    by_cases har : a = r0
    · subst har
      rw [h1, amx_01]
      exact amx_fold_stay m a l hp.1
    · have hr : r0 ∈ l := (List.mem_cons.1 hmem).resolve_left (Ne.symm har)
      rw [h0 a List.mem_cons_self (hp.1 r0 hr), amx_00]
      exact amx_fold_first m r0 h1 l hp.2 hr fun k hk => h0 k (List.mem_cons_of_mem _ hk)

/-- THE ARG-MAX READ AT A POINT: the index result of the two-operand reduction of (bits, box numbers) over the
    box axis, from (0, 0), is the number of the first box whose bit is set. (The reduced axes and the numbering
    axis are named by the caller, with the facts that they are the box axis.) -/
theorem argmax_first (mk : IVec S8x65536 1) (axes : List (Fin S8x65536.rank)) (ax : Fin S8x65536.rank)
    (haxes : axes = [0]) (hax : ax = 0) (h : S8x65536.ReducesTo axes S65536) (hu : 0 < S_.numel) (n : Fin 65536)
    (r0 : Fin 8) (h1 : mk (ix2 r0 n) = 1#1) (h0 : ∀ k : Fin 8, k < r0 → mk (ix2 k n) = 0#1) :
    (Host.reduce2 reducer_argmax_i1_i32 mk (iotaInDim S8x65536 32 ax) (constantI S_ 1 0#1) (constantI S_ 32 0#32)
      h hu (ix1 n)).2 = BitVec.ofNat 32 r0.val := by
  subst haxes hax
  unfold Host.reduce2
  rw [filter_col h n, List.foldl_map]
  simp only [Equiv.symm_apply_apply]
  have := amx_fold_first (fun r => mk (ix2 r n)) r0 h1 (List.finRange 8) (List.pairwise_lt_finRange 8)
    (List.mem_finRange r0) (fun k _ hk => h0 k hk)
  exact congrArg Prod.snd this

/-! ## The gather along the box axis -/

/-- The gather's dimension numbers: one start index per point, naming a box; the point axis is a batching axis. -/
abbrev GD := gather_S8x65536_S1x65536x1_S1x65536_n_0_1_1_0_2_11

/-- THE GATHER READ AT POINT `n`: the operand at box `idx[0, n, 0]` (read signed, clamped into [0, 7]) and point `n`. -/
theorem gather_apply {α : Type} (x : S8x65536.Idx → α) (idx : IVec S1x65536x1 32) (n : Fin 65536) :
    Host.gather gather_S8x65536_S1x65536x1_S1x65536_n_0_1_1_0_2_11 x idx (ix2 0 n)
      = x (ix2 (⟨min (idx (ix3 0 n 0)).toInt.toNat 7, by omega⟩ : Fin 8) n) := by
  unfold Host.gather
  congr 1
  funext a
  refine Fin.ext ?_
  match a with
  | ⟨0, _⟩ =>
    show GD.start (ix2 0 n) idx 0 + GD.batchCoord (ix2 0 n) 0 + GD.offCoord (ix2 0 n) 0 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx (ix2 0 n) ⟨List.idxOf (0 : Fin 2) GD.startIndexMap,
        List.idxOf_lt_length_iff.2 (List.mem_singleton.mpr rfl)⟩ = ix3 0 n 0 := by
      funext b; refine Fin.ext ?_
      match b with
      | ⟨0, _⟩ => rfl
      | ⟨1, _⟩ => rfl
      | ⟨2, _⟩ => rfl
    rw [hsi]
    rfl
  | ⟨1, _⟩ =>
    show GD.start (ix2 0 n) idx 1 + GD.batchCoord (ix2 0 n) 1 + GD.offCoord (ix2 0 n) 1 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl

/-! ## Words: a box number as an index along the box axis -/

/-- A box number is not negative, so the index normalisation leaves it alone. -/
theorem norm_idx (r : Fin 8) :
    Scalar.select (IntOp.cmpi .slt (BitVec.ofNat 32 r.val) 0#32) (IntOp.addi (BitVec.ofNat 32 r.val) 8#32)
      (BitVec.ofNat 32 r.val) = BitVec.ofNat 32 r.val := by
  revert r; decide

/-- A box number is within [0, 7]. -/
theorem idx_in_range (r : Fin 8) :
    IntOp.andi (IntOp.cmpi .sge (BitVec.ofNat 32 r.val) 0#32) (IntOp.cmpi .sle (BitVec.ofNat 32 r.val) 7#32) = 1#1 := by
  revert r; decide

/-- Read signed and clamped into [0, 7], a box number is itself. -/
theorem idx_clamp (r : Fin 8) : min (BitVec.ofNat 32 r.val).toInt.toNat 7 = r.val := by
  revert r; decide

/-- The comparisons of the extended reals as one-bit words. -/
theorem cmp_oge (x y : EReal) : Ideal.cmp .oge x y = 1#1 ↔ y ≤ x := by
  unfold Ideal.cmp; by_cases h : y ≤ x <;> simp [h]

theorem cmp_ole (x y : EReal) : Ideal.cmp .ole x y = 1#1 ↔ x ≤ y := by
  unfold Ideal.cmp; by_cases h : x ≤ y <;> simp [h]

end Cert.RefRead

end
-- ==== Proof.RefReadLayers.lean ====
/-
  The pieces of the reference read at one box `r`, one point `n` (and one coordinate): the corners of the
  boxes, the points and rows broadcast over boxes and points, the normalised coordinates, the layers of the
  sine network, the value of every network at every point, and the box test.
-/
import proofs.«169230_j5729486373507_2_alg».proof.Proof.Spec
import proofs.«169230_j5729486373507_2_alg».proof.Proof.SpecLaws
import proofs.«169230_j5729486373507_2_alg».proof.Proof.RefTerm
import proofs.«169230_j5729486373507_2_alg».proof.Proof.RefReadOps

noncomputable section

open scoped BigOperators
open Idealize.ShloMosaic Idealize.ShloMosaic.ValueIdx Idealize.SL.Sem
open Cert.ReferenceIdeal

namespace Cert.RefRead

/-! ## Layout -/

theorem lo_apply (B : FVec Ideal S8x3x2 .f32) (r : Fin 8) (d : Fin 3) :
    RefTerm.lo B (ix3 r 0 d) = B (ix3 r d 0) := by
  unfold RefTerm.lo RefTerm.corner
  refine (broadcastInDim_apply _ _ _ (ix3 r 0 d) (ix2 r d) (fun a => ?_)).trans ?_
  · match a with
    | ⟨0, _⟩ => rfl
    | ⟨1, _⟩ => rfl
  refine (shapeCast_apply _ _ (ix2 r d) (ix3 r d 0) ?_).trans ?_
  · rw [Shape.rowMajor_val_three, Shape.rowMajor_val_two]
    show (r.val * 3 + d.val) * 1 + 0 = r.val * 3 + d.val
    omega
  refine extractStridedSlice_apply _ _ _ (ix3 r d 0) (ix3 r d 0) (fun a => ?_)
  match a with
  | ⟨0, _⟩ => show r.val = 0 + r.val; omega
  | ⟨1, _⟩ => show d.val = 0 + d.val; omega
  | ⟨2, _⟩ => rfl

theorem hi_apply (B : FVec Ideal S8x3x2 .f32) (r : Fin 8) (d : Fin 3) :
    RefTerm.hi B (ix3 r 0 d) = B (ix3 r d 1) := by
  unfold RefTerm.hi RefTerm.corner
  refine (broadcastInDim_apply _ _ _ (ix3 r 0 d) (ix2 r d) (fun a => ?_)).trans ?_
  · match a with
    | ⟨0, _⟩ => rfl
    | ⟨1, _⟩ => rfl
  refine (shapeCast_apply _ _ (ix2 r d) (ix3 r d 0) ?_).trans ?_
  · rw [Shape.rowMajor_val_three, Shape.rowMajor_val_two]
    show (r.val * 3 + d.val) * 1 + 0 = r.val * 3 + d.val
    omega
  refine extractStridedSlice_apply _ _ _ (ix3 r d 0) (ix3 r d 1) (fun a => ?_)
  match a with
  | ⟨0, _⟩ => show r.val = 0 + r.val; omega
  | ⟨1, _⟩ => show d.val = 0 + d.val; omega
  | ⟨2, _⟩ => rfl

theorem xb_apply (X : FVec Ideal S65536x3 .f32) (r : Fin 8) (n : Fin 65536) (d : Fin 3) :
    RefTerm.xb X (ix3 r n d) = X (ix2 n d) := by
  unfold RefTerm.xb
  refine (broadcastInDim_apply _ _ _ (ix3 r n d) (ix3 0 n d) (fun a => ?_)).trans ?_
  · match a with
    | ⟨0, _⟩ => rfl
    | ⟨1, _⟩ => rfl
    | ⟨2, _⟩ => rfl
  refine broadcastInDim_apply _ _ _ (ix3 0 n d) (ix2 n d) (fun a => ?_)
  match a with
  | ⟨0, _⟩ => rfl
  | ⟨1, _⟩ => rfl

theorem rowb_apply (v : FVec Ideal S8x1x3 .f32) (r : Fin 8) (n : Fin 65536) (d : Fin 3) :
    RefTerm.rowb v (ix3 r n d) = v (ix3 r 0 d) := by
  unfold RefTerm.rowb
  refine broadcastInDim_apply _ _ _ (ix3 r n d) (ix3 r 0 d) (fun a => ?_)
  match a with
  | ⟨0, _⟩ => rfl
  | ⟨1, _⟩ => rfl
  | ⟨2, _⟩ => rfl

theorem splat3_apply (b : BitVec 32) (i : S8x65536x3.Idx) :
    RefTerm.splat3 (F := Ideal) b i = Ideal.ofBits .f32 b := by
  unfold RefTerm.splat3
  rw [broadcastInDim_scalar_apply]
  rfl

theorem scb_apply (Sc : FVec Ideal S8x3 .f32) (r : Fin 8) (d : Fin 3) :
    broadcastInDim S8x1x3 ![0, 2] Facts₀.bcast_S8x3_S8x1x3_0_2 Sc (ix3 r 0 d) = Sc (ix2 r d) := by
  refine broadcastInDim_apply _ _ _ (ix3 r 0 d) (ix2 r d) (fun a => ?_)
  match a with
  | ⟨0, _⟩ => rfl
  | ⟨1, _⟩ => rfl

/-! ## The normalised coordinates -/

theorem xn_apply (X : FVec Ideal S65536x3 .f32) (B : FVec Ideal S8x3x2 .f32) (Sc : FVec Ideal S8x3 .f32)
    (r : Fin 8) (n : Fin 65536) (d : Fin 3) :
    RefTerm.xn X B Sc (ix3 r n d)
      = (Ideal.div (Spec.two * (X (ix2 n d) - B (ix3 r d 0))) (B (ix3 r d 1) - B (ix3 r d 0)) - Spec.one) * Sc (ix2 r d) := by
  unfold RefTerm.xn
  rw [mulf_apply, subf_apply, hostDivf_apply, mulf_apply, subf_apply, splat3_apply, splat3_apply, xb_apply,
    rowb_apply, rowb_apply, rowb_apply, lo_apply, subf_apply, hi_apply, lo_apply, scb_apply]

/-! ## The layers -/

theorem biasb_apply (b : FVec Ideal S8x128 .f32) (r : Fin 8) (n : Fin 65536) (k : Fin 128) :
    RefTerm.biasb b (ix3 r n k) = b (ix2 r k) := by
  unfold RefTerm.biasb
  refine (broadcastInDim_apply _ _ _ (ix3 r n k) (ix3 r 0 k) (fun a => ?_)).trans ?_
  · match a with
    | ⟨0, _⟩ => rfl
    | ⟨1, _⟩ => rfl
    | ⟨2, _⟩ => rfl
  refine broadcastInDim_apply _ _ _ (ix3 r 0 k) (ix2 r k) (fun a => ?_)
  match a with
  | ⟨0, _⟩ => rfl
  | ⟨1, _⟩ => rfl

theorem act_apply (z : FVec Ideal S8x65536x128 .f32) (i : S8x65536x128.Idx) :
    RefTerm.act z i = Spec.act (z i) := by
  unfold RefTerm.act Spec.act
  show Ideal.sin (broadcastInDim S8x65536x128 ![] _ (constant (F := Ideal) S_ .f32 0x41F00000#32) i * z i) = _
  rw [broadcastInDim_scalar_apply]
  rfl

theorem h0_apply (u : FVec Ideal S8x65536x3 .f32) (Win : FVec Ideal S8x3x128 .f32) (bin : FVec Ideal S8x128 .f32)
    (r : Fin 8) (n : Fin 65536) (k : Fin 128) :
    RefTerm.h0 u Win bin (ix3 r n k)
      = Spec.act ((∑ c : Fin 3, u (ix3 r n c) * Win (ix3 r c k)) + bin (ix2 r k)) := by
  unfold RefTerm.h0
  rw [act_apply, addf_apply, dot0_apply, biasb_apply]

theorem whl_apply (l : Nat) (hl : l < 3) (hs : S8x3x128x128.Slices ![0, l, 0, 0] S8x1x128x128) (Wh : FVec Ideal S8x3x128x128 .f32)
    (r : Fin 8) (j k : Fin 128) :
    RefTerm.whl ![0, l, 0, 0] hs Wh (ix3 r j k) = Wh (ix4 r (⟨l, hl⟩ : Fin 3) j k) := by
  unfold RefTerm.whl
  refine (shapeCast_apply _ _ (ix3 r j k) (ix4 r 0 j k) ?_).trans ?_
  · rw [Shape.rowMajor_val_four, Shape.rowMajor_val_three]
    show ((r.val * 1 + 0) * 128 + j.val) * 128 + k.val = (r.val * 128 + j.val) * 128 + k.val
    omega
  refine extractStridedSlice_apply _ _ _ (ix4 r 0 j k) (ix4 r (⟨l, hl⟩ : Fin 3) j k) (fun a => ?_)
  match a with
  | ⟨0, _⟩ => show r.val = 0 + r.val; omega
  | ⟨1, _⟩ => rfl
  | ⟨2, _⟩ => show j.val = 0 + j.val; omega
  | ⟨3, _⟩ => show k.val = 0 + k.val; omega

theorem bhl_apply (l : Nat) (hl : l < 3) (hs : S8x3x128.Slices ![0, l, 0] S8x1x128) (bh : FVec Ideal S8x3x128 .f32)
    (r : Fin 8) (k : Fin 128) :
    RefTerm.bhl ![0, l, 0] hs bh (ix2 r k) = bh (ix3 r (⟨l, hl⟩ : Fin 3) k) := by
  unfold RefTerm.bhl
  refine (shapeCast_apply _ _ (ix2 r k) (ix3 r 0 k) ?_).trans ?_
  · rw [Shape.rowMajor_val_three, Shape.rowMajor_val_two]
    show (r.val * 1 + 0) * 128 + k.val = r.val * 128 + k.val
    omega
  refine extractStridedSlice_apply _ _ _ (ix3 r 0 k) (ix3 r (⟨l, hl⟩ : Fin 3) k) (fun a => ?_)
  match a with
  | ⟨0, _⟩ => show r.val = 0 + r.val; omega
  | ⟨1, _⟩ => rfl
  | ⟨2, _⟩ => show k.val = 0 + k.val; omega

theorem hid_apply (h : FVec Ideal S8x65536x128 .f32) (W : FVec Ideal S8x128x128 .f32) (b : FVec Ideal S8x128 .f32)
    (r : Fin 8) (n : Fin 65536) (k : Fin 128) :
    RefTerm.hid h W b (ix3 r n k)
      = Spec.act ((∑ j : Fin 128, h (ix3 r n j) * W (ix3 r j k)) + b (ix2 r k)) := by
  unfold RefTerm.hid
  rw [act_apply, addf_apply, dot1_apply, biasb_apply]

theorem vis_apply (h : FVec Ideal S8x65536x128 .f32) (Wout : FVec Ideal S8x128x1 .f32) (bout : FVec Ideal S8x1 .f32)
    (r : Fin 8) (n : Fin 65536) :
    RefTerm.vis h Wout bout (ix2 r n) = (∑ j : Fin 128, h (ix3 r n j) * Wout (ix3 r j 0)) + bout (ix2 r 0) := by
  unfold RefTerm.vis
  refine (shapeCast_apply _ _ (ix2 r n) (ix3 r n 0) ?_).trans ?_
  · rw [Shape.rowMajor_val_three, Shape.rowMajor_val_two]
    show (r.val * 65536 + n.val) * 1 + 0 = r.val * 65536 + n.val
    omega
  rw [addf_apply, dot2_apply]
  congr 1
  refine (broadcastInDim_apply _ _ _ (ix3 r n 0) (ix3 r 0 0) (fun a => ?_)).trans ?_
  · match a with
    | ⟨0, _⟩ => rfl
    | ⟨1, _⟩ => rfl
    | ⟨2, _⟩ => rfl
  refine broadcastInDim_apply _ _ _ (ix3 r 0 0) (ix2 r 0) (fun a => ?_)
  match a with
  | ⟨0, _⟩ => rfl
  | ⟨1, _⟩ => rfl

/-- The three hidden layers over the input layer, at box `r` and point `n`: the specification's layers on the
    coordinates `u (r, n, ·)`. -/
theorem h3_apply (u : FVec Ideal S8x65536x3 .f32) (a1 : FVec Ideal S8x3x128 .f32) (a2 : FVec Ideal S8x128 .f32)
    (a3 : FVec Ideal S8x3x128x128 .f32) (a4 : FVec Ideal S8x3x128 .f32) (A : Spec.Args)
    (hWin : ∀ r d k, a1 (ix3 r d k) = A.Win r d k) (hbin : ∀ r k, a2 (ix2 r k) = A.bin r k)
    (hWh : ∀ r l j k, a3 (ix4 r l j k) = A.Wh r l j k) (hbh : ∀ r l k, a4 (ix3 r l k) = A.bh r l k)
    (r : Fin 8) (n : Fin 65536) (k : Fin 128) :
    RefTerm.h3 u a1 a2 a3 a4 (ix3 r n k)
      = Spec.lh A r 2 (Spec.lh A r 1 (Spec.lh A r 0 (Spec.l0 A r (fun c => u (ix3 r n c))))) k := by
  unfold RefTerm.h3
  have e0 : ∀ k, RefTerm.h0 u a1 a2 (ix3 r n k) = Spec.l0 A r (fun c => u (ix3 r n c)) k := fun k => by
    rw [h0_apply, hbin]; simp only [hWin]; rfl
  have e1 : ∀ k, RefTerm.hid (RefTerm.h0 u a1 a2)
      (RefTerm.whl ![0, 0, 0, 0] Facts₀.slices_S8x3x128x128_S8x1x128x128_0_0_0_0 a3)
      (RefTerm.bhl ![0, 0, 0] Facts₀.slices_S8x3x128_S8x1x128_0_0_0 a4) (ix3 r n k)
        = Spec.lh A r 0 (Spec.l0 A r (fun c => u (ix3 r n c))) k := fun k => by
    rw [hid_apply, bhl_apply 0 (by decide), hbh]
    simp only [e0, whl_apply 0 (by decide), hWh]
    rfl
  have e2 : ∀ k, RefTerm.hid (RefTerm.hid (RefTerm.h0 u a1 a2)
      (RefTerm.whl ![0, 0, 0, 0] Facts₀.slices_S8x3x128x128_S8x1x128x128_0_0_0_0 a3)
      (RefTerm.bhl ![0, 0, 0] Facts₀.slices_S8x3x128_S8x1x128_0_0_0 a4))
      (RefTerm.whl ![0, 1, 0, 0] Facts₀.slices_S8x3x128x128_S8x1x128x128_0_1_0_0 a3)
      (RefTerm.bhl ![0, 1, 0] Facts₀.slices_S8x3x128_S8x1x128_0_1_0 a4) (ix3 r n k)
        = Spec.lh A r 1 (Spec.lh A r 0 (Spec.l0 A r (fun c => u (ix3 r n c)))) k := fun k => by
    rw [hid_apply, bhl_apply 1 (by decide), hbh]
    simp only [e1, whl_apply 1 (by decide), hWh]
    rfl
  rw [hid_apply, bhl_apply 2 (by decide), hbh]
  simp only [e2, whl_apply 2 (by decide), hWh]
  rfl

/-! ## The box test -/

theorem mask_apply (X : FVec Ideal S65536x3 .f32) (B : FVec Ideal S8x3x2 .f32) (r : Fin 8) (n : Fin 65536) :
    RefTerm.mask X B (ix2 r n) = 1#1 ↔ ∀ d : Fin 3, B (ix3 r d 0) ≤ X (ix2 n d) ∧ X (ix2 n d) ≤ B (ix3 r d 1) := by
  unfold RefTerm.mask
  rw [reduce_andi_last _ _ rfl]
  refine forall_congr' fun d => ?_
  show IntOp.andi (Ideal.cmp .oge (RefTerm.xb X (ix3 r n d)) (RefTerm.rowb (RefTerm.lo B) (ix3 r n d)))
      (Ideal.cmp .ole (RefTerm.xb X (ix3 r n d)) (RefTerm.rowb (RefTerm.hi B) (ix3 r n d))) = 1#1 ↔ _
  rw [IntOp.andi_eq_one, cmp_oge, cmp_ole, xb_apply, rowb_apply, rowb_apply, lo_apply, hi_apply]

end Cert.RefRead

end
-- ==== Proof.RefRead.lean ====
/-
  The reference read at a point is the specification: at point `n` the reference's result is the value of the
  first box that contains the point — the arg-max of the box test over the box axis names that box, the
  take along the box axis reads its network's value — and zero when no box contains it.
-/
import proofs.«169230_j5729486373507_2_alg».proof.Proof.Spec
import proofs.«169230_j5729486373507_2_alg».proof.Proof.SpecLaws
import proofs.«169230_j5729486373507_2_alg».proof.Proof.RefTerm
import proofs.«169230_j5729486373507_2_alg».proof.Proof.RefReadOps
import proofs.«169230_j5729486373507_2_alg».proof.Proof.RefReadLayers

noncomputable section

open scoped BigOperators
open Idealize.ShloMosaic Idealize.ShloMosaic.ValueIdx Idealize.SL.Sem

namespace Cert.RefRead
open Cert.ReferenceIdeal

/-! ## The take along the box axis -/

theorem takeIdx_apply (ridx : IVec S1x65536 32) (n : Fin 65536) :
    RefTerm.takeIdx ridx (ix3 0 n 0)
      = Scalar.select (IntOp.cmpi .slt (ridx (ix2 0 n)) 0#32) (IntOp.addi (ridx (ix2 0 n)) 8#32) (ridx (ix2 0 n)) := by
  unfold RefTerm.takeIdx
  refine (shapeCast_apply _ _ (ix3 0 n 0) (ix2 0 n) ?_).trans ?_
  · rw [Shape.rowMajor_val_three, Shape.rowMajor_val_two]
    show 0 * 65536 + n.val = (0 * 65536 + n.val) * 1 + 0
    omega
  rfl

theorem bcast_rid_apply (v : IVec S65536 32) (n : Fin 65536) :
    broadcastInDim S1x65536 ![1] Facts₀.bcast_S65536_S1x65536_1 v (ix2 0 n) = v (ix1 n) := by
  refine broadcastInDim_apply _ _ _ (ix2 0 n) (ix1 n) (fun a => ?_)
  match a with
  | ⟨0, _⟩ => rfl

/-- With a box number as the index, the take reads that box's value at the point. -/
theorem take_apply (v : FVec Ideal S8x65536 .f32) (ridx : IVec S1x65536 32) (n : Fin 65536) (r0 : Fin 8)
    (hr : ridx (ix2 0 n) = BitVec.ofNat 32 r0.val) : RefTerm.take v ridx (ix2 0 n) = v (ix2 r0 n) := by
  have hidx : RefTerm.takeIdx ridx (ix3 0 n 0) = BitVec.ofNat 32 r0.val := by rw [takeIdx_apply, hr, norm_idx]
  unfold RefTerm.take
  rw [select_apply, Scalar.select, if_pos]
  · rw [gather_apply]
    have e : (⟨min (RefTerm.takeIdx ridx (ix3 0 n 0)).toInt.toNat 7, by omega⟩ : Fin 8) = r0 :=
      Fin.ext (by show min (RefTerm.takeIdx ridx (ix3 0 n 0)).toInt.toNat 7 = r0.val; rw [hidx]; exact idx_clamp r0)
    rw [e]
  · show _ = 1#1
    rw [reduce_andi_unit _ _ rfl]
    show IntOp.andi (IntOp.cmpi .sge (RefTerm.takeIdx ridx (ix3 0 n 0)) 0#32)
      (IntOp.cmpi .sle (RefTerm.takeIdx ridx (ix3 0 n 0)) 7#32) = 1#1
    rw [hidx]; exact idx_in_range r0

/-! ## The result at a point -/

/-- The box test at box `r` and the point is the specification's. -/
theorem mask_ins (a0 : FVec Ideal S65536x3 .f32) (a8 : FVec Ideal S8x3x2 .f32) (n : Fin 65536)
    (A : Spec.Args) (x : Fin 3 → EReal) (hlo : ∀ r d, a8 (ix3 r d 0) = A.lo r d)
    (hhi : ∀ r d, a8 (ix3 r d 1) = A.hi r d) (hx : ∀ d, a0 (ix2 n d) = x d) (r : Fin 8) :
    RefTerm.mask a0 a8 (ix2 r n) = 1#1 ↔ Spec.ins A r x := by
  rw [mask_apply]; unfold Spec.ins; simp only [hlo, hhi, hx]

/-- The value of network `r` at the point is the specification's. -/
theorem vis_spec (a0 : FVec Ideal S65536x3 .f32) (a1 : FVec Ideal S8x3x128 .f32) (a2 : FVec Ideal S8x128 .f32)
    (a3 : FVec Ideal S8x3x128x128 .f32) (a4 : FVec Ideal S8x3x128 .f32) (a5 : FVec Ideal S8x128x1 .f32)
    (a6 : FVec Ideal S8x1 .f32) (a7 : FVec Ideal S8x3 .f32) (a8 : FVec Ideal S8x3x2 .f32) (n : Fin 65536)
    (A : Spec.Args) (x : Fin 3 → EReal)
    (hWin : ∀ r d k, a1 (ix3 r d k) = A.Win r d k) (hbin : ∀ r k, a2 (ix2 r k) = A.bin r k)
    (hWh : ∀ r l j k, a3 (ix4 r l j k) = A.Wh r l j k) (hbh : ∀ r l k, a4 (ix3 r l k) = A.bh r l k)
    (hWout : ∀ r j, a5 (ix3 r j 0) = A.Wout r j) (hbout : ∀ r, a6 (ix2 r 0) = A.bout r)
    (hSc : ∀ r d, a7 (ix2 r d) = A.Sc r d) (hlo : ∀ r d, a8 (ix3 r d 0) = A.lo r d)
    (hhi : ∀ r d, a8 (ix3 r d 1) = A.hi r d) (hx : ∀ d, a0 (ix2 n d) = x d) (r : Fin 8) :
    RefTerm.vis (RefTerm.h3 (RefTerm.xn a0 a8 a7) a1 a2 a3 a4) a5 a6 (ix2 r n) = Spec.visOf A r (Spec.xnR A r x) := by
  have hu : (fun c => RefTerm.xn a0 a8 a7 (ix3 r n c)) = Spec.xnR A r x := by
    funext c; rw [xn_apply, hlo, hhi, hSc, hx]; rfl
  rw [vis_apply, hbout]
  simp only [h3_apply _ a1 a2 a3 a4 A hWin hbin hWh hbh, hWout, hu]
  rfl

/-- Some box contains the point exactly when the "any" over the box axis is set. -/
theorem valid_iff (mk : IVec S8x65536 1) (n : Fin 65536) :
    RefTerm.valid mk (ix1 n) = 1#1 ↔ ∃ r : Fin 8, mk (ix2 r n) = 1#1 := by
  unfold RefTerm.valid; exact reduce_ori_first _ _ rfl _ _ n

/-- The arg-max over the box axis is the first box whose bit is set. -/
theorem rid_first (mk : IVec S8x65536 1) (n : Fin 65536) (r0 : Fin 8) (h1 : mk (ix2 r0 n) = 1#1)
    (h0 : ∀ k : Fin 8, k < r0 → mk (ix2 k n) = 0#1) : RefTerm.rid mk (ix1 n) = BitVec.ofNat 32 r0.val := by
  rw [RefTerm.rid]; exact argmax_first mk _ _ rfl rfl _ _ n r0 h1 h0

/-- The result at a point from the three pieces: the bits of the box test, and every network's value. -/
theorem out_of_pieces (mk : IVec S8x65536 1) (v : FVec Ideal S8x65536 .f32) (n : Fin 65536)
    (p : Fin 8 → Prop) (w : Fin 8 → EReal) (hmask : ∀ r, mk (ix2 r n) = 1#1 ↔ p r) (hvis : ∀ r, v (ix2 r n) = w r) :
    select (RefTerm.valid mk)
      (shapeCast S65536
        (RefTerm.take v (broadcastInDim S1x65536 ![1] Facts₀.bcast_S65536_S1x65536_1 (RefTerm.rid mk)))
        Facts₀.shapeCasts_S1x65536_S65536)
      (broadcastInDim S65536 ![] Facts₀.bcast_S_S65536 (id (constant (F := Ideal) S_ .f32 0x00000000#32))) (ix1 n)
      = Spec.pick p w := by
  rw [select_apply]
  by_cases hex : ∃ r, p r
  · obtain ⟨r0, hr0, hmin'⟩ := wellFounded_lt.has_min {r : Fin 8 | p r} hex
    have hmin : ∀ r' : Fin 8, r' < r0 → ¬ p r' := fun r' hlt hin => hmin' r' hin hlt
    rw [Spec.pick_of_first (p := p) r0 hr0 hmin]
    rw [(valid_iff mk n).2 ⟨r0, (hmask r0).2 hr0⟩, select_one]
    refine (shapeCast_apply _ _ (ix1 n) (ix2 0 n) ?_).trans ?_
    · rw [Shape.rowMajor_val_two, Shape.rowMajor_val_one]
      show 0 * 65536 + n.val = n.val
      omega
    have hrid : RefTerm.rid mk (ix1 n) = BitVec.ofNat 32 r0.val :=
      rid_first mk n r0 ((hmask r0).2 hr0) (fun k hk => eq_zero_of_ne_one (fun h => hmin k hk ((hmask k).1 h)))
    rw [take_apply _ _ n r0 (by rw [bcast_rid_apply]; exact hrid)]
    exact hvis r0
  · have hnone : ∀ r, ¬ p r := fun r h => hex ⟨r, h⟩
    rw [Spec.pick_of_none (p := p) hnone]
    have hv : RefTerm.valid mk (ix1 n) = 0#1 := by
      apply eq_zero_of_ne_one
      intro h
      obtain ⟨r, hr⟩ := (valid_iff mk n).1 h
      exact hnone r ((hmask r).1 hr)
    rw [hv, select_zero, broadcastInDim_scalar_apply]
    rfl

theorem out_core (a0 : FVec Ideal S65536x3 .f32) (a1 : FVec Ideal S8x3x128 .f32) (a2 : FVec Ideal S8x128 .f32)
    (a3 : FVec Ideal S8x3x128x128 .f32) (a4 : FVec Ideal S8x3x128 .f32) (a5 : FVec Ideal S8x128x1 .f32)
    (a6 : FVec Ideal S8x1 .f32) (a7 : FVec Ideal S8x3 .f32) (a8 : FVec Ideal S8x3x2 .f32) (n : Fin 65536)
    (A : Spec.Args) (x : Fin 3 → EReal)
    (hWin : ∀ r d k, a1 (ix3 r d k) = A.Win r d k) (hbin : ∀ r k, a2 (ix2 r k) = A.bin r k)
    (hWh : ∀ r l j k, a3 (ix4 r l j k) = A.Wh r l j k) (hbh : ∀ r l k, a4 (ix3 r l k) = A.bh r l k)
    (hWout : ∀ r j, a5 (ix3 r j 0) = A.Wout r j) (hbout : ∀ r, a6 (ix2 r 0) = A.bout r)
    (hSc : ∀ r d, a7 (ix2 r d) = A.Sc r d) (hlo : ∀ r d, a8 (ix3 r d 0) = A.lo r d)
    (hhi : ∀ r d, a8 (ix3 r d 1) = A.hi r d) (hx : ∀ d, a0 (ix2 n d) = x d) :
    Cert.RefTerm.out (F := Ideal) a0 a1 a2 a3 a4 a5 a6 a7 a8 (ix1 n) = Cert.Spec.outR A x :=
  out_of_pieces (RefTerm.mask a0 a8) (RefTerm.vis (RefTerm.h3 (RefTerm.xn a0 a8 a7) a1 a2 a3 a4) a5 a6) n
    (fun r => Spec.ins A r x) (fun r => Spec.visOf A r (Spec.xnR A r x))
    (mask_ins a0 a8 n A x hlo hhi hx)
    (vis_spec a0 a1 a2 a3 a4 a5 a6 a7 a8 n A x hWin hbin hWh hbh hWout hbout hSc hlo hhi hx)

/-- THE REFERENCE AT POINT `n` is the specification's output on that point's coordinates. -/
theorem out_apply (a0 : FVec Ideal S65536x3 .f32) (a1 : FVec Ideal S8x3x128 .f32) (a2 : FVec Ideal S8x128 .f32)
    (a3 : FVec Ideal S8x3x128x128 .f32) (a4 : FVec Ideal S8x3x128 .f32) (a5 : FVec Ideal S8x128x1 .f32)
    (a6 : FVec Ideal S8x1 .f32) (a7 : FVec Ideal S8x3 .f32) (a8 : FVec Ideal S8x3x2 .f32) (n : Fin 65536) :
    Cert.RefTerm.out (F := Ideal) a0 a1 a2 a3 a4 a5 a6 a7 a8 (ix1 n)
      = Cert.Spec.outR (Cert.Spec.argsOf a1 a2 a3 a4 (fun r j => a5 (ix3 r j 0)) a6 a7 a8) (fun d => a0 (ix2 n d)) :=
  out_core a0 a1 a2 a3 a4 a5 a6 a7 a8 n _ _ (fun _ _ _ => rfl) (fun _ _ => rfl) (fun _ _ _ _ => rfl)
    (fun _ _ _ => rfl) (fun _ _ => rfl) (fun _ => rfl) (fun _ _ => rfl) (fun _ _ => rfl) (fun _ _ => rfl) (fun _ => rfl)

end Cert.RefRead

end
-- ==== Proof.lean ====
/-
  The proof of `Cert.Claim`: the three frames, `preserves` (the ideal pass rewrote nothing) and the
  algebraic claim between the idealized kernel program and the idealized reference.

  The mathematics.  For each of 65536 points and eight axis-aligned boxes both programs evaluate the
  small sine network of the FIRST box that contains the point, on the point's coordinates normalised to
  that box, and give zero when no box contains it (the specification: Proof/Spec.lean).  The kernel
  program does it block by block of 4096 points, for every box in turn, keeping the first value whose
  box test holds (an unrolled chain of conditional replacements), and normalises by a guarded reciprocal
  of the box's extent; the reference does it for all boxes at once, takes the arg-max of the boolean box
  test along the box axis, reads the value there and divides by the extent.  Matrix products, lane sums
  and host sums are the same finite sums on the extended reals.  The precondition excludes a zero extent;
  a box that contains a point then has a positive extent on every axis, where the product with the
  guarded reciprocal is the quotient; and no other box is read.
-/
import proofs.«169230_j5729486373507_2_alg».proof.Defs
import proofs.«169230_j5729486373507_2_alg».proof.Proof.Gen.Kernel
import proofs.«169230_j5729486373507_2_alg».proof.Proof.Gen.Kernel.Skeleton
import proofs.«169230_j5729486373507_2_alg».proof.Proof.Gen.Kernel.Launch
import proofs.«169230_j5729486373507_2_alg».proof.Proof.Gen.Kernel.Points
import proofs.«169230_j5729486373507_2_alg».proof.Proof.Gen.Kernel.Frame
import proofs.«169230_j5729486373507_2_alg».proof.Proof.Gen.KernelIdeal
import proofs.«169230_j5729486373507_2_alg».proof.Proof.Gen.KernelIdeal.Skeleton
import proofs.«169230_j5729486373507_2_alg».proof.Proof.Gen.KernelIdeal.Launch
import proofs.«169230_j5729486373507_2_alg».proof.Proof.Gen.KernelIdeal.Points
import proofs.«169230_j5729486373507_2_alg».proof.Proof.Gen.KernelIdeal.Frame
import proofs.«169230_j5729486373507_2_alg».proof.Proof.Gen.ReferenceIdeal
import proofs.«169230_j5729486373507_2_alg».proof.Proof.Gen.Pre_finite_inputs
import proofs.«169230_j5729486373507_2_alg».proof.Proof.SpecLaws
import proofs.«169230_j5729486373507_2_alg».proof.Proof.PreDecode
import proofs.«169230_j5729486373507_2_alg».proof.Proof.KerValue
import proofs.«169230_j5729486373507_2_alg».proof.Proof.KerPay
import proofs.«169230_j5729486373507_2_alg».proof.Proof.RefRun
import proofs.«169230_j5729486373507_2_alg».proof.Proof.RefRead
import Idealize.ShloMosaic.Adequacy
import Idealize.ShloMosaic.Init

noncomputable section

namespace Cert.Proof.Claims

open Idealize.ShloMosaic Idealize.ShloMosaic.ValueIdx Idealize.SL.Sem

/-- The word-level kernel: its generated frame. -/
theorem frame_k : Cert.frame_Kernel := fun m ρ _ => Cert.Kernel.Gen.frame m ρ

/-- The idealized kernel: its generated frame. -/
theorem frame_ki : Cert.frame_KernelIdeal := fun m ρ _ => Cert.KernelIdeal.Gen.frame m ρ

/-- The idealized reference: its run, the result dropped. -/
theorem frame_ri : Cert.frame_ReferenceIdeal := fun m ρ _ =>
  (θ_run Cert.ReferenceIdeal.defs _ _).mono (fun _ h c => (h c).2) (Cert.RefRun.run (F := Ideal) m ρ)

/-- The ideal pass rewrote nothing. -/
theorem preserves : Cert.preserves_Kernel_KernelIdeal := trivial

/-- At the ideal instance the kernel program ends with entry `n` of its result at the specification's output at point
    `n` with the guarded reciprocal, the reference with the quotient; the precondition excludes a zero extent, and
    then the two outputs are one extended real (only a box containing the point is read, and there the extent is
    positive). -/
theorem algebraic : Cert.algebraic_KernelIdeal_ReferenceIdeal := by
  intro m ρ m' ρ' hpre hagree
  refine ⟨fun c => Cert.KerValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KerValue.run m ρ Cert.KerPay.out_apply, ?_⟩
  refine (θ_run Cert.ReferenceIdeal.defs _ _).mono (fun _ h c => ⟨(h c).1.trans ?_, (h c).2⟩)
    (Cert.RefRun.run (F := Ideal) m' ρ')
  obtain ⟨e0, e1, e2, e3, e4, e5, e6, e7, e8⟩ := hagree c
  rw [e0, e1, e2, e3, e4, e5, e6, e7, e8]
  funext i
  obtain ⟨n, rfl⟩ : ∃ n : Fin 65536, i = ix1 n := ⟨i 0, eq_ix1 i⟩
  rw [Cert.RefRead.out_apply]
  unfold Cert.KerValue.result Cert.KerValue.outAt
  exact (Cert.Spec.outK_eq_outR _ _ fun r d => Cert.PreDecode.hi_ne_lo _ _ _ _ _ _ _ _ _ (hpre c) r d).symm

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
